-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_v131) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x80 : Shape := ⟨2, ![262144, 80]⟩
abbrev S262144x4 : Shape := ⟨2, ![262144, 4]⟩
abbrev S262144x1 : Shape := ⟨2, ![262144, 1]⟩
abbrev S262144 : Shape := ⟨1, ![262144]⟩
abbrev S_ : Shape := ⟨0, ![]⟩

class Facts : Prop where
  bcast_S_S262144x80 : S_.BroadcastsInDim S262144x80 (![] : Fin 0 → Fin S262144x80.rank)
  reducesTo_S262144x80_S_d0_1 : S262144x80.ReducesTo [0, 1] S_
  h_S_ : 0 < S_.numel
  bcast_S_S262144x4 : S_.BroadcastsInDim S262144x4 (![] : Fin 0 → Fin S262144x4.rank)
  reducesTo_S262144x4_S_d0_1 : S262144x4.ReducesTo [0, 1] S_
  bcast_S_S262144x1 : S_.BroadcastsInDim S262144x1 (![] : Fin 0 → Fin S262144x1.rank)
  reducesTo_S262144x1_S_d0_1 : S262144x1.ReducesTo [0, 1] S_

variable [Facts]

def fn_part1 {F : FTy → Type} [FloatOps F] (main_arg5 : FVec F S262144x1 .f32) (main_v13 : IVec S_ 1) (main_v16 : IVec S262144x4 1) : IVec S_ 1 :=
  let main_c_5 : IVec S_ 1 := constantI S_ 1 1#1
  let main_v17 : IVec S_ 1 := (fun x v => Host.reduce IntOp.andi x v reducesTo_S262144x4_S_d0_1 h_S_) main_v16 main_c_5
  let main_v18 : IVec S_ 1 := andi main_v13 main_v17
  let main_v19 : FVec F S262144x1 .f32 := Host.absf main_arg5
  let main_cst_6 : FVec F S_ .f32 := constant S_ .f32 0x7F800000#32
  let main_v20 : FVec F S262144x1 .f32 := broadcastInDim S262144x1 ![] bcast_S_S262144x1 main_cst_6
  let main_v21 : IVec S262144x1 1 := cmpf .olt main_v19 main_v20
  let main_c_7 : IVec S_ 1 := constantI S_ 1 1#1
  let main_v22 : IVec S_ 1 := (fun x v => Host.reduce IntOp.andi x v reducesTo_S262144x1_S_d0_1 h_S_) main_v21 main_c_7
  let main_v23 : IVec S_ 1 := andi main_v18 main_v22
  main_v23

def fn {F : FTy → Type} [FloatOps F] (main_arg0 : FVec F S262144x80 .f32) (main_arg1 : FVec F S262144x4 .f32) (main_arg2 : FVec F S262144x1 .f32) (main_arg3 : IVec S262144 32) (main_arg4 : FVec F S262144x4 .f32) (main_arg5 : FVec F S262144x1 .f32) (main_arg6 : IVec S262144 1) : IVec S_ 1 :=
  let main_v0 : FVec F S262144x80 .f32 := Host.absf main_arg0
  let main_cst : FVec F S_ .f32 := constant S_ .f32 0x7F800000#32
  let main_v1 : FVec F S262144x80 .f32 := broadcastInDim S262144x80 ![] bcast_S_S262144x80 main_cst
  let main_v2 : IVec S262144x80 1 := cmpf .olt main_v0 main_v1
  let main_c : IVec S_ 1 := constantI S_ 1 1#1
  let main_v3 : IVec S_ 1 := (fun x v => Host.reduce IntOp.andi x v reducesTo_S262144x80_S_d0_1 h_S_) main_v2 main_c
  let main_v4 : FVec F S262144x4 .f32 := Host.absf main_arg1
  let main_cst_0 : FVec F S_ .f32 := constant S_ .f32 0x7F800000#32
  let main_v5 : FVec F S262144x4 .f32 := broadcastInDim S262144x4 ![] bcast_S_S262144x4 main_cst_0
  let main_v6 : IVec S262144x4 1 := cmpf .olt main_v4 main_v5
  let main_c_1 : IVec S_ 1 := constantI S_ 1 1#1
  let main_v7 : IVec S_ 1 := (fun x v => Host.reduce IntOp.andi x v reducesTo_S262144x4_S_d0_1 h_S_) main_v6 main_c_1
  let main_v8 : IVec S_ 1 := andi main_v3 main_v7
  let main_v9 : FVec F S262144x1 .f32 := Host.absf main_arg2
  let main_cst_2 : FVec F S_ .f32 := constant S_ .f32 0x7F800000#32
  let main_v10 : FVec F S262144x1 .f32 := broadcastInDim S262144x1 ![] bcast_S_S262144x1 main_cst_2
  let main_v11 : IVec S262144x1 1 := cmpf .olt main_v9 main_v10
  let main_c_3 : IVec S_ 1 := constantI S_ 1 1#1
  let main_v12 : IVec S_ 1 := (fun x v => Host.reduce IntOp.andi x v reducesTo_S262144x1_S_d0_1 h_S_) main_v11 main_c_3
  let main_v13 : IVec S_ 1 := andi main_v8 main_v12
  let main_v14 : FVec F S262144x4 .f32 := Host.absf main_arg4
  let main_cst_4 : FVec F S_ .f32 := constant S_ .f32 0x7F800000#32
  let main_v15 : FVec F S262144x4 .f32 := broadcastInDim S262144x4 ![] bcast_S_S262144x4 main_cst_4
  let main_v16 : IVec S262144x4 1 := cmpf .olt main_v14 main_v15
  fn_part1 (F := F) main_arg5 main_v13 main_v16
-- ==== Kernel.lean ====
abbrev S262144x80 : Shape := ⟨2, ![262144, 80]⟩
abbrev S262144x4 : Shape := ⟨2, ![262144, 4]⟩
abbrev S262144x1 : Shape := ⟨2, ![262144, 1]⟩
abbrev S262144 : Shape := ⟨1, ![262144]⟩
abbrev S1x262144 : Shape := ⟨2, ![1, 262144]⟩
abbrev S2x262144 : Shape := ⟨2, ![2, 262144]⟩
abbrev S2x64x4096 : Shape := ⟨3, ![2, 64, 4096]⟩
abbrev S64x2x4096 : Shape := ⟨3, ![64, 2, 4096]⟩
abbrev S4x262144 : Shape := ⟨2, ![4, 262144]⟩
abbrev S64x1x4096 : Shape := ⟨3, ![64, 1, 4096]⟩
abbrev S1x1 : Shape := ⟨2, ![1, 1]⟩
abbrev S4096x80 : Shape := ⟨2, ![4096, 80]⟩
abbrev S1x2x4096 : Shape := ⟨3, ![1, 2, 4096]⟩
abbrev S4x4096 : Shape := ⟨2, ![4, 4096]⟩
abbrev S1x1x4096 : Shape := ⟨3, ![1, 1, 4096]⟩
abbrev S1x4 : Shape := ⟨2, ![1, 4]⟩
abbrev S1x4096 : Shape := ⟨2, ![1, 4096]⟩
abbrev S1 : Shape := ⟨1, ![1]⟩
abbrev S1x1x1 : Shape := ⟨3, ![1, 1, 1]⟩
abbrev S2x4096 : Shape := ⟨2, ![2, 4096]⟩
abbrev S4096x2 : Shape := ⟨2, ![4096, 2]⟩
abbrev S4096x1 : Shape := ⟨2, ![4096, 1]⟩
abbrev S1x4096x80 : Shape := ⟨3, ![1, 4096, 80]⟩
abbrev S_ : Shape := ⟨0, ![]⟩

abbrev nBuf : Space → Nat
  | .hbm => 24
  | .vmem => 16
  | .smem => 0
  | _ => 0

abbrev bufTy : (tb : Table) → Fin (tcTables nBuf tb) → BufTy
  | .hbm, ⟨0, _⟩ => ⟨S262144x80, .f32⟩
  | .hbm, ⟨1, _⟩ => ⟨S262144x4, .f32⟩
  | .hbm, ⟨2, _⟩ => ⟨S262144x1, .f32⟩
  | .hbm, ⟨3, _⟩ => ⟨S262144, .i32⟩
  | .hbm, ⟨4, _⟩ => ⟨S262144x4, .f32⟩
  | .hbm, ⟨5, _⟩ => ⟨S262144x1, .f32⟩
  | .hbm, ⟨6, _⟩ => ⟨S262144, .i1⟩
  | .hbm, ⟨7, _⟩ => ⟨S262144, .f32⟩
  | .hbm, ⟨8, _⟩ => ⟨S262144, .f32⟩
  | .hbm, ⟨9, _⟩ => ⟨S1x262144, .f32⟩
  | .hbm, ⟨10, _⟩ => ⟨S1x262144, .f32⟩
  | .hbm, ⟨11, _⟩ => ⟨S2x262144, .f32⟩
  | .hbm, ⟨12, _⟩ => ⟨S2x64x4096, .f32⟩
  | .hbm, ⟨13, _⟩ => ⟨S64x2x4096, .f32⟩
  | .hbm, ⟨14, _⟩ => ⟨S4x262144, .f32⟩
  | .hbm, ⟨15, _⟩ => ⟨S4x262144, .f32⟩
  | .hbm, ⟨16, _⟩ => ⟨S64x1x4096, .f32⟩
  | .hbm, ⟨17, _⟩ => ⟨S64x1x4096, .f32⟩
  | .hbm, ⟨18, _⟩ => ⟨S1x1, .f32⟩
  | .hbm, ⟨19, _⟩ => ⟨S1x1, .f32⟩
  | .hbm, ⟨20, _⟩ => ⟨S1x1, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S4096x80, .f32⟩
  | .local _ .vmem, ⟨1, _⟩ => ⟨S4096x80, .f32⟩
  | .local _ .vmem, ⟨2, _⟩ => ⟨S1x2x4096, .f32⟩
  | .local _ .vmem, ⟨3, _⟩ => ⟨S1x2x4096, .f32⟩
  | .local _ .vmem, ⟨4, _⟩ => ⟨S4x4096, .f32⟩
  | .local _ .vmem, ⟨5, _⟩ => ⟨S4x4096, .f32⟩
  | .local _ .vmem, ⟨6, _⟩ => ⟨S4x4096, .f32⟩
  | .local _ .vmem, ⟨7, _⟩ => ⟨S4x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S1x4, .f32⟩
  | _, _ => ⟨S262144x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v145 : BitVec 1 := Scalar.cmpi .eq arg0 c63_i32
  let v146 : BitVec 32 := Scalar.extui v145
  let c0_i32_45 : BitVec 32 := 0#32
  let v147 : BitVec 1 := Scalar.cmpi .ne v146 c0_i32_45
  v147

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  bcast_S262144_S1x262144_1 : S262144.BroadcastsInDim S1x262144 (![1] : Fin 1 → Fin S1x262144.rank)
  concatenates_S1x262144_S1x262144_S2x262144_d0 : Shape.Concatenates [S1x262144, S1x262144] S2x262144 0
  shapeCasts_S2x262144_S2x64x4096 : S2x262144.ShapeCasts S2x64x4096
  transposes_S2x64x4096_S64x2x4096_1_0_2 : S2x64x4096.Transposes [1, 0, 2] S64x2x4096
  transposes_S262144x4_S4x262144_1_0 : S262144x4.Transposes [1, 0] S4x262144
  shapeCasts_S262144x1_S64x1x4096 : S262144x1.ShapeCasts S64x1x4096
  inb_S1x2x4096_S1x1x4096_0_0_0 : ∀ a, (![0, 0, 0] : Fin 3 → Nat) a + S1x1x4096.size a ≤ S1x2x4096.size a
  h_S1x1x4096 : 0 < S1x1x4096.numel
  shapeCasts_S1x1x4096_S1x4096 : S1x1x4096.ShapeCasts S1x4096
  inb_S1x2x4096_S1x1x4096_0_1_0 : ∀ a, (![0, 1, 0] : Fin 3 → Nat) a + S1x1x4096.size a ≤ S1x2x4096.size a
  shapeCasts_S1x4096_S1x1x4096 : S1x4096.ShapeCasts S1x1x4096
  reduces_S1x1x4096_S1 : S1x1x4096.Reduces [1, 2] S1
  shapeCasts_S1_S1x1x1 : S1.ShapeCasts S1x1x1
  inpos_S1x1x1_p0_0_0 : ∀ a, (![0, 0, 0] : Fin 3 → Nat) a < S1x1x1.size a
  concatenates_S1x4096_S1x4096_S2x4096_d0 : Shape.Concatenates [S1x4096, S1x4096] S2x4096 0
  transposes_S2x4096_p1_0_S4096x2 : S2x4096.Transposes [1, 0] S4096x2
  slices_S4096x2_o0_0_S4096x1 : S4096x2.Slices ![0, 0] S4096x1
  slices_S4096x2_o0_1_S4096x1 : S4096x2.Slices ![0, 1] S4096x1
  inb_S4096x80_S4096x80_0_0 : ∀ a, (![0, 0] : Fin 2 → Nat) a + S4096x80.size a ≤ S4096x80.size a
  h_S4096x80 : 0 < S4096x80.numel
  iota_S4096x80_d1_w32 : S4096x80.Iotas .tc 32 [1]
  broadcasts_S4096x1_S4096x80 : S4096x1.Broadcasts S4096x80
  shapeCasts_S4096x80_S1x4096x80 : S4096x80.ShapeCasts S1x4096x80
  reduces_S1x4096x80_S1 : S1x4096x80.Reduces [1, 2] S1
  inb_S4x4096_S4x4096_0_0 : ∀ a, (![0, 0] : Fin 2 → Nat) a + S4x4096.size a ≤ S4x4096.size a
  h_S4x4096 : 0 < S4x4096.numel
  shapeCasts_S4x4096_S4x4096 : S4x4096.ShapeCasts S4x4096
  slices_S4x4096_o0_0_S1x4096 : S4x4096.Slices ![0, 0] S1x4096
  slices_S4x4096_o1_0_S1x4096 : S4x4096.Slices ![1, 0] S1x4096
  slices_S4x4096_o2_0_S1x4096 : S4x4096.Slices ![2, 0] S1x4096
  slices_S4x4096_o3_0_S1x4096 : S4x4096.Slices ![3, 0] S1x4096
  inb_S1x1x4096_S1x1x4096_0_0_0 : ∀ a, (![0, 0, 0] : Fin 3 → Nat) a + S1x1x4096.size a ≤ S1x1x4096.size a
  concatenates_S1x1_S1x1_S1x1_S1x1_S1x4_d1 : Shape.Concatenates [S1x1, S1x1, S1x1, S1x1] S1x4 1
  inb_S1x4_S1x4_0_0 : ∀ a, (![0, 0] : Fin 2 → Nat) a + S1x4.size a ≤ S1x4.size a
  h_S1x4 : 0 < S1x4.numel
  shapeCasts_S1x4_S1x4 : S1x4.ShapeCasts S1x4
  slices_S1x4_o0_3_S1x1 : S1x4.Slices ![0, 3] S1x1
  slices_S1x4_o0_0_S1x1 : S1x4.Slices ![0, 0] S1x1
  inb_S1x1_S1x1_0_0 : ∀ a, (![0, 0] : Fin 2 → Nat) a + S1x1.size a ≤ S1x1.size a
  h_S1x1 : 0 < S1x1.numel
  slices_S1x4_o0_1_S1x1 : S1x4.Slices ![0, 1] S1x1
  slices_S1x4_o0_2_S1x1 : S1x4.Slices ![0, 2] S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x80.size a ≤ S262144x80.size a
  hwx0_0 : ∀ i : grid0.Coords, EltTy.bits .f32 = 32 ∨ (Rect.block (s := S262144x80) S4096x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x4096.size a ≤ S64x2x4096.size a
  hwx0_1 : ∀ i : grid0.Coords, EltTy.bits .f32 = 32 ∨ (Rect.block (s := S64x2x4096) S1x2x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x4096.size a ≤ S4x262144.size a
  hwx0_2 : ∀ i : grid0.Coords, EltTy.bits .f32 = 32 ∨ (Rect.block (s := S4x262144) S4x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x4096.size a ≤ S4x262144.size a
  hwx0_3 : ∀ i : grid0.Coords, EltTy.bits .f32 = 32 ∨ (Rect.block (s := S4x262144) S4x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4096.size a ≤ S64x1x4096.size a
  hwx0_4 : ∀ i : grid0.Coords, EltTy.bits .f32 = 32 ∨ (Rect.block (s := S64x1x4096) S1x1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4096.size a ≤ S64x1x4096.size a
  hwx0_5 : ∀ i : grid0.Coords, EltTy.bits .f32 = 32 ∨ (Rect.block (s := S64x1x4096) S1x1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)

variable [Facts₀]

abbrev win0_0 : Pipeline.Window sig grid0 :=
  Pipeline.Window.ofSpec (Memref.whole main_arg0) S4096x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x2x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x1x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_0) S1x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11_1) S1x1.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11_2) S1x1.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S262144x80 : Shape := ⟨2, ![262144, 80]⟩
abbrev S262144x4 : Shape := ⟨2, ![262144, 4]⟩
abbrev S262144x1 : Shape := ⟨2, ![262144, 1]⟩
abbrev S262144 : Shape := ⟨1, ![262144]⟩
abbrev S_ : Shape := ⟨0, ![]⟩
abbrev S1x80 : Shape := ⟨2, ![1, 80]⟩
abbrev S262144x2 : Shape := ⟨2, ![262144, 2]⟩

abbrev nBuf : Space → Nat
  | .hbm => 170
  | .vmem => 0
  | .smem => 0
  | _ => 0

abbrev hbmTy0_0 (i : Nat) : BufTy := match i % 128 with
  | 0 => ⟨S262144x80, .f32⟩
  | 1 => ⟨S262144x4, .f32⟩
  | 2 => ⟨S262144x1, .f32⟩
  | 3 => ⟨S262144, .i32⟩
  | 4 => ⟨S262144x4, .f32⟩
  | 5 => ⟨S262144x1, .f32⟩
  | 6 => ⟨S262144, .i1⟩
  | 7 => ⟨S_, .i32⟩
  | 8 => ⟨S262144, .i32⟩
  | 9 => ⟨S262144, .i1⟩
  | 10 => ⟨S_, .i32⟩
  | 11 => ⟨S262144, .i32⟩
  | 12 => ⟨S262144, .i1⟩
  | 13 => ⟨S262144, .i1⟩
  | 14 => ⟨S262144, .i32⟩
  | 15 => ⟨S_, .i32⟩
  | 16 => ⟨S_, .i32⟩
  | 17 => ⟨S_, .f32⟩
  | 18 => ⟨S_, .f32⟩
  | 19 => ⟨S_, .f32⟩
  | 20 => ⟨S262144x1, .i32⟩
  | 21 => ⟨S1x80, .i32⟩
  | 22 => ⟨S262144x80, .i32⟩
  | 23 => ⟨S262144x80, .i32⟩
  | 24 => ⟨S262144x80, .i1⟩
  | 25 => ⟨S262144x80, .f32⟩
  | 26 => ⟨S262144x1, .i1⟩
  | 27 => ⟨S262144x1, .f32⟩
  | 28 => ⟨S262144x80, .f32⟩
  | 29 => ⟨S262144x80, .f32⟩
  | 30 => ⟨S_, .i32⟩
  | 31 => ⟨S262144, .i32⟩
  | 32 => ⟨S262144, .i1⟩
  | 33 => ⟨S262144, .i1⟩
  | 34 => ⟨S262144, .i1⟩
  | 35 => ⟨S262144, .f32⟩
  | 36 => ⟨S262144, .f32⟩
  | 37 => ⟨S262144x80, .f32⟩
  | 38 => ⟨S262144x80, .f32⟩
  | 39 => ⟨S_, .f32⟩
  | 40 => ⟨S262144x80, .f32⟩
  | 41 => ⟨S262144x80, .f32⟩
  | 42 => ⟨S_, .f32⟩
  | 43 => ⟨S262144x80, .f32⟩
  | 44 => ⟨S262144x80, .f32⟩
  | 45 => ⟨S_, .f32⟩
  | 46 => ⟨S262144x80, .f32⟩
  | 47 => ⟨S262144x80, .f32⟩
  | 48 => ⟨S262144x80, .f32⟩
  | 49 => ⟨S262144x80, .f32⟩
  | 50 => ⟨S262144x80, .f32⟩
  | 51 => ⟨S262144x80, .f32⟩
  | 52 => ⟨S262144x80, .f32⟩
  | 53 => ⟨S262144x80, .f32⟩
  | 54 => ⟨S262144x80, .f32⟩
  | 55 => ⟨S262144x80, .f32⟩
  | 56 => ⟨S_, .f32⟩
  | 57 => ⟨S262144x80, .f32⟩
  | 58 => ⟨S262144x80, .f32⟩
  | 59 => ⟨S_, .f32⟩
  | 60 => ⟨S262144x80, .f32⟩
  | 61 => ⟨S262144x80, .f32⟩
  | 62 => ⟨S262144x80, .f32⟩
  | 63 => ⟨S262144x80, .f32⟩
  | 64 => ⟨S_, .f32⟩
  | 65 => ⟨S262144x80, .f32⟩
  | 66 => ⟨S262144x80, .f32⟩
  | 67 => ⟨S_, .f32⟩
  | 68 => ⟨S262144x80, .f32⟩
  | 69 => ⟨S262144x80, .f32⟩
  | 70 => ⟨S262144x80, .f32⟩
  | 71 => ⟨S_, .f32⟩
  | 72 => ⟨S262144x80, .f32⟩
  | 73 => ⟨S262144x80, .f32⟩
  | 74 => ⟨S_, .f32⟩
  | 75 => ⟨S262144x80, .f32⟩
  | 76 => ⟨S262144x80, .f32⟩
  | 77 => ⟨S_, .f32⟩
  | 78 => ⟨S262144x80, .f32⟩
  | 79 => ⟨S262144x80, .f32⟩
  | 80 => ⟨S262144x80, .f32⟩
  | 81 => ⟨S262144x80, .f32⟩
  | 82 => ⟨S262144x1, .f32⟩
  | 83 => ⟨S262144x80, .f32⟩
  | 84 => ⟨S262144x80, .f32⟩
  | 85 => ⟨S_, .f32⟩
  | 86 => ⟨S_, .f32⟩
  | 87 => ⟨S_, .f32⟩
  | 88 => ⟨S262144x1, .f32⟩
  | 89 => ⟨S262144, .f32⟩
  | 90 => ⟨S262144x1, .f32⟩
  | 91 => ⟨S262144, .f32⟩
  | 92 => ⟨S262144, .f32⟩
  | 93 => ⟨S262144x1, .f32⟩
  | 94 => ⟨S262144, .f32⟩
  | 95 => ⟨S262144x1, .f32⟩
  | 96 => ⟨S262144, .f32⟩
  | 97 => ⟨S262144, .f32⟩
  | 98 => ⟨S262144, .f32⟩
  | 99 => ⟨S262144x1, .f32⟩
  | 100 => ⟨S262144, .f32⟩
  | 101 => ⟨S262144x1, .f32⟩
  | 102 => ⟨S262144, .f32⟩
  | 103 => ⟨S262144, .f32⟩
  | 104 => ⟨S262144x1, .f32⟩
  | 105 => ⟨S262144, .f32⟩
  | 106 => ⟨S262144x1, .f32⟩
  | 107 => ⟨S262144, .f32⟩
  | 108 => ⟨S262144, .f32⟩
  | 109 => ⟨S262144, .f32⟩
  | 110 => ⟨S262144x2, .f32⟩
  | 111 => ⟨S262144x2, .f32⟩
  | 112 => ⟨S262144x2, .f32⟩
  | 113 => ⟨S262144x2, .f32⟩
  | 114 => ⟨S262144x2, .f32⟩
  | 115 => ⟨S262144x2, .f32⟩
  | 116 => ⟨S262144x2, .f32⟩
  | 117 => ⟨S_, .f32⟩
  | 118 => ⟨S_, .f32⟩
  | 119 => ⟨S262144x2, .f32⟩
  | 120 => ⟨S262144x2, .f32⟩
  | 121 => ⟨S262144x1, .f32⟩
  | 122 => ⟨S262144, .f32⟩
  | 123 => ⟨S262144x1, .f32⟩
  | 124 => ⟨S262144, .f32⟩
  | 125 => ⟨S262144, .f32⟩
  | 126 => ⟨S262144, .f32⟩
  | 127 => ⟨S262144, .f32⟩
  | _ => ⟨S262144x80, .f32⟩

abbrev hbmTy0_1 (i : Nat) : BufTy := match i % 128 with
  | 0 => ⟨S262144, .f32⟩
  | 1 => ⟨S262144x2, .f32⟩
  | 2 => ⟨S262144x2, .f32⟩
  | 3 => ⟨S262144x2, .f32⟩
  | 4 => ⟨S262144x2, .f32⟩
  | 5 => ⟨S262144x2, .f32⟩
  | 6 => ⟨S262144x2, .f32⟩
  | 7 => ⟨S262144x2, .f32⟩
  | 8 => ⟨S_, .f32⟩
  | 9 => ⟨S_, .f32⟩
  | 10 => ⟨S262144x2, .f32⟩
  | 11 => ⟨S262144x2, .f32⟩
  | 12 => ⟨S262144x1, .f32⟩
  | 13 => ⟨S262144, .f32⟩
  | 14 => ⟨S262144x1, .f32⟩
  | 15 => ⟨S262144, .f32⟩
  | 16 => ⟨S262144, .f32⟩
  | 17 => ⟨S262144, .f32⟩
  | 18 => ⟨S262144, .f32⟩
  | 19 => ⟨S262144, .f32⟩
  | 20 => ⟨S_, .f32⟩
  | 21 => ⟨S262144, .f32⟩
  | 22 => ⟨S262144, .f32⟩
  | 23 => ⟨S262144, .f32⟩
  | 24 => ⟨S_, .f32⟩
  | 25 => ⟨S_, .f32⟩
  | 26 => ⟨S_, .f32⟩
  | 27 => ⟨S_, .f32⟩
  | 28 => ⟨S262144x1, .f32⟩
  | 29 => ⟨S262144x1, .f32⟩
  | 30 => ⟨S262144x1, .f32⟩
  | 31 => ⟨S262144x1, .f32⟩
  | 32 => ⟨S262144x1, .f32⟩
  | 33 => ⟨S262144x1, .f32⟩
  | 34 => ⟨S262144x1, .f32⟩
  | 35 => ⟨S262144x1, .f32⟩
  | 36 => ⟨S262144x1, .f32⟩
  | 37 => ⟨S262144x1, .f32⟩
  | 38 => ⟨S262144x1, .f32⟩
  | 39 => ⟨S_, .f32⟩
  | 40 => ⟨S_, .f32⟩
  | 41 => ⟨S_, .f32⟩
  | _ => ⟨S262144x80, .f32⟩

abbrev hbmTy (i : Nat) : BufTy := match i / 128 with
  | 0 => hbmTy0_0 i
  | 1 => hbmTy0_1 i
  | _ => ⟨S262144x80, .f32⟩

abbrev bufTy : (tb : Table) → Fin (tcTables nBuf tb) → BufTy
  | .hbm, ⟨i, _⟩ => hbmTy i
  | _, _ => ⟨S262144x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_v50 : Ref sig .tc := ⟨.hbm, 76, rfl⟩
abbrev main_cst_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_14 : Ref sig .tc := ⟨.hbm, 117, rfl⟩
abbrev main_call1_v0 : Ref sig .tc := ⟨.hbm, 118, rfl⟩
abbrev main_call1_v1 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_15 : Ref sig .tc := ⟨.hbm, 136, rfl⟩
abbrev main_call2_v0 : Ref sig .tc := ⟨.hbm, 137, rfl⟩
abbrev main_call2_v1 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_16 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_17 : Ref sig .tc := ⟨.hbm, 152, rfl⟩
abbrev main_v117 : Ref sig .tc := ⟨.hbm, 153, rfl⟩
abbrev main_v118 : Ref sig .tc := ⟨.hbm, 154, rfl⟩
abbrev main_cst_18 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_19 : Ref sig .tc := ⟨.hbm, 167, rfl⟩
abbrev main_v130 : Ref sig .tc := ⟨.hbm, 168, rfl⟩
abbrev main_v131 : Ref sig .tc := ⟨.hbm, 169, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  natLt_1_32 : 1 < 32
  reducesTo_S262144_S_d0 : S262144.ReducesTo [0] S_
  h_S_ : 0 < S_.numel
  bcast_S262144_S262144x1_0 : S262144.BroadcastsInDim S262144x1 (![0] : Fin 1 → Fin S262144x1.rank)
  bcast_S262144x1_S262144x80_0_1 : S262144x1.BroadcastsInDim S262144x80 (![0, 1] : Fin 2 → Fin S262144x80.rank)
  bcast_S1x80_S262144x80_0_1 : S1x80.BroadcastsInDim S262144x80 (![0, 1] : Fin 2 → Fin S262144x80.rank)
  bcast_S_S262144x80 : S_.BroadcastsInDim S262144x80 (![] : Fin 0 → Fin S262144x80.rank)
  reducesTo_S262144x80_S_d0_1 : S262144x80.ReducesTo [0, 1] S_
  slices_S262144x4_S262144x1_0_2 : S262144x4.Slices ![0, 2] S262144x1
  shapeCasts_S262144x1_S262144 : S262144x1.ShapeCasts S262144
  slices_S262144x4_S262144x1_0_0 : S262144x4.Slices ![0, 0] S262144x1
  slices_S262144x4_S262144x1_0_3 : S262144x4.Slices ![0, 3] S262144x1
  slices_S262144x4_S262144x1_0_1 : S262144x4.Slices ![0, 1] S262144x1
  slices_S262144x4_S262144x2_0_0 : S262144x4.Slices ![0, 0] S262144x2
  slices_S262144x4_S262144x2_0_2 : S262144x4.Slices ![0, 2] S262144x2
  bcast_S_S262144x2 : S_.BroadcastsInDim S262144x2 (![] : Fin 0 → Fin S262144x2.rank)
  slices_S262144x2_S262144x1_0_0 : S262144x2.Slices ![0, 0] S262144x1
  slices_S262144x2_S262144x1_0_1 : S262144x2.Slices ![0, 1] S262144x1
  bcast_S_S262144x1 : S_.BroadcastsInDim S262144x1 (![] : Fin 0 → Fin S262144x1.rank)
  reducesTo_S262144x1_S_d0_1 : S262144x1.ReducesTo [0, 1] S_

variable [Facts₀]

class Facts : Prop extends Facts₀ where

variable [Facts]
-- ==== Proof.Spec.lean ====
/-
  The three losses as functions of the argument arrays, anchor by anchor.

  An anchor n carries a class word w = ct n (a signed 32-bit integer), a mask bit k, 80 class logits, a predicted
  and a target box (four coordinates each), an IoU logit and an IoU target. The anchor is FOREGROUND when
  0 ≤ w and w ≠ 80, VALID when 0 ≤ w and its mask bit is clear. Each loss is a sum over the anchors
  (the classification loss also over the 80 classes) divided by max(number of foreground anchors, 1):

  * classification: the sigmoid focal loss (alpha 1/4, gamma 2) of logit x against the target
    t = [w = c]·[foreground], times [valid];
  * regression: 1 - GIoU(predicted box, target box), times [foreground];
  * IoU: the binary cross entropy with logits of the IoU logit against the IoU target, times [foreground].

  Here they are spelt as the host program spells them, operation by operation on the extended reals, and the
  classification term also as the kernel spells it (one compare of the class lane against the class word,
  three transcendentals, no division).
-/
import Idealize.ShloMosaic.PureOps.Ideal
import Idealize.ShloMosaic.PureOps.Ideal.Laws
import Idealize.ShloMosaic.Lib.ValueIdx

noncomputable section

open scoped BigOperators

namespace Loss

open Idealize.ShloMosaic Idealize.ShloMosaic.ValueIdx

/-- the float words the two programs use -/
abbrev f0 : EReal := Ideal.ofBits .f32 0x00000000#32
abbrev f1 : EReal := Ideal.ofBits .f32 0x3F800000#32
abbrev f2 : EReal := Ideal.ofBits .f32 0x40000000#32
abbrev fm2 : EReal := Ideal.ofBits .f32 0xC0000000#32
abbrev fq : EReal := Ideal.ofBits .f32 0x3E800000#32
abbrev f34 : EReal := Ideal.ofBits .f32 0x3F400000#32
abbrev f80 : EReal := Ideal.ofBits .f32 0x42A00000#32

/-- a one-bit word as the number 0 or 1 -/
def u2f (b : BitVec 1) : EReal := ((b.toNat : ℝ) : EReal)

/-- foreground: 0 ≤ w and w ≠ 80, on the signed class word -/
def fgBit (w : BitVec 32) : BitVec 1 := IntOp.andi (IntOp.cmpi .sge w 0#32) (IntOp.cmpi .ne w 80#32)

/-- valid: 0 ≤ w and the mask bit is clear -/
def validBit (w : BitVec 32) (k : BitVec 1) : BitVec 1 := IntOp.andi (IntOp.cmpi .sge w 0#32) (~~~k)

/-- the one-hot target of class c for class word w, zeroed on background anchors -/
def tgt (w : BitVec 32) (c : Fin 80) : EReal := u2f (IntOp.cmpi .eq w (BitVec.ofNat 32 c.val)) * u2f (fgBit w)

/-- the focal term as the host program computes it: logit x, target t, valid factor v -/
def clsRef (x t v : EReal) : EReal :=
  ((fq * t + f34 * (f1 - t))
    * (((max x f0 - x * t) + Ideal.log1p (Ideal.exp (-(max x (-x)))))
        * Ideal.pow (f1 - (Ideal.div f1 (f1 + Ideal.exp (-x)) * t + (f1 - Ideal.div f1 (f1 + Ideal.exp (-x))) * (f1 - t))) f2))
  * v

/-- the focal term as the kernel computes it: logit x, the compare bit τ of lane against class, valid factor v -/
def clsKer (x : EReal) (τ : BitVec 1) (v : EReal) : EReal :=
  ((Scalar.select τ fq f34
      * ((max x f0 + Ideal.log1p (Ideal.exp (f0 - max x (-x)))) - Scalar.select τ x f0))
    * Ideal.exp (fm2 * (((max x f0 + Ideal.log1p (Ideal.exp (f0 - max x (-x)))) - x) + Scalar.select τ x f0)))
  * v

/-- foreground as the kernel tests it on the class word read as a float W: W ≥ 0 and W ≠ 80, as the number 1 or 0 -/
def fgKer (W : EReal) : EReal :=
  Scalar.select (IntOp.andi (Ideal.cmp .oge W f0) (Ideal.cmp .one W f80)) f1 f0

/-- valid as the kernel computes it from the class word read as a float W and the mask read as a float M: [W ≥ 0]·(1 - M) -/
def validKer (W M : EReal) : EReal :=
  Scalar.select (Ideal.cmp .oge W f0) f1 f0 * (f1 - M)

/-- the kernel's compare of class lane c (a 32-bit lane number read as a float) against the class word read as a float W -/
def tauKer (c : Fin 80) (W : EReal) : BitVec 1 :=
  Ideal.cmp .oeq ((((BitVec.ofNat 32 c.val).toInt : ℝ)) : EReal) W

/-- 1 - GIoU of the boxes (p0,p1,p2,p3) and (t0,t1,t2,t3), times the factor f; both programs compute it in this order -/
def regTerm (p0 p1 p2 p3 t0 t1 t2 t3 f : EReal) : EReal :=
  (f1 - (Ideal.div (max f0 (min p2 t2 - max p0 t0) * max f0 (min p3 t3 - max p1 t1))
            ((((p2 - p0) * (p3 - p1)) + ((t2 - t0) * (t3 - t1))) - (max f0 (min p2 t2 - max p0 t0) * max f0 (min p3 t3 - max p1 t1)))
          - Ideal.div ((max f0 (max p2 t2 - min p0 t0) * max f0 (max p3 t3 - min p1 t1))
                - ((((p2 - p0) * (p3 - p1)) + ((t2 - t0) * (t3 - t1))) - (max f0 (min p2 t2 - max p0 t0) * max f0 (min p3 t3 - max p1 t1))))
              (max f0 (max p2 t2 - min p0 t0) * max f0 (max p3 t3 - min p1 t1)))) * f

/-- binary cross entropy with logits of x against target t, times the factor f, as the host program computes it -/
def bceRef (x t f : EReal) : EReal :=
  ((max x f0 - x * t) + Ideal.log1p (Ideal.exp (-(max x (-x))))) * f

/-- the same as the kernel computes it (0 - |x| for -|x|) -/
def bceKer (x t f : EReal) : EReal :=
  ((max x f0 - x * t) + Ideal.log1p (Ideal.exp (f0 - max x (-x)))) * f

/-- the number of foreground anchors, at least 1, as an extended real -/
def cnt (ct : Fin 262144 → BitVec 32) : EReal :=
  max ((((Finset.univ.filter fun n : Fin 262144 => fgBit (ct n) = 1#1).card : ℝ)) : EReal) 1

/-- the classification loss -/
def lossCls (x : Fin 262144 → Fin 80 → EReal) (ct : Fin 262144 → BitVec 32) (mk : Fin 262144 → BitVec 1) : EReal :=
  Ideal.div (∑ n : Fin 262144, ∑ c : Fin 80, clsRef (x n c) (tgt (ct n) c) (u2f (validBit (ct n) (mk n)))) (cnt ct)

/-- the regression loss -/
def lossReg (pb bt : Fin 262144 → Fin 4 → EReal) (ct : Fin 262144 → BitVec 32) : EReal :=
  Ideal.div (∑ n : Fin 262144, regTerm (pb n 0) (pb n 1) (pb n 2) (pb n 3) (bt n 0) (bt n 1) (bt n 2) (bt n 3) (u2f (fgBit (ct n)))) (cnt ct)

/-- the IoU loss -/
def lossIou (pi ti : Fin 262144 → EReal) (ct : Fin 262144 → BitVec 32) : EReal :=
  Ideal.div (∑ n : Fin 262144, bceRef (pi n) (ti n) (u2f (fgBit (ct n)))) (cnt ct)

end Loss

end
-- ==== Proof.LibMaskCount.lean ====
/-
  One-bit words as masks, and counting them.

  The float words for +infinity, -infinity and one denote the extended reals they name. A one-bit word widened to
  32 bits and read as a signed integer is 0 or 1; hence a sum of such terms is the number of set words, the test
  "sum > 0" is the OR of the words, and a 32-bit count of fewer than 2^31 words never wraps, so the greater of the
  count and one, read as a real, is the greater of the real count and one. Last, a sum over 8192 rows is the sum over
  64 tiles of the sums over each tile's 128 rows.
-/
import Mathlib.Algebra.BigOperators.Fin
import Mathlib.Algebra.BigOperators.Group.Finset.Basic
import Mathlib.Data.EReal.Basic
import Mathlib.Logic.Equiv.Fin.Basic
import Idealize.ShloMosaic.PureOps.Ideal
import Idealize.ShloMosaic.PureOps.Ideal.Laws

noncomputable section

open scoped BigOperators

namespace Cert.LibMaskCount

open Idealize.ShloMosaic

/-- exclusive or with the set word is complement -/
theorem xori_one (x : BitVec 1) : IntOp.xori x 1#1 = ~~~ x := by
  revert x; decide

theorem ofBits_inf : Ideal.ofBits .f32 0x7F800000#32 = (⊤ : EReal) := by
  simp [Ideal.ofBits, Ideal.ieee]

theorem ofBits_neg_inf : Ideal.ofBits .f32 0xFF800000#32 = (⊥ : EReal) := by
  simp [Ideal.ofBits, Ideal.ieee]

theorem ofBits_one : Ideal.ofBits .f32 0x3F800000#32 = (1 : EReal) := by
  simp [Ideal.ofBits, Ideal.ieee]
  rw [← EReal.coe_mul]
  norm_num

/-- a one-bit word widened to 32 bits and read as a signed integer is 0 or 1 -/
theorem toInt_setWidth (b : BitVec 1) : ((b.setWidth 32).toInt : ℝ) = if b = 1#1 then 1 else 0 := by
  rcases BitVec.eq_zero_or_eq_one b with h | h <;> subst h
  · have : ((0#1).setWidth 32).toInt = 0 := by decide
    rw [this]; simp
  · have : ((1#1).setWidth 32).toInt = 1 := by decide
    rw [this]; simp

/-- 8192 rows are 64 tiles of 128 rows -/
theorem sum_tiles {M : Type*} [AddCommMonoid M] (f : Fin 8192 → M) :
    ∑ t : Fin 64, ∑ r : Fin 128, f ⟨128 * t.val + r.val, by omega⟩ = ∑ R : Fin 8192, f R := by
  rw [← Fintype.sum_prod_type (f := fun p : Fin 64 × Fin 128 => f ⟨128 * p.1.val + p.2.val, by omega⟩)]
  refine Fintype.sum_equiv (finProdFinEquiv (m := 64) (n := 128)) _ _ ?_
  rintro ⟨t, r⟩
  congr 1
  apply Fin.ext
  simp [finProdFinEquiv]
  omega

/-- the coercion of reals into the extended reals commutes with finite sums -/
theorem coe_sum {ι : Type*} (s : Finset ι) (f : ι → ℝ) :
    ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- a sum of widened one-bit words is the number of set words -/
theorem sum_toInt_eq_card {ι : Type*} (s : Finset ι) (m : ι → BitVec 1) :
    ∑ c ∈ s, ((((m c).setWidth 32).toInt : ℝ) : EReal)
      = (((s.filter fun c => m c = 1#1).card : ℝ) : EReal) := by
  rw [← coe_sum]
  congr 1
  simp only [toInt_setWidth]
  rw [Finset.sum_boole]

/-- the OR of a family of one-bit words is set iff some word is set -/
theorem fold_ori_eq_one_iff {ι : Type*} [DecidableEq ι] (s : Finset ι) (m : ι → BitVec 1) :
    s.fold IntOp.ori 0#1 m = 1#1 ↔ ∃ c ∈ s, m c = 1#1 := by
  induction s using Finset.induction_on with
  | empty => simp
  | insert a s ha ih =>
    have key : ∀ x y : BitVec 1, IntOp.ori x y = 1#1 ↔ (x = 1#1 ∨ y = 1#1) := by decide
    rw [Finset.fold_insert ha, key, ih, Finset.exists_mem_insert]

/-- a one-bit word is the truth value of a proposition equivalent to its being set -/
theorem ofBool_decide_eq (x : BitVec 1) (p : Prop) [Decidable p] (h : x = 1#1 ↔ p) :
    BitVec.ofBool (decide p) = x := by
  rcases BitVec.eq_zero_or_eq_one x with hx | hx <;> subst hx
  · have hp : ¬ p := fun hp => absurd (h.mpr hp) (by decide)
    simp [hp]
  · have hp : p := h.mp rfl
    simp [hp]

/-- a sum of 0/1 terms is positive iff some word is set: the float test "sum > 0" is the OR of the words -/
theorem cmp_ogt_sum_eq_fold_ori {n : ℕ} (m : Fin n → BitVec 1) :
    Ideal.cmp .ogt (∑ c : Fin n, ((((m c).setWidth 32).toInt : ℝ) : EReal)) 0
      = (Finset.univ : Finset (Fin n)).fold IntOp.ori 0#1 m := by
  rw [sum_toInt_eq_card]
  show BitVec.ofBool (decide ((0 : EReal) < _)) = _
  apply ofBool_decide_eq
  rw [fold_ori_eq_one_iff, show (0 : EReal) = ((0 : ℝ) : EReal) from rfl, EReal.coe_lt_coe_iff, Nat.cast_pos,
    Finset.card_pos]
  simp [Finset.Nonempty]

/-- a 32-bit sum of widened one-bit words is the number of set words, as long as there are fewer than 2^32 of them -/
theorem fold_addi_toNat {ι : Type*} [DecidableEq ι] (s : Finset ι) (v : ι → BitVec 1) (hs : s.card < 2 ^ 32) :
    (s.fold IntOp.addi 0#32 fun R => (v R).setWidth 32).toNat = (s.filter fun R => v R = 1#1).card := by
  induction s using Finset.induction_on with
  | empty => simp
  | insert a s ha ih =>
    rw [Finset.card_insert_of_notMem ha] at hs
    have ih' := ih (by omega)
    have hle : (s.filter fun R => v R = 1#1).card ≤ s.card := Finset.card_filter_le _ _
    have h0 : ((0#1).setWidth 32).toNat = 0 := by decide
    have h1 : ((1#1).setWidth 32).toNat = 1 := by decide
    rw [Finset.fold_insert ha, Finset.filter_insert]
    show (((v a).setWidth 32) + _).toNat = _
    rw [BitVec.toNat_add, ih']
    rcases BitVec.eq_zero_or_eq_one (v a) with h | h <;> rw [h]
    · rw [h0, if_neg (by decide)]
      omega
    · have hna : a ∉ s.filter fun R => v R = 1#1 := fun hm => ha (Finset.mem_of_mem_filter _ hm)
      rw [h1, if_pos rfl, Finset.card_insert_of_notMem hna]
      omega

/-- counting in 32-bit integers does not wrap below 2^31 terms: max(count,1) converted to a real is max of the real count and 1 -/
theorem count_eq {n : ℕ} (hn : n < 2 ^ 31) (v : Fin n → BitVec 1) :
    ((((IntOp.maxsi ((Finset.univ : Finset (Fin n)).fold IntOp.addi 0#32 fun R => (v R).setWidth 32) 1#32).toInt : ℝ)) : EReal)
      = max (∑ R : Fin n, ((((v R).setWidth 32).toInt : ℝ) : EReal)) 1 := by
  rw [sum_toInt_eq_card]
  have hcard : (Finset.univ : Finset (Fin n)).card = n := by simp
  have hxk := fold_addi_toNat (Finset.univ : Finset (Fin n)) v (by rw [hcard]; omega)
  have hk' : ((Finset.univ : Finset (Fin n)).filter fun R => v R = 1#1).card < 2 ^ 31 := by
    have := Finset.card_filter_le (Finset.univ : Finset (Fin n)) (fun R => v R = 1#1)
    omega
  generalize ((Finset.univ : Finset (Fin n)).filter fun R => v R = 1#1).card = k at hxk hk' ⊢
  generalize ((Finset.univ : Finset (Fin n)).fold IntOp.addi 0#32 fun R => (v R).setWidth 32) = x at hxk ⊢
  have hxi : x.toInt = (k : ℤ) := by
    rw [BitVec.toInt_eq_toNat_cond, hxk]
    split_ifs <;> omega
  have h1 : (1#32).toInt = 1 := by decide
  have hmax : ((IntOp.maxsi x 1#32).toInt : ℝ) = max (k : ℝ) 1 := by
    unfold IntOp.maxsi
    by_cases h : (1 : ℤ) < k
    · rw [if_pos (by simp only [BitVec.slt, h1, hxi]; exact decide_eq_true h), hxi, max_eq_left]
      · push_cast; rfl
      · exact_mod_cast h.le
    · rw [if_neg (by simp only [BitVec.slt, h1, hxi]; simpa using h), h1, max_eq_right]
      · push_cast; rfl
      · exact_mod_cast (not_lt.mp h)
  rw [hmax, ← EReal.coe_one]
  exact EReal.coe_strictMono.monotone.map_max

end Cert.LibMaskCount

end
-- ==== Proof.LibTotalSum.lean ====
/-
  General facts, independent of any program: a finite sum over a three-axis index set as the triple sum over its
  coordinates (in any commutative monoid); the host's float sum over EVERY axis of an array, started from the zero
  word, as the total of the entries at the exact instance; and a select on "this coordinate is 0", the coordinate
  given as a 32-bit word, as the `if` on the coordinate.
-/
import Idealize.ShloMosaic.PureOps.Ideal
import Idealize.ShloMosaic.PureOps.Ideal.Laws
import Idealize.ShloMosaic.Lib.ValueIdx

noncomputable section

open scoped BigOperators

namespace Cert.LibTotalSum

open Idealize.ShloMosaic Idealize.ShloMosaic.ValueIdx

/-- A three-axis index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it, in any commutative monoid, is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over the one-element range is its one term. -/
theorem sum_fin_one {M : Type*} [AddCommMonoid M] (f : Fin 1 → M) : ∑ u : Fin 1, f u = f 0 := by
  simp

/-- The host's sum over EVERY axis of an array (a `stablehlo.reduce` with an add body into the scalar shape),
    started from the zero word, is at the exact instance the total of the entries as an extended real: the zero word
    is 0, and 0 + s = s. Whatever the array's rank and the order its axes are listed in. -/
theorem hostSumAll {s : Shape} {axes : List (Fin s.rank)} (x : FVec Ideal s .f32)
    (h' : s.ReducesTo axes (⟨0, ![]⟩ : Shape)) (hu : 0 < (⟨0, ![]⟩ : Shape).numel) :
    Host.reduceAdd x (constant (F := Ideal) (⟨0, ![]⟩ : Shape) .f32 0x00000000#32) h' hu = fun _ => ∑ i : s.Idx, x i := by
  funext j
  simp only [Host.reduceAdd, Ideal.hostReduceAdd_def]
  rw [Ideal.hostReduceAdd_total h' (fun b => b.elim0) x _ j]
  show Ideal.ofBits .f32 0x00000000#32 + _ = _
  rw [Ideal.ofBits_zero_f32, zero_add]

/-- A select on "coordinate `n` is 0", the coordinate read as a 32-bit word (`n` below 2³²), is the `if` on `n`. -/
theorem select_coord_zero {α : Type} (n : Nat) (hn : n < 2 ^ 32) (A B : α) :
    Scalar.select (IntOp.cmpi .eq (BitVec.ofNat 32 n) 0#32) A B = if n = 0 then A else B := by
  by_cases h : n = 0
  · subst h; rfl
  · rw [if_neg h]
    have hn' : n < 4294967296 := by simpa using hn
    have hb : (BitVec.ofNat 32 n == 0#32) = false := by
      rw [beq_eq_false_iff_ne]
      intro e
      have := congrArg BitVec.toNat e
      simp only [BitVec.toNat_ofNat, BitVec.toNat_zero, Nat.reducePow, Nat.mod_eq_of_lt hn'] at this
      exact h this
    simp [Scalar.select, IntOp.cmpi, hb]

end Cert.LibTotalSum

end
-- ==== Proof.RefLoss.lean ====
/-
  The host program's three results are the three losses of the specification.

  Each result is a sum over the anchors (the classification one also over the 80 classes) of a per-element term,
  divided by the greater of the foreground count and one. The per-element terms are read off the program operation
  by operation; the integer count of foreground anchors does not wrap (262144 < 2^31), so converted to a real it is
  the number of foreground anchors; the host's float sum from the zero word is, on the extended reals, the total of
  the terms, re-indexed by the anchor (and class) coordinates.
-/
import proofs.«149552_g33784212750688_cont_8to1_b_455_6_alg».proof.Proof.Gen.ReferenceIdeal.Read
import proofs.«149552_g33784212750688_cont_8to1_b_455_6_alg».proof.Proof.Spec
import proofs.«149552_g33784212750688_cont_8to1_b_455_6_alg».proof.Proof.LibMaskCount
import proofs.«149552_g33784212750688_cont_8to1_b_455_6_alg».proof.Proof.LibTotalSum
import Idealize.ShloMosaic.Lib.ValueIdx
import Idealize.ShloMosaic.PureOps.Reduce

noncomputable section

open scoped BigOperators

namespace Cert.RefLoss

open Idealize.ShloMosaic Idealize.ShloMosaic.ValueIdx Cert.ReferenceIdeal Cert.ReferenceIdeal.Gen Cert.ReferenceIdeal.Read

/-! ## One-axis index sets -/

/-- a one-axis index set is its coordinate range -/
def idxEquiv1 {n : Nat} : (⟨1, ![n]⟩ : Shape).Idx ≃ Fin n where
  toFun i := i 0
  invFun a := ix1 a
  left_inv i := (eq_ix1 i).symm
  right_inv _ := rfl

/-- a sum over a one-axis index set is the sum over the coordinate -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- a one-axis index set of extent n has n elements -/
theorem card_idx1 {n : Nat} : (Finset.univ : Finset (⟨1, ![n]⟩ : Shape).Idx).card = n := by
  rw [Finset.card_univ, Fintype.card_congr (idxEquiv1 (n := n)), Fintype.card_fin]

/-- counting the indices with a property is counting the coordinates with it -/
theorem card_filter_idx1 {n : Nat} (p : (⟨1, ![n]⟩ : Shape).Idx → Prop) [DecidablePred p] :
    (Finset.univ.filter p).card = (Finset.univ.filter fun a : Fin n => p (ix1 a)).card := by
  refine Finset.card_equiv (idxEquiv1 (n := n)) fun i => ?_
  simp only [Finset.mem_filter, Finset.mem_univ, true_and]
  rw [show (ix1 ((idxEquiv1 (n := n)) i)) = i from (eq_ix1 i).symm]

/-- a two-axis index with the coordinates a and b is `ix2 a b` -/
theorem idx2_eq {n0 n1 : Nat} (i : (⟨2, ![n0, n1]⟩ : Shape).Idx) (a : Fin n0) (b : Fin n1)
    (h0 : (i 0).val = a.val) (h1 : (i 1).val = b.val) : i = ix2 a b := by
  funext d
  match d with
  | ⟨0, _⟩ => exact Fin.ext h0
  | ⟨1, _⟩ => exact Fin.ext h1

/-- a one-axis index with the coordinate a is `ix1 a` -/
theorem idx1_eq {n : Nat} (i : (⟨1, ![n]⟩ : Shape).Idx) (a : Fin n) (h0 : (i 0).val = a.val) : i = ix1 a := by
  funext d
  match d with
  | ⟨0, _⟩ => exact Fin.ext h0

/-- a 32-bit word below 2^31 read signed is the word read unsigned -/
theorem toInt_of_lt (x : BitVec 32) (k : Nat) (hk : x.toNat = k) (hlt : k < 2 ^ 31) :
    ((x.toInt : ℝ) : EReal) = ((k : ℝ) : EReal) := by
  have : x.toInt = (k : ℤ) := by
    rw [BitVec.toInt_eq_toNat_cond, hk]
    split_ifs <;> omega
  rw [this]; push_cast; rfl

/-! ## The foreground bit and the foreground count -/

/-- the foreground bit of an anchor, as the host program computes it -/
theorem fg_apply (x3 : (⟨S262144, .i32⟩ : BufTy).Contents (Elt Ideal)) (i : S262144.Idx) :
    val_main_v4 (F := Ideal) x3 i = Loss.fgBit (x3 i) := by
  rw [val_main_v4_apply, val_main_v1_apply, val_main_v3_apply, val_main_v0_apply, val_main_v2_apply,
    val_main_c_apply, val_main_c_0_apply]
  rfl

/-- the foreground factor of an anchor: the bit as the number 0 or 1 -/
theorem fgf_apply (x3 : (⟨S262144, .i32⟩ : BufTy).Contents (Elt Ideal)) (i : S262144.Idx) :
    val_main_v18 (F := Ideal) x3 i = Loss.u2f (Loss.fgBit (x3 i)) := by
  rw [val_main_v18_apply, fg_apply]
  rfl

/-- the 32-bit sum of the widened foreground bits is the fold of the 32-bit addition over all anchors -/
theorem v6_fold (x3 : (⟨S262144, .i32⟩ : BufTy).Contents (Elt Ideal)) (j : S_.Idx) :
    val_main_v6 (F := Ideal) x3 j
      = (Finset.univ : Finset S262144.Idx).fold IntOp.addi 0#32 (fun i => (Loss.fgBit (x3 i)).setWidth 32) := by
  unfold val_main_v6
  rw [Host.reduce_eq_fold]
  have hf : (Finset.univ.filter fun i : S262144.Idx => reducesTo_S262144_S_d0.drop i = j) = Finset.univ :=
    Finset.filter_true_of_mem fun i _ => funext fun a => a.elim0
  rw [hf]
  have hv : val_main_v5 (F := Ideal) x3 = fun i => (Loss.fgBit (x3 i)).setWidth 32 :=
    funext fun i => by rw [val_main_v5_apply, fg_apply]
  rw [hv]
  rfl

/-- that sum, read unsigned, is the number of foreground anchors: 262144 terms do not wrap -/
theorem v6_toNat (x3 : (⟨S262144, .i32⟩ : BufTy).Contents (Elt Ideal)) (j : S_.Idx) :
    (val_main_v6 (F := Ideal) x3 j).toNat
      = (Finset.univ.filter fun n : Fin 262144 => Loss.fgBit (x3 (ix1 n)) = 1#1).card := by
  rw [v6_fold, Cert.LibMaskCount.fold_addi_toNat _ _ (by rw [card_idx1]; norm_num)]
  exact card_filter_idx1 (fun i : S262144.Idx => Loss.fgBit (x3 i) = 1#1)

/-- the divisor of the three losses: the greater of the foreground count and one -/
theorem cnt_apply (x3 : (⟨S262144, .i32⟩ : BufTy).Contents (Elt Ideal)) (j : S_.Idx) :
    val_main_v8 (F := Ideal) x3 j = Loss.cnt (fun n => x3 (ix1 n)) := by
  rw [val_main_v8_apply, val_main_v7_apply, val_main_cst_apply]
  show max (((val_main_v6 (F := Ideal) x3 j).toInt : ℝ) : EReal) (Ideal.ofBits .f32 0x3F800000#32) = _
  have hle : (Finset.univ.filter fun n : Fin 262144 => Loss.fgBit (x3 (ix1 n)) = 1#1).card ≤ 262144 := by
    have := Finset.card_filter_le (Finset.univ : Finset (Fin 262144)) (fun n => Loss.fgBit (x3 (ix1 n)) = 1#1)
    simpa using this
  rw [toInt_of_lt _ _ (v6_toNat x3 j) (by omega), Cert.LibMaskCount.ofBits_one]
  rfl

/-! ## The IoU loss -/

/-- the IoU term of anchor n: the cross entropy of its IoU logit against its IoU target, times the foreground factor -/
theorem iou_term (x2 : (⟨S262144x1, .f32⟩ : BufTy).Contents (Elt Ideal)) (x3 : (⟨S262144, .i32⟩ : BufTy).Contents (Elt Ideal))
    (x5 : (⟨S262144x1, .f32⟩ : BufTy).Contents (Elt Ideal)) (n : Fin 262144) :
    val_main_v129 (F := Ideal) x2 x3 x5 (ix2 n 0)
      = Loss.bceRef (x2 (ix2 n 0)) (x5 (ix2 n 0)) (Loss.u2f (Loss.fgBit (x3 (ix1 n)))) := by
  have hi : idx_main_v128 (ix2 n (0 : Fin 1)) = ix1 n := idx1_eq _ _ rfl
  rw [val_main_v129_apply, val_main_v127_apply, val_main_v122_apply, val_main_v120_apply, val_main_v121_apply,
    val_main_v126_apply, val_main_v125_apply, val_main_v124_apply, val_main_v123_apply, val_main_v119_apply,
    val_main_cst_18_apply, val_main_v128_apply, hi, fgf_apply]
  rfl

/-- the third result is the IoU loss -/
theorem ref_iou (x2 : (⟨S262144x1, .f32⟩ : BufTy).Contents (Elt Ideal)) (x3 : (⟨S262144, .i32⟩ : BufTy).Contents (Elt Ideal))
    (x5 : (⟨S262144x1, .f32⟩ : BufTy).Contents (Elt Ideal)) :
    val_main_v131 (F := Ideal) x2 x3 x5
      = fun _ => Loss.lossIou (fun n => x2 (ix2 n 0)) (fun n => x5 (ix2 n 0)) (fun n => x3 (ix1 n)) := by
  funext j
  rw [val_main_v131_apply, cnt_apply, val_main_v130_apply, val_main_cst_19_apply]
  show Ideal.div (Ideal.ofBits .f32 0x00000000#32 + _) _ = _
  rw [Ideal.ofBits_zero_f32, zero_add, sum_idx2]
  have hs : ∑ a : Fin 262144, ∑ b : Fin 1, val_main_v129 (F := Ideal) x2 x3 x5 (ix2 a b)
      = ∑ n : Fin 262144, Loss.bceRef (x2 (ix2 n 0)) (x5 (ix2 n 0)) (Loss.u2f (Loss.fgBit (x3 (ix1 n)))) :=
    Finset.sum_congr rfl fun n _ => by rw [Fin.sum_univ_one]; exact iou_term x2 x3 x5 n
  rw [hs]
  rfl

/-! ## The regression loss

For anchor n write (p0, p1, p2, p3) for its predicted box and (t0, t1, t2, t3) for its target box: the entries
(n, 0) … (n, 3) of the two box arrays. -/

/-- a column of a box array, cut out as a [262144, 1] slice and reshaped to [262144], reads the entry (n, k) -/
theorem col_v61 (x1 : (⟨S262144x4, .f32⟩ : BufTy).Contents (Elt Ideal)) (n : Fin 262144) :
    val_main_v61 (F := Ideal) x1 (ix1 n) = x1 (ix2 n 2) := by
  rw [val_main_v61_apply, val_main_v60_apply]
  exact congrArg x1 (idx2_eq _ n 2 (by show n.val / 1 = n.val; exact Nat.div_one _) rfl)

theorem col_v63 (x1 : (⟨S262144x4, .f32⟩ : BufTy).Contents (Elt Ideal)) (n : Fin 262144) :
    val_main_v63 (F := Ideal) x1 (ix1 n) = x1 (ix2 n 0) := by
  rw [val_main_v63_apply, val_main_v62_apply]
  exact congrArg x1 (idx2_eq _ n 0 (by show n.val / 1 = n.val; exact Nat.div_one _) rfl)

theorem col_v66 (x1 : (⟨S262144x4, .f32⟩ : BufTy).Contents (Elt Ideal)) (n : Fin 262144) :
    val_main_v66 (F := Ideal) x1 (ix1 n) = x1 (ix2 n 3) := by
  rw [val_main_v66_apply, val_main_v65_apply]
  exact congrArg x1 (idx2_eq _ n 3 (by show n.val / 1 = n.val; exact Nat.div_one _) rfl)

theorem col_v68 (x1 : (⟨S262144x4, .f32⟩ : BufTy).Contents (Elt Ideal)) (n : Fin 262144) :
    val_main_v68 (F := Ideal) x1 (ix1 n) = x1 (ix2 n 1) := by
  rw [val_main_v68_apply, val_main_v67_apply]
  exact congrArg x1 (idx2_eq _ n 1 (by show n.val / 1 = n.val; exact Nat.div_one _) rfl)

theorem col_v72 (x4 : (⟨S262144x4, .f32⟩ : BufTy).Contents (Elt Ideal)) (n : Fin 262144) :
    val_main_v72 (F := Ideal) x4 (ix1 n) = x4 (ix2 n 2) := by
  rw [val_main_v72_apply, val_main_v71_apply]
  exact congrArg x4 (idx2_eq _ n 2 (by show n.val / 1 = n.val; exact Nat.div_one _) rfl)

theorem col_v74 (x4 : (⟨S262144x4, .f32⟩ : BufTy).Contents (Elt Ideal)) (n : Fin 262144) :
    val_main_v74 (F := Ideal) x4 (ix1 n) = x4 (ix2 n 0) := by
  rw [val_main_v74_apply, val_main_v73_apply]
  exact congrArg x4 (idx2_eq _ n 0 (by show n.val / 1 = n.val; exact Nat.div_one _) rfl)

theorem col_v77 (x4 : (⟨S262144x4, .f32⟩ : BufTy).Contents (Elt Ideal)) (n : Fin 262144) :
    val_main_v77 (F := Ideal) x4 (ix1 n) = x4 (ix2 n 3) := by
  rw [val_main_v77_apply, val_main_v76_apply]
  exact congrArg x4 (idx2_eq _ n 3 (by show n.val / 1 = n.val; exact Nat.div_one _) rfl)

theorem col_v79 (x4 : (⟨S262144x4, .f32⟩ : BufTy).Contents (Elt Ideal)) (n : Fin 262144) :
    val_main_v79 (F := Ideal) x4 (ix1 n) = x4 (ix2 n 1) := by
  rw [val_main_v79_apply, val_main_v78_apply]
  exact congrArg x4 (idx2_eq _ n 1 (by show n.val / 1 = n.val; exact Nat.div_one _) rfl)

/-- the predicted box's area (p2 - p0)(p3 - p1) -/
theorem area_p (x1 : (⟨S262144x4, .f32⟩ : BufTy).Contents (Elt Ideal)) (n : Fin 262144) :
    val_main_v70 (F := Ideal) x1 (ix1 n)
      = (x1 (ix2 n 2) - x1 (ix2 n 0)) * (x1 (ix2 n 3) - x1 (ix2 n 1)) := by
  rw [val_main_v70_apply, val_main_v64_apply, val_main_v69_apply, col_v61, col_v63, col_v66, col_v68]
  rfl

/-- the target box's area (t2 - t0)(t3 - t1) -/
theorem area_t (x4 : (⟨S262144x4, .f32⟩ : BufTy).Contents (Elt Ideal)) (n : Fin 262144) :
    val_main_v81 (F := Ideal) x4 (ix1 n)
      = (x4 (ix2 n 2) - x4 (ix2 n 0)) * (x4 (ix2 n 3) - x4 (ix2 n 1)) := by
  rw [val_main_v81_apply, val_main_v75_apply, val_main_v80_apply, col_v72, col_v74, col_v77, col_v79]
  rfl

/-- the intersection's width, clipped at 0: max(0, min(p2,t2) - max(p0,t0)) -/
theorem inter_wh_0 (x1 x4 : (⟨S262144x4, .f32⟩ : BufTy).Contents (Elt Ideal)) (n : Fin 262144) :
    val_main_v89 (F := Ideal) x1 x4 (ix2 n 0)
      = max Loss.f0 (min (x1 (ix2 n 2)) (x4 (ix2 n 2)) - max (x1 (ix2 n 0)) (x4 (ix2 n 0))) := by
  have e1 : idx_main_v85 (ix2 n (0 : Fin 2)) = ix2 n 2 := idx2_eq _ n 2 rfl rfl
  have e2 : idx_main_v86 (ix2 n (0 : Fin 2)) = ix2 n 2 := idx2_eq _ n 2 rfl rfl
  have e3 : idx_main_v82 (ix2 n (0 : Fin 2)) = ix2 n 0 := idx2_eq _ n 0 rfl rfl
  have e4 : idx_main_v83 (ix2 n (0 : Fin 2)) = ix2 n 0 := idx2_eq _ n 0 rfl rfl
  rw [val_main_v89_apply, val_main_call1_v1_apply, val_main_call1_v0_apply, val_main_cst_14_apply,
    val_main_v88_apply, val_main_v87_apply, val_main_v84_apply, val_main_v85_apply, val_main_v86_apply,
    val_main_v82_apply, val_main_v83_apply, e1, e2, e3, e4]
  rfl

/-- the intersection's height, clipped at 0: max(0, min(p3,t3) - max(p1,t1)) -/
theorem inter_wh_1 (x1 x4 : (⟨S262144x4, .f32⟩ : BufTy).Contents (Elt Ideal)) (n : Fin 262144) :
    val_main_v89 (F := Ideal) x1 x4 (ix2 n 1)
      = max Loss.f0 (min (x1 (ix2 n 3)) (x4 (ix2 n 3)) - max (x1 (ix2 n 1)) (x4 (ix2 n 1))) := by
  have e1 : idx_main_v85 (ix2 n (1 : Fin 2)) = ix2 n 3 := idx2_eq _ n 3 rfl rfl
  have e2 : idx_main_v86 (ix2 n (1 : Fin 2)) = ix2 n 3 := idx2_eq _ n 3 rfl rfl
  have e3 : idx_main_v82 (ix2 n (1 : Fin 2)) = ix2 n 1 := idx2_eq _ n 1 rfl rfl
  have e4 : idx_main_v83 (ix2 n (1 : Fin 2)) = ix2 n 1 := idx2_eq _ n 1 rfl rfl
  rw [val_main_v89_apply, val_main_call1_v1_apply, val_main_call1_v0_apply, val_main_cst_14_apply,
    val_main_v88_apply, val_main_v87_apply, val_main_v84_apply, val_main_v85_apply, val_main_v86_apply,
    val_main_v82_apply, val_main_v83_apply, e1, e2, e3, e4]
  rfl

/-- the enclosing box's width, clipped at 0: max(0, max(p2,t2) - min(p0,t0)) -/
theorem encl_wh_0 (x1 x4 : (⟨S262144x4, .f32⟩ : BufTy).Contents (Elt Ideal)) (n : Fin 262144) :
    val_main_v105 (F := Ideal) x1 x4 (ix2 n 0)
      = max Loss.f0 (max (x1 (ix2 n 2)) (x4 (ix2 n 2)) - min (x1 (ix2 n 0)) (x4 (ix2 n 0))) := by
  have e1 : idx_main_v101 (ix2 n (0 : Fin 2)) = ix2 n 2 := idx2_eq _ n 2 rfl rfl
  have e2 : idx_main_v102 (ix2 n (0 : Fin 2)) = ix2 n 2 := idx2_eq _ n 2 rfl rfl
  have e3 : idx_main_v98 (ix2 n (0 : Fin 2)) = ix2 n 0 := idx2_eq _ n 0 rfl rfl
  have e4 : idx_main_v99 (ix2 n (0 : Fin 2)) = ix2 n 0 := idx2_eq _ n 0 rfl rfl
  rw [val_main_v105_apply, val_main_call2_v1_apply, val_main_call2_v0_apply, val_main_cst_15_apply,
    val_main_v104_apply, val_main_v103_apply, val_main_v100_apply, val_main_v101_apply, val_main_v102_apply,
    val_main_v98_apply, val_main_v99_apply, e1, e2, e3, e4]
  rfl

/-- the enclosing box's height, clipped at 0: max(0, max(p3,t3) - min(p1,t1)) -/
theorem encl_wh_1 (x1 x4 : (⟨S262144x4, .f32⟩ : BufTy).Contents (Elt Ideal)) (n : Fin 262144) :
    val_main_v105 (F := Ideal) x1 x4 (ix2 n 1)
      = max Loss.f0 (max (x1 (ix2 n 3)) (x4 (ix2 n 3)) - min (x1 (ix2 n 1)) (x4 (ix2 n 1))) := by
  have e1 : idx_main_v101 (ix2 n (1 : Fin 2)) = ix2 n 3 := idx2_eq _ n 3 rfl rfl
  have e2 : idx_main_v102 (ix2 n (1 : Fin 2)) = ix2 n 3 := idx2_eq _ n 3 rfl rfl
  have e3 : idx_main_v98 (ix2 n (1 : Fin 2)) = ix2 n 1 := idx2_eq _ n 1 rfl rfl
  have e4 : idx_main_v99 (ix2 n (1 : Fin 2)) = ix2 n 1 := idx2_eq _ n 1 rfl rfl
  rw [val_main_v105_apply, val_main_call2_v1_apply, val_main_call2_v0_apply, val_main_cst_15_apply,
    val_main_v104_apply, val_main_v103_apply, val_main_v100_apply, val_main_v101_apply, val_main_v102_apply,
    val_main_v98_apply, val_main_v99_apply, e1, e2, e3, e4]
  rfl

/-- the intersection's area: clipped width times clipped height -/
theorem inter_area (x1 x4 : (⟨S262144x4, .f32⟩ : BufTy).Contents (Elt Ideal)) (n : Fin 262144) :
    val_main_v94 (F := Ideal) x1 x4 (ix1 n) = (max Loss.f0 (min (x1 (ix2 n 2)) (x4 (ix2 n 2)) - max (x1 (ix2 n 0)) (x4 (ix2 n 0))) * max Loss.f0 (min (x1 (ix2 n 3)) (x4 (ix2 n 3)) - max (x1 (ix2 n 1)) (x4 (ix2 n 1)))) := by
  have e0 : idx_main_v90 (idx_main_v91 (ix1 n)) = ix2 n 0 :=
    idx2_eq _ n 0 (by show n.val / 1 = n.val; exact Nat.div_one _) rfl
  have e1 : idx_main_v92 (idx_main_v93 (ix1 n)) = ix2 n 1 :=
    idx2_eq _ n 1 (by show n.val / 1 = n.val; exact Nat.div_one _) rfl
  rw [val_main_v94_apply, val_main_v91_apply, val_main_v90_apply, val_main_v93_apply, val_main_v92_apply, e0, e1,
    inter_wh_0, inter_wh_1]
  rfl

/-- the enclosing box's area -/
theorem encl_area (x1 x4 : (⟨S262144x4, .f32⟩ : BufTy).Contents (Elt Ideal)) (n : Fin 262144) :
    val_main_v110 (F := Ideal) x1 x4 (ix1 n) = (max Loss.f0 (max (x1 (ix2 n 2)) (x4 (ix2 n 2)) - min (x1 (ix2 n 0)) (x4 (ix2 n 0))) * max Loss.f0 (max (x1 (ix2 n 3)) (x4 (ix2 n 3)) - min (x1 (ix2 n 1)) (x4 (ix2 n 1)))) := by
  have e0 : idx_main_v106 (idx_main_v107 (ix1 n)) = ix2 n 0 :=
    idx2_eq _ n 0 (by show n.val / 1 = n.val; exact Nat.div_one _) rfl
  have e1 : idx_main_v108 (idx_main_v109 (ix1 n)) = ix2 n 1 :=
    idx2_eq _ n 1 (by show n.val / 1 = n.val; exact Nat.div_one _) rfl
  rw [val_main_v110_apply, val_main_v107_apply, val_main_v106_apply, val_main_v109_apply, val_main_v108_apply, e0, e1,
    encl_wh_0, encl_wh_1]
  rfl

/-- the union's area: the two areas minus the intersection's -/
theorem union_area (x1 x4 : (⟨S262144x4, .f32⟩ : BufTy).Contents (Elt Ideal)) (n : Fin 262144) :
    val_main_v96 (F := Ideal) x1 x4 (ix1 n) = ((((x1 (ix2 n 2) - x1 (ix2 n 0)) * (x1 (ix2 n 3) - x1 (ix2 n 1))) + ((x4 (ix2 n 2) - x4 (ix2 n 0)) * (x4 (ix2 n 3) - x4 (ix2 n 1)))) - (max Loss.f0 (min (x1 (ix2 n 2)) (x4 (ix2 n 2)) - max (x1 (ix2 n 0)) (x4 (ix2 n 0))) * max Loss.f0 (min (x1 (ix2 n 3)) (x4 (ix2 n 3)) - max (x1 (ix2 n 1)) (x4 (ix2 n 1))))) := by
  rw [val_main_v96_apply, val_main_v95_apply, area_p, area_t, inter_area]
  rfl

/-- the regression term of anchor n: 1 - GIoU of its two boxes, times the foreground factor -/
theorem reg_term (x1 : (⟨S262144x4, .f32⟩ : BufTy).Contents (Elt Ideal)) (x3 : (⟨S262144, .i32⟩ : BufTy).Contents (Elt Ideal)) (x4 : (⟨S262144x4, .f32⟩ : BufTy).Contents (Elt Ideal)) (n : Fin 262144) :
    val_main_v116 (F := Ideal) x1 x3 x4 (ix1 n)
      = Loss.regTerm (x1 (ix2 n 0)) (x1 (ix2 n 1)) (x1 (ix2 n 2)) (x1 (ix2 n 3)) (x4 (ix2 n 0)) (x4 (ix2 n 1)) (x4 (ix2 n 2)) (x4 (ix2 n 3))
          (Loss.u2f (Loss.fgBit (x3 (ix1 n)))) := by
  rw [val_main_v116_apply, val_main_v115_apply, val_main_v114_apply, val_main_cst_16_apply, val_main_v113_apply,
    val_main_v97_apply, val_main_v112_apply, val_main_v111_apply, inter_area, union_area, encl_area, fgf_apply]
  rfl

/-- the second result is the regression loss -/
theorem ref_reg (x1 : (⟨S262144x4, .f32⟩ : BufTy).Contents (Elt Ideal)) (x3 : (⟨S262144, .i32⟩ : BufTy).Contents (Elt Ideal)) (x4 : (⟨S262144x4, .f32⟩ : BufTy).Contents (Elt Ideal)) :
    val_main_v118 (F := Ideal) x1 x3 x4
      = fun _ => Loss.lossReg (fun n a => x1 (ix2 n a)) (fun n a => x4 (ix2 n a)) (fun n => x3 (ix1 n)) := by
  funext j
  rw [val_main_v118_apply, cnt_apply, val_main_v117_apply, val_main_cst_17_apply]
  show Ideal.div (Ideal.ofBits .f32 0x00000000#32 + _) _ = _
  rw [Ideal.ofBits_zero_f32, zero_add, sum_idx1]
  have hs : ∑ a : Fin 262144, val_main_v116 (F := Ideal) x1 x3 x4 (ix1 a)
      = ∑ n : Fin 262144, Loss.regTerm (x1 (ix2 n 0)) (x1 (ix2 n 1)) (x1 (ix2 n 2)) (x1 (ix2 n 3)) (x4 (ix2 n 0)) (x4 (ix2 n 1)) (x4 (ix2 n 2)) (x4 (ix2 n 3))
          (Loss.u2f (Loss.fgBit (x3 (ix1 n)))) :=
    Finset.sum_congr rfl fun n _ => reg_term x1 x3 x4 n
  rw [hs]
  rfl

/-! ## The classification loss -/

/-- the one-hot target of anchor n and class c, zeroed on background anchors -/
theorem tgt_apply (x3 : (⟨S262144, .i32⟩ : BufTy).Contents (Elt Ideal)) (n : Fin 262144) (c : Fin 80) :
    val_main_v13 (F := Ideal) x3 (ix2 n c) = Loss.tgt (x3 (ix1 n)) c := by
  have e0 : idx_main_call0_v0 (idx_main_call0_v2 (ix2 n c)) = ix1 n := idx1_eq _ n rfl
  have e1 : idx_main_v10 (idx_main_v12 (ix2 n c)) = ix1 n := idx1_eq _ n rfl
  rw [val_main_v13_apply, val_main_v9_apply, val_main_call0_v4_apply, val_main_call0_v2_apply, val_main_call0_v0_apply,
    val_main_call0_v3_apply, val_main_call0_v1_apply, val_main_v12_apply, val_main_v11_apply, val_main_v10_apply,
    e0, e1, fg_apply]
  rfl

/-- the valid factor of anchor n, the same for every class -/
theorem valid_apply (x3 : (⟨S262144, .i32⟩ : BufTy).Contents (Elt Ideal)) (x6 : (⟨S262144, .i1⟩ : BufTy).Contents (Elt Ideal)) (n : Fin 262144) (c : Fin 80) :
    val_main_v56 (F := Ideal) x3 x6 (ix2 n c) = Loss.u2f (Loss.validBit (x3 (ix1 n)) (x6 (ix1 n))) := by
  have e0 : idx_main_v55 (idx_main_v56 (ix2 n c)) = ix1 n := idx1_eq _ n rfl
  rw [val_main_v56_apply, val_main_v55_apply, e0, val_main_v19_apply, val_main_v17_apply, val_main_v15_apply,
    val_main_v16_apply, val_main_v14_apply, val_main_c_2_apply]
  rfl

/-- the sigmoid of a logit as the host program computes it: 1 / (1 + exp(-x)) -/
theorem sig_apply (x0 : (⟨S262144x80, .f32⟩ : BufTy).Contents (Elt Ideal)) (i : S262144x80.Idx) :
    val_main_v25 (F := Ideal) x0 i = Ideal.div Loss.f1 (Loss.f1 + Ideal.exp (-(x0 i))) := by
  rw [val_main_v25_apply, val_main_v24_apply, val_main_cst_4_apply, val_main_v23_apply, val_main_v22_apply,
    val_main_cst_3_apply, val_main_v21_apply, val_main_v20_apply]
  rfl

/-- the cross entropy with logits of x against the target t: max(x,0) - x t + log(1 + exp(-|x|)) -/
theorem ce_apply (x0 : (⟨S262144x80, .f32⟩ : BufTy).Contents (Elt Ideal)) (x3 : (⟨S262144, .i32⟩ : BufTy).Contents (Elt Ideal)) (n : Fin 262144) (c : Fin 80) :
    val_main_v34 (F := Ideal) x0 x3 (ix2 n c)
      = (max (x0 (ix2 n c)) Loss.f0 - x0 (ix2 n c) * Loss.tgt (x3 (ix1 n)) c) + Ideal.log1p (Ideal.exp (-(max (x0 (ix2 n c)) (-(x0 (ix2 n c)))))) := by
  rw [val_main_v34_apply, val_main_v29_apply, val_main_v27_apply, val_main_v26_apply, val_main_cst_5_apply,
    val_main_v28_apply, tgt_apply, val_main_v33_apply, val_main_v32_apply, val_main_v31_apply, val_main_v30_apply]
  rfl

/-- the focal modulation (1 - p_t)^2, where p_t = p t + (1 - p)(1 - t) -/
theorem mod_apply (x0 : (⟨S262144x80, .f32⟩ : BufTy).Contents (Elt Ideal)) (x3 : (⟨S262144, .i32⟩ : BufTy).Contents (Elt Ideal)) (n : Fin 262144) (c : Fin 80) :
    val_main_v45 (F := Ideal) x0 x3 (ix2 n c)
      = Ideal.pow (Loss.f1 - (Ideal.div Loss.f1 (Loss.f1 + Ideal.exp (-(x0 (ix2 n c)))) * Loss.tgt (x3 (ix1 n)) c + (Loss.f1 - Ideal.div Loss.f1 (Loss.f1 + Ideal.exp (-(x0 (ix2 n c))))) * (Loss.f1 - Loss.tgt (x3 (ix1 n)) c))) Loss.f2 := by
  rw [val_main_v45_apply, val_main_v44_apply, val_main_cst_9_apply, val_main_v43_apply, val_main_v42_apply,
    val_main_cst_8_apply, val_main_v41_apply, val_main_v35_apply, val_main_v40_apply, val_main_v37_apply,
    val_main_v36_apply, val_main_cst_6_apply, val_main_v39_apply, val_main_v38_apply, val_main_cst_7_apply,
    sig_apply, tgt_apply]
  rfl

/-- the class weight alpha_t = t/4 + 3(1 - t)/4 -/
theorem alpha_apply (x3 : (⟨S262144, .i32⟩ : BufTy).Contents (Elt Ideal)) (n : Fin 262144) (c : Fin 80) :
    val_main_v53 (F := Ideal) x3 (ix2 n c) = Loss.fq * Loss.tgt (x3 (ix1 n)) c + Loss.f34 * (Loss.f1 - Loss.tgt (x3 (ix1 n)) c) := by
  rw [val_main_v53_apply, val_main_v48_apply, val_main_v47_apply, val_main_cst_10_apply, val_main_v52_apply,
    val_main_v51_apply, val_main_cst_12_apply, val_main_v50_apply, val_main_v49_apply, val_main_cst_11_apply, tgt_apply]
  rfl

/-- the classification term of anchor n and class c: the focal loss of the logit against the target, times the valid factor -/
theorem cls_term (x0 : (⟨S262144x80, .f32⟩ : BufTy).Contents (Elt Ideal)) (x3 : (⟨S262144, .i32⟩ : BufTy).Contents (Elt Ideal)) (x6 : (⟨S262144, .i1⟩ : BufTy).Contents (Elt Ideal)) (n : Fin 262144) (c : Fin 80) :
    val_main_v57 (F := Ideal) x0 x3 x6 (ix2 n c)
      = Loss.clsRef (x0 (ix2 n c)) (Loss.tgt (x3 (ix1 n)) c) (Loss.u2f (Loss.validBit (x3 (ix1 n)) (x6 (ix1 n)))) := by
  rw [val_main_v57_apply, val_main_v54_apply, val_main_v46_apply, alpha_apply, ce_apply, mod_apply, valid_apply]
  rfl

/-- the first result is the classification loss -/
theorem ref_cls (x0 : (⟨S262144x80, .f32⟩ : BufTy).Contents (Elt Ideal)) (x3 : (⟨S262144, .i32⟩ : BufTy).Contents (Elt Ideal)) (x6 : (⟨S262144, .i1⟩ : BufTy).Contents (Elt Ideal)) :
    val_main_v59 (F := Ideal) x0 x3 x6
      = fun _ => Loss.lossCls (fun n c => x0 (ix2 n c)) (fun n => x3 (ix1 n)) (fun n => x6 (ix1 n)) := by
  funext j
  rw [val_main_v59_apply, cnt_apply, val_main_v58_apply, val_main_cst_13_apply]
  show Ideal.div (Ideal.ofBits .f32 0x00000000#32 + _) _ = _
  rw [Ideal.ofBits_zero_f32, zero_add, sum_idx2]
  have hs : ∑ a : Fin 262144, ∑ b : Fin 80, val_main_v57 (F := Ideal) x0 x3 x6 (ix2 a b)
      = ∑ n : Fin 262144, ∑ c : Fin 80,
          Loss.clsRef (x0 (ix2 n c)) (Loss.tgt (x3 (ix1 n)) c) (Loss.u2f (Loss.validBit (x3 (ix1 n)) (x6 (ix1 n)))) :=
    Finset.sum_congr rfl fun n _ => Finset.sum_congr rfl fun c _ => cls_term x0 x3 x6 n c
  rw [hs]
  rfl

end Cert.RefLoss

end
-- ==== Proof.KerPieces.lean ====
/-
  What one run of the kernel body leaves behind, as values. At every grid point the body computes four partial
  sums of its block (classification, regression, IoU, foreground count), lays them side by side as a [1,4] row and
  adds the row to the scratch accumulator; at the first point the accumulator is zeroed first; at the last point the
  three outputs receive the first three entries of the new accumulator divided by max(fourth entry, 1).
-/
import proofs.«149552_g33784212750688_cont_8to1_b_455_6_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KerPieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- the class-word row of the side block: row 0 of the [1,2,4096] block -/
abbrev rowW (x1 : Vec F S1x2x4096 .f32) : Vec F S1x1x4096 .f32 :=
  View.ld x1 (Rect.unit ![0, 0, 0] S1x1x4096.size inb_S1x2x4096_S1x1x4096_0_0_0)
/-- the mask row of the side block: row 1 of the [1,2,4096] block -/
abbrev rowM (x1 : Vec F S1x2x4096 .f32) : Vec F S1x1x4096 .f32 :=
  View.ld x1 (Rect.unit ![0, 1, 0] S1x1x4096.size inb_S1x2x4096_S1x1x4096_0_1_0)

/-- the block's classification partial sum, as a [1,1] vector -/
def pCls (x0 : Vec F S4096x80 .f32) (x1 : Vec F S1x2x4096 .f32) : FVec F S1x1 .f32 :=
  k0_pay30 (k0_pay16 (k0_pay12 (rowW x1) (rowM x1)) x0 (k0_pay13 (rowW x1) (rowM x1)) (k0_pay14 x0) (k0_pay15 x0))
/-- the block's regression partial sum -/
def pReg (x1 : Vec F S1x2x4096 .f32) (x2 x3 : Vec F S4x4096 .f32) : FVec F S1x1 .f32 :=
  k0_pay31 (k0_pay9 (rowW x1)) (k0_pay19 x2) (k0_pay20 x2) (k0_pay21 x2) (k0_pay22 x2) (k0_pay23 x3) (k0_pay24 x3)
    (k0_pay25 x3) (k0_pay26 x3) (k0_pay27 x2) (k0_pay28 x3) (k0_pay29 x2 x3)
/-- the block's IoU partial sum -/
def pIou (x1 : Vec F S1x2x4096 .f32) (x4 x5 : Vec F S1x1x4096 .f32) : FVec F S1x1 .f32 :=
  k0_pay32 (k0_pay9 (rowW x1)) x4 x5
/-- the block's foreground count -/
def pFg (x1 : Vec F S1x2x4096 .f32) : FVec F S1x1 .f32 := k0_pay33 (k0_pay10 (rowW x1))

theorem scratch_B (c : Dev nD) (i : grid0.Coords) (a1 : Memref sig .tc .vmem S4096x80 .f32) (h1 : a1.IsWhole) (a2 : Memref sig .tc .vmem S1x2x4096 .f32) (h2 : a2.IsWhole) (a3 : Memref sig .tc .vmem S4x4096 .f32) (h3 : a3.IsWhole) (a4 : Memref sig .tc .vmem S4x4096 .f32) (h4 : a4.IsWhole) (a5 : Memref sig .tc .vmem S1x1x4096 .f32) (h5 : a5.IsWhole) (a6 : Memref sig .tc .vmem S1x1x4096 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x4 .f32) (h10 : a10.IsWhole) (hc0 : ¬cond0_0 i) (hc1 : ¬cond0_1 i) (x0 : Vec F S4096x80 .f32) (x1 : Vec F S1x2x4096 .f32) (x2 : Vec F S4x4096 .f32) (x3 : Vec F S4x4096 .f32) (x4 : Vec F S1x1x4096 .f32) (x5 : Vec F S1x1x4096 .f32) (xs0 : Vec F S1x4 .f32) :
    sout0_B_0 c i a1 h1 a2 h2 a3 h3 a4 h4 a5 h5 a6 h6 a7 h7 a8 h8 a9 h9 a10 h10 hc0 hc1 x0 x1 x2 x3 x4 x5 xs0 = k0_pay3 (pCls x0 x1) (pReg x1 x2 x3) (pIou x1 x4 x5) (pFg x1) xs0 := by
  unfold sout0_B_0
  rw [View.read_writes_eq_canon _ _ _ (scover0_B_0 c i a1 h1 a2 h2 a3 h3 a4 h4 a5 h5 a6 h6 a7 h7 a8 h8 a9 h9 a10 h10 hc0 hc1 x0 x1 x2 x3 x4 x5 xs0)]
  unfold kernelRun0_B
  dsimp only
  sl_unfold_words
  rw [View.canon_unit_zero hz2]
  simp only [View.readAt_eq_ld, h1.read_unread, h2.read_unread, h3.read_unread, h4.read_unread, h5.read_unread, h6.read_unread, h10.read_unread,
    View.ld_unit_zero (S := S4096x80) hz2, View.ld_unit_zero (S := S4x4096) hz2, View.ld_unit_zero (S := S1x1x4096) hz3, View.ld_unit_zero (S := S1x4) hz2]
  rfl

theorem scratch_C (c : Dev nD) (i : grid0.Coords) (a1 : Memref sig .tc .vmem S4096x80 .f32) (h1 : a1.IsWhole) (a2 : Memref sig .tc .vmem S1x2x4096 .f32) (h2 : a2.IsWhole) (a3 : Memref sig .tc .vmem S4x4096 .f32) (h3 : a3.IsWhole) (a4 : Memref sig .tc .vmem S4x4096 .f32) (h4 : a4.IsWhole) (a5 : Memref sig .tc .vmem S1x1x4096 .f32) (h5 : a5.IsWhole) (a6 : Memref sig .tc .vmem S1x1x4096 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x4 .f32) (h10 : a10.IsWhole) (hc0 : ¬cond0_0 i) (hc1 : cond0_1 i) (x0 : Vec F S4096x80 .f32) (x1 : Vec F S1x2x4096 .f32) (x2 : Vec F S4x4096 .f32) (x3 : Vec F S4x4096 .f32) (x4 : Vec F S1x1x4096 .f32) (x5 : Vec F S1x1x4096 .f32) (xs0 : Vec F S1x4 .f32) :
    sout0_C_0 c i a1 h1 a2 h2 a3 h3 a4 h4 a5 h5 a6 h6 a7 h7 a8 h8 a9 h9 a10 h10 hc0 hc1 x0 x1 x2 x3 x4 x5 xs0 = k0_pay3 (pCls x0 x1) (pReg x1 x2 x3) (pIou x1 x4 x5) (pFg x1) xs0 := by
  unfold sout0_C_0
  rw [View.read_writes_eq_canon _ _ _ (scover0_C_0 c i a1 h1 a2 h2 a3 h3 a4 h4 a5 h5 a6 h6 a7 h7 a8 h8 a9 h9 a10 h10 hc0 hc1 x0 x1 x2 x3 x4 x5 xs0)]
  unfold kernelRun0_C
  dsimp only
  sl_unfold_words
  rw [View.canon_unit_zero hz2]
  simp only [View.readAt_eq_ld, h1.read_unread, h2.read_unread, h3.read_unread, h4.read_unread, h5.read_unread, h6.read_unread, h10.read_unread,
    View.ld_unit_zero (S := S4096x80) hz2, View.ld_unit_zero (S := S4x4096) hz2, View.ld_unit_zero (S := S1x1x4096) hz3, View.ld_unit_zero (S := S1x4) hz2]
  rfl

theorem scratch_A (c : Dev nD) (i : grid0.Coords) (a1 : Memref sig .tc .vmem S4096x80 .f32) (h1 : a1.IsWhole) (a2 : Memref sig .tc .vmem S1x2x4096 .f32) (h2 : a2.IsWhole) (a3 : Memref sig .tc .vmem S4x4096 .f32) (h3 : a3.IsWhole) (a4 : Memref sig .tc .vmem S4x4096 .f32) (h4 : a4.IsWhole) (a5 : Memref sig .tc .vmem S1x1x4096 .f32) (h5 : a5.IsWhole) (a6 : Memref sig .tc .vmem S1x1x4096 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x4 .f32) (h10 : a10.IsWhole) (hc0 : cond0_0 i) (hc1 : ¬cond0_1 i) (x0 : Vec F S4096x80 .f32) (x1 : Vec F S1x2x4096 .f32) (x2 : Vec F S4x4096 .f32) (x3 : Vec F S4x4096 .f32) (x4 : Vec F S1x1x4096 .f32) (x5 : Vec F S1x1x4096 .f32) :
    sout0_A_0 c i a1 h1 a2 h2 a3 h3 a4 h4 a5 h5 a6 h6 a7 h7 a8 h8 a9 h9 a10 h10 hc0 hc1 x0 x1 x2 x3 x4 x5 = k0_pay3 (pCls x0 x1) (pReg x1 x2 x3) (pIou x1 x4 x5) (pFg x1) k0_pay1 := by
  unfold sout0_A_0
  rw [View.read_writes_eq_canon _ _ _ (scover0_A_0 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S1x4) hz2, View.readCov_unit_zero (S := S1x4) _ hz2]
  simp only [View.readAt_eq_ld, h1.read_unread, h2.read_unread, h3.read_unread, h4.read_unread, h5.read_unread, h6.read_unread, h10.read_unread,
    View.ld_unit_zero (S := S4096x80) hz2, View.ld_unit_zero (S := S4x4096) hz2, View.ld_unit_zero (S := S1x1x4096) hz3, View.ld_unit_zero (S := S1x4) hz2]
  rfl

theorem out_C_6 (c : Dev nD) (i : grid0.Coords) (a1 : Memref sig .tc .vmem S4096x80 .f32) (h1 : a1.IsWhole) (a2 : Memref sig .tc .vmem S1x2x4096 .f32) (h2 : a2.IsWhole) (a3 : Memref sig .tc .vmem S4x4096 .f32) (h3 : a3.IsWhole) (a4 : Memref sig .tc .vmem S4x4096 .f32) (h4 : a4.IsWhole) (a5 : Memref sig .tc .vmem S1x1x4096 .f32) (h5 : a5.IsWhole) (a6 : Memref sig .tc .vmem S1x1x4096 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x4 .f32) (h10 : a10.IsWhole) (hc0 : ¬cond0_0 i) (hc1 : cond0_1 i) (x0 : Vec F S4096x80 .f32) (x1 : Vec F S1x2x4096 .f32) (x2 : Vec F S4x4096 .f32) (x3 : Vec F S4x4096 .f32) (x4 : Vec F S1x1x4096 .f32) (x5 : Vec F S1x1x4096 .f32) (xs0 : Vec F S1x4 .f32) :
    out0_C_6 c i a1 h1 a2 h2 a3 h3 a4 h4 a5 h5 a6 h6 a7 h7 a8 h8 a9 h9 a10 h10 hc0 hc1 x0 x1 x2 x3 x4 x5 xs0 = k0_pay5 (pCls x0 x1) (pReg x1 x2 x3) (pIou x1 x4 x5) (pFg x1) xs0 := by
  unfold out0_C_6
  rw [View.read_writes_eq_canon _ _ _ (cover0_C_6 c i a1 h1 a2 h2 a3 h3 a4 h4 a5 h5 a6 h6 a7 h7 a8 h8 a9 h9 a10 h10 hc0 hc1 x0 x1 x2 x3 x4 x5 xs0)]
  unfold kernelRun0_C
  dsimp only
  sl_unfold_words
  rw [View.canon_unit_zero hz2]
  simp only [View.readAt_eq_ld, h1.read_unread, h2.read_unread, h3.read_unread, h4.read_unread, h5.read_unread, h6.read_unread, h10.read_unread,
    View.ld_unit_zero (S := S4096x80) hz2, View.ld_unit_zero (S := S4x4096) hz2, View.ld_unit_zero (S := S1x1x4096) hz3, View.ld_unit_zero (S := S1x4) hz2]
  rfl

theorem out_C_7 (c : Dev nD) (i : grid0.Coords) (a1 : Memref sig .tc .vmem S4096x80 .f32) (h1 : a1.IsWhole) (a2 : Memref sig .tc .vmem S1x2x4096 .f32) (h2 : a2.IsWhole) (a3 : Memref sig .tc .vmem S4x4096 .f32) (h3 : a3.IsWhole) (a4 : Memref sig .tc .vmem S4x4096 .f32) (h4 : a4.IsWhole) (a5 : Memref sig .tc .vmem S1x1x4096 .f32) (h5 : a5.IsWhole) (a6 : Memref sig .tc .vmem S1x1x4096 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x4 .f32) (h10 : a10.IsWhole) (hc0 : ¬cond0_0 i) (hc1 : cond0_1 i) (x0 : Vec F S4096x80 .f32) (x1 : Vec F S1x2x4096 .f32) (x2 : Vec F S4x4096 .f32) (x3 : Vec F S4x4096 .f32) (x4 : Vec F S1x1x4096 .f32) (x5 : Vec F S1x1x4096 .f32) (xs0 : Vec F S1x4 .f32) :
    out0_C_7 c i a1 h1 a2 h2 a3 h3 a4 h4 a5 h5 a6 h6 a7 h7 a8 h8 a9 h9 a10 h10 hc0 hc1 x0 x1 x2 x3 x4 x5 xs0 = k0_pay6 (pCls x0 x1) (pReg x1 x2 x3) (pIou x1 x4 x5) (pFg x1) xs0 := by
  unfold out0_C_7
  rw [View.read_writes_eq_canon _ _ _ (cover0_C_7 c i a1 h1 a2 h2 a3 h3 a4 h4 a5 h5 a6 h6 a7 h7 a8 h8 a9 h9 a10 h10 hc0 hc1 x0 x1 x2 x3 x4 x5 xs0)]
  unfold kernelRun0_C
  dsimp only
  sl_unfold_words
  rw [View.canon_unit_zero hz2]
  simp only [View.readAt_eq_ld, h1.read_unread, h2.read_unread, h3.read_unread, h4.read_unread, h5.read_unread, h6.read_unread, h10.read_unread,
    View.ld_unit_zero (S := S4096x80) hz2, View.ld_unit_zero (S := S4x4096) hz2, View.ld_unit_zero (S := S1x1x4096) hz3, View.ld_unit_zero (S := S1x4) hz2]
  rfl

theorem out_C_8 (c : Dev nD) (i : grid0.Coords) (a1 : Memref sig .tc .vmem S4096x80 .f32) (h1 : a1.IsWhole) (a2 : Memref sig .tc .vmem S1x2x4096 .f32) (h2 : a2.IsWhole) (a3 : Memref sig .tc .vmem S4x4096 .f32) (h3 : a3.IsWhole) (a4 : Memref sig .tc .vmem S4x4096 .f32) (h4 : a4.IsWhole) (a5 : Memref sig .tc .vmem S1x1x4096 .f32) (h5 : a5.IsWhole) (a6 : Memref sig .tc .vmem S1x1x4096 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S1x4 .f32) (h10 : a10.IsWhole) (hc0 : ¬cond0_0 i) (hc1 : cond0_1 i) (x0 : Vec F S4096x80 .f32) (x1 : Vec F S1x2x4096 .f32) (x2 : Vec F S4x4096 .f32) (x3 : Vec F S4x4096 .f32) (x4 : Vec F S1x1x4096 .f32) (x5 : Vec F S1x1x4096 .f32) (xs0 : Vec F S1x4 .f32) :
    out0_C_8 c i a1 h1 a2 h2 a3 h3 a4 h4 a5 h5 a6 h6 a7 h7 a8 h8 a9 h9 a10 h10 hc0 hc1 x0 x1 x2 x3 x4 x5 xs0 = k0_pay7 (pCls x0 x1) (pReg x1 x2 x3) (pIou x1 x4 x5) (pFg x1) xs0 := by
  unfold out0_C_8
  rw [View.read_writes_eq_canon _ _ _ (cover0_C_8 c i a1 h1 a2 h2 a3 h3 a4 h4 a5 h5 a6 h6 a7 h7 a8 h8 a9 h9 a10 h10 hc0 hc1 x0 x1 x2 x3 x4 x5 xs0)]
  unfold kernelRun0_C
  dsimp only
  sl_unfold_words
  rw [View.canon_unit_zero hz2]
  simp only [View.readAt_eq_ld, h1.read_unread, h2.read_unread, h3.read_unread, h4.read_unread, h5.read_unread, h6.read_unread, h10.read_unread,
    View.ld_unit_zero (S := S4096x80) hz2, View.ld_unit_zero (S := S4x4096) hz2, View.ld_unit_zero (S := S1x1x4096) hz3, View.ld_unit_zero (S := S1x4) hz2]
  rfl

end Cert.KernelIdeal.KerPieces

end
-- ==== Proof.KerAccum.lean ====
/-
  The accumulator across the grid. The scratch row after grid point n is the row after point n-1 (zero before the
  first point) updated by the body with the four partial sums of block n; after the last point the three outputs
  hold the first three entries of the final row divided by max(fourth entry, 1). Proved by induction on the point
  over the three control cases of the body (first point, middle points, last point).
-/
import proofs.«149552_g33784212750688_cont_8to1_b_455_6_alg».proof.Proof.KerPieces

set_option maxRecDepth 16384

noncomputable section

open Idealize.ShloMosaic Idealize.ShloMosaic.TcCoe Idealize.SL.Sem
open Idealize.ShloMosaic.Pipeline (Dat)

namespace Cert.KernelIdeal.KerAccum

open Cert.KernelIdeal Cert.KernelIdeal.Gen Cert.KernelIdeal.KerPieces

variable {F : FTy → Type} [FloatOps F]
variable (m : (ℓ : Loc nD τ sig) → Buf (Elt F) ℓ)

/-- the body's update of the accumulator row at grid point t: the row plus the block's four partial sums -/
def step (c : Dev nD) (t : Fin cfg0.N) (a : Vec F S1x4 .f32) : Vec F S1x4 .f32 :=
  k0_pay3 (pCls (iblk m c 0 t) (iblk m c 1 t)) (pReg (iblk m c 1 t) (iblk m c 2 t) (iblk m c 3 t))
    (pIou (iblk m c 1 t) (iblk m c 4 t) (iblk m c 5 t)) (pFg (iblk m c 1 t)) a

/-- the accumulator row after grid point n -/
def acc (c : Dev nD) : (n : ℕ) → n < cfg0.N → Vec F S1x4 .f32
  | 0, h => step m c ⟨0, h⟩ k0_pay1
  | n + 1, h => step m c ⟨n + 1, h⟩ (acc c n (Nat.lt_of_succ_lt h))

/-- what the scratch holds after point n is the accumulator row -/
theorem scratch_eq (c : Dev nD) : ∀ (n : ℕ) (h : n < cfg0.N), (outsAt0 m c n h).2.2.2 = acc m c n h
  | 0, h => by
    rw [outsAt0_A m c ⟨0, h⟩ rfl (by dsimp only; omega)]
    dsimp only
    rw [scratch_A]
    rfl
  | n + 1, h => by
    have hN : cfg0.N = 64 := N_0
    have h0 : ¬(⟨n + 1, h⟩ : Fin cfg0.N).val % 64 = 0 := by dsimp only; omega
    by_cases h1 : (⟨n + 1, h⟩ : Fin cfg0.N).val % 64 = 63
    · rw [outsAt0_C m c ⟨n + 1, h⟩ h0 h1]
      dsimp only
      rw [scratch_C]
      show step m c ⟨n + 1, h⟩ (outsAt0 m c n _).2.2.2 = step m c ⟨n + 1, h⟩ (acc m c n _)
      rw [scratch_eq c n]
    · rw [outsAt0_B m c ⟨n + 1, h⟩ h0 h1]
      dsimp only
      rw [scratch_B]
      show step m c ⟨n + 1, h⟩ (outsAt0 m c n _).2.2.2 = step m c ⟨n + 1, h⟩ (acc m c n _)
      rw [scratch_eq c n]

/-- the classification output after the last point -/
theorem out6_eq (c : Dev nD) (h : 63 < cfg0.N) :
    (outsAt0 m c 63 h).1 = k0_pay5 (pCls (iblk m c 0 ⟨63, h⟩) (iblk m c 1 ⟨63, h⟩)) (pReg (iblk m c 1 ⟨63, h⟩) (iblk m c 2 ⟨63, h⟩) (iblk m c 3 ⟨63, h⟩))
      (pIou (iblk m c 1 ⟨63, h⟩) (iblk m c 4 ⟨63, h⟩) (iblk m c 5 ⟨63, h⟩)) (pFg (iblk m c 1 ⟨63, h⟩)) (acc m c 62 (Nat.lt_of_succ_lt h)) := by
  rw [outsAt0_C m c ⟨63, h⟩ (by dsimp only; omega) (by dsimp only)]
  dsimp only
  rw [out_C_6]
  show k0_pay5 _ _ _ _ (outsAt0 m c 62 _).2.2.2 = _
  rw [scratch_eq m c 62]

/-- the regression output after the last point -/
theorem out7_eq (c : Dev nD) (h : 63 < cfg0.N) :
    (outsAt0 m c 63 h).2.1 = k0_pay6 (pCls (iblk m c 0 ⟨63, h⟩) (iblk m c 1 ⟨63, h⟩)) (pReg (iblk m c 1 ⟨63, h⟩) (iblk m c 2 ⟨63, h⟩) (iblk m c 3 ⟨63, h⟩))
      (pIou (iblk m c 1 ⟨63, h⟩) (iblk m c 4 ⟨63, h⟩) (iblk m c 5 ⟨63, h⟩)) (pFg (iblk m c 1 ⟨63, h⟩)) (acc m c 62 (Nat.lt_of_succ_lt h)) := by
  rw [outsAt0_C m c ⟨63, h⟩ (by dsimp only; omega) (by dsimp only)]
  dsimp only
  rw [out_C_7]
  show k0_pay6 _ _ _ _ (outsAt0 m c 62 _).2.2.2 = _
  rw [scratch_eq m c 62]

/-- the IoU output after the last point -/
theorem out8_eq (c : Dev nD) (h : 63 < cfg0.N) :
    (outsAt0 m c 63 h).2.2.1 = k0_pay7 (pCls (iblk m c 0 ⟨63, h⟩) (iblk m c 1 ⟨63, h⟩)) (pReg (iblk m c 1 ⟨63, h⟩) (iblk m c 2 ⟨63, h⟩) (iblk m c 3 ⟨63, h⟩))
      (pIou (iblk m c 1 ⟨63, h⟩) (iblk m c 4 ⟨63, h⟩) (iblk m c 5 ⟨63, h⟩)) (pFg (iblk m c 1 ⟨63, h⟩)) (acc m c 62 (Nat.lt_of_succ_lt h)) := by
  rw [outsAt0_C m c ⟨63, h⟩ (by dsimp only; omega) (by dsimp only)]
  dsimp only
  rw [out_C_8]
  show k0_pay7 _ _ _ _ (outsAt0 m c 62 _).2.2.2 = _
  rw [scratch_eq m c 62]

end Cert.KernelIdeal.KerAccum

end
-- ==== Proof.KerBody.lean ====
/-
  The four partial sums of one block, read as sums over the block's 4096 anchors at the exact instance.
  The body reduces a [1,4096,80] (or [1,1,4096]) array over all its entries; the entries are the focal, GIoU and
  cross-entropy terms of the anchor, built from the class word (row 0 of the side block), the mask (row 1), the
  logits, the boxes laid out coordinate-major, and the IoU logit and target.
-/
import proofs.«149552_g33784212750688_cont_8to1_b_455_6_alg».proof.Proof.KerPieces
import proofs.«149552_g33784212750688_cont_8to1_b_455_6_alg».proof.Proof.Spec
import proofs.«149552_g33784212750688_cont_8to1_b_455_6_alg».proof.Proof.LibTotalSum
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.KerBody

open Cert.KernelIdeal Cert.KernelIdeal.Gen Cert.KernelIdeal.KerPieces Idealize.ShloMosaic Idealize.ShloMosaic.ValueIdx Loss

variable {s : Shape} {φ : FTy}
theorem log1p_apply (v : FVec Ideal s φ) (i : s.Idx) : log1p v i = Ideal.log1p (v i) := rfl
theorem exp_apply (v : FVec Ideal s φ) (i : s.Idx) : exp v i = Ideal.exp (v i) := rfl
theorem absf_apply (v : FVec Ideal s φ) (i : s.Idx) : absf v i = max (v i) (-(v i)) := rfl

/-- the class-word row of the side block at anchor r is the block's entry (0,0,r) -/
theorem rowW_apply (x1 : Vec Ideal S1x2x4096 .f32) (r : Fin 4096) : rowW x1 (ix3 0 0 r) = x1 (ix3 0 0 r) := by
  show x1 _ = x1 _
  congr 1
  funext a
  apply Fin.ext
  match a with
  | ⟨0, _⟩ => rfl
  | ⟨1, _⟩ => rfl
  | ⟨2, _⟩ => show (0 : ℕ) + 1 * r.val = r.val; omega

/-- the mask row of the side block at anchor r is the block's entry (0,1,r) -/
theorem rowM_apply (x1 : Vec Ideal S1x2x4096 .f32) (r : Fin 4096) : rowM x1 (ix3 0 0 r) = x1 (ix3 0 1 r) := by
  show x1 _ = x1 _
  congr 1
  funext a
  apply Fin.ext
  match a with
  | ⟨0, _⟩ => rfl
  | ⟨1, _⟩ => rfl
  | ⟨2, _⟩ => show (0 : ℕ) + 1 * r.val = r.val; omega

/-- a sum over a [1,1,4096] index set is the sum over its 4096 anchors -/
theorem sum_row {M : Type*} [AddCommMonoid M] (f : S1x1x4096.Idx → M) : ∑ i, f i = ∑ r : Fin 4096, f (ix3 0 0 r) := by
  rw [Cert.LibTotalSum.sum_idx3]
  simp only [Fin.sum_univ_one]

/-- a sum over a [1,4096,80] index set is the double sum over anchors and classes -/
theorem sum_tile {M : Type*} [AddCommMonoid M] (f : S1x4096x80.Idx → M) :
    ∑ i, f i = ∑ r : Fin 4096, ∑ c : Fin 80, f (ix3 0 r c) := by
  rw [Cert.LibTotalSum.sum_idx3]
  simp only [Fin.sum_univ_one]

/-- the class word of anchor r read as the row [1,4096] the body works on -/
theorem pay8_apply (v0 : Vec Ideal S1x1x4096 .f32) (r : Fin 4096) : k0_pay8 v0 (ix2 0 r) = v0 (ix3 0 0 r) := by
  unfold k0_pay8
  exact shapeCast_1ab_ab_apply v0 _ 0 r

/-- the foreground factor of anchor r -/
theorem pay9_apply (v0 : Vec Ideal S1x1x4096 .f32) (r : Fin 4096) : k0_pay9 v0 (ix2 0 r) = fgKer (v0 (ix3 0 0 r)) := by
  unfold k0_pay9
  simp only [select_apply, andi, cmpf_apply, broadcast_apply, pay8_apply]
  rfl

/-- the scalar a total reduction over a [1,1,4096] array leaves, read back through the [1] → [1,1,1] cast and the extraction -/
theorem total_row (src : FVec Ideal S1x1x4096 .f32) (hφ : FKind.Formats FTy.f32) (hacc : (0x00000000#32 : BitVec 32) = 0x00000000#32) :
    extractAt ![0, 0, 0] (shapeCast S1x1x1 (multiReduction .add [1, 2] S1 src 0x00000000#32 reduces_S1x1x4096_S1 hφ hacc) shapeCasts_S1_S1x1x1) inpos_S1x1x1_p0_0_0
      = ∑ r : Fin 4096, src (ix3 0 0 r) := by
  unfold extractAt
  refine (shapeCast_apply _ shapeCasts_S1_S1x1x1 _ (ix1 0) (by rw [Shape.rowMajor_val_one, Shape.rowMajor_val_three]; rfl)).trans ?_
  refine (Ideal.multiReduction_add_total src 0x00000000#32 reduces_S1x1x4096_S1 (fun b => by fin_cases b; rfl) hφ hacc (ix1 0)).trans ?_
  exact sum_row src

/-- the same over a [1,4096,80] array -/
theorem total_tile (src : FVec Ideal S1x4096x80 .f32) (hφ : FKind.Formats FTy.f32) (hacc : (0x00000000#32 : BitVec 32) = 0x00000000#32) :
    extractAt ![0, 0, 0] (shapeCast S1x1x1 (multiReduction .add [1, 2] S1 src 0x00000000#32 reduces_S1x4096x80_S1 hφ hacc) shapeCasts_S1_S1x1x1) inpos_S1x1x1_p0_0_0
      = ∑ r : Fin 4096, ∑ c : Fin 80, src (ix3 0 r c) := by
  unfold extractAt
  refine (shapeCast_apply _ shapeCasts_S1_S1x1x1 _ (ix1 0) (by rw [Shape.rowMajor_val_one, Shape.rowMajor_val_three]; rfl)).trans ?_
  refine (Ideal.multiReduction_add_total src 0x00000000#32 reduces_S1x4096x80_S1 (fun b => by fin_cases b; rfl) hφ hacc (ix1 0)).trans ?_
  exact sum_tile src

/-- the block's foreground count is the sum of the anchors' foreground factors -/
theorem pFg_apply (x1 : Vec Ideal S1x2x4096 .f32) : pFg x1 (ix2 0 0) = ∑ r : Fin 4096, fgKer (x1 (ix3 0 0 r)) := by
  unfold pFg k0_pay33 k0_pay10
  refine (total_row _ _ _).trans ?_
  refine Finset.sum_congr rfl fun r _ => ?_
  rw [shapeCast_ab_1ab_apply _ shapeCasts_S1x4096_S1x1x4096, pay9_apply, rowW_apply]

/-- the block's IoU partial sum is the sum of the anchors' cross-entropy terms -/
theorem pIou_apply (x1 : Vec Ideal S1x2x4096 .f32) (x4 x5 : Vec Ideal S1x1x4096 .f32) :
    pIou x1 x4 x5 (ix2 0 0) = ∑ r : Fin 4096, bceKer (x4 (ix3 0 0 r)) (x5 (ix3 0 0 r)) (fgKer (x1 (ix3 0 0 r))) := by
  unfold pIou k0_pay32
  refine (total_row _ _ _).trans ?_
  refine Finset.sum_congr rfl fun r _ => ?_
  rw [shapeCast_ab_1ab_apply _ shapeCasts_S1x4096_S1x1x4096, mulf_apply, pay9_apply, rowW_apply]
  unfold bceKer
  congr 1
  simp only [addf_apply, subf_apply, mulf_apply, maximumf_apply, broadcast_apply, log1p_apply, exp_apply, absf_apply, shapeCast_1ab_ab_apply]
  rfl

/-- row k of a coordinate-major box block at anchor r -/
theorem boxrow_apply (v : Vec Ideal S4x4096 .f32) (k : Fin 4) (off : Fin 2 → Nat) (hoff : off = ![k.val, 0]) (h : S4x4096.Slices off S1x4096) (r : Fin 4096) :
    extractStridedSlice S1x4096 off (shapeCast S4x4096 v shapeCasts_S4x4096_S4x4096) h (ix2 0 r) = v (ix2 k r) := by
  subst hoff
  rw [shapeCast_self]
  exact extractStridedSlice_apply _ v _ _ _ fun a => match a with
    | ⟨0, _⟩ => (Nat.add_zero _).symm
    | ⟨1, _⟩ => (Nat.zero_add _).symm

theorem pay19_apply (v : Vec Ideal S4x4096 .f32) (r : Fin 4096) : k0_pay19 v (ix2 0 r) = v (ix2 0 r) := boxrow_apply v 0 _ rfl slices_S4x4096_o0_0_S1x4096 r
theorem pay20_apply (v : Vec Ideal S4x4096 .f32) (r : Fin 4096) : k0_pay20 v (ix2 0 r) = v (ix2 1 r) := boxrow_apply v 1 _ rfl slices_S4x4096_o1_0_S1x4096 r
theorem pay21_apply (v : Vec Ideal S4x4096 .f32) (r : Fin 4096) : k0_pay21 v (ix2 0 r) = v (ix2 2 r) := boxrow_apply v 2 _ rfl slices_S4x4096_o2_0_S1x4096 r
theorem pay22_apply (v : Vec Ideal S4x4096 .f32) (r : Fin 4096) : k0_pay22 v (ix2 0 r) = v (ix2 3 r) := boxrow_apply v 3 _ rfl slices_S4x4096_o3_0_S1x4096 r
theorem pay23_apply (v : Vec Ideal S4x4096 .f32) (r : Fin 4096) : k0_pay23 v (ix2 0 r) = v (ix2 0 r) := boxrow_apply v 0 _ rfl slices_S4x4096_o0_0_S1x4096 r
theorem pay24_apply (v : Vec Ideal S4x4096 .f32) (r : Fin 4096) : k0_pay24 v (ix2 0 r) = v (ix2 1 r) := boxrow_apply v 1 _ rfl slices_S4x4096_o1_0_S1x4096 r
theorem pay25_apply (v : Vec Ideal S4x4096 .f32) (r : Fin 4096) : k0_pay25 v (ix2 0 r) = v (ix2 2 r) := boxrow_apply v 2 _ rfl slices_S4x4096_o2_0_S1x4096 r
theorem pay26_apply (v : Vec Ideal S4x4096 .f32) (r : Fin 4096) : k0_pay26 v (ix2 0 r) = v (ix2 3 r) := boxrow_apply v 3 _ rfl slices_S4x4096_o3_0_S1x4096 r

/-- the predicted box's area at anchor r -/
theorem pay27_apply (v : Vec Ideal S4x4096 .f32) (r : Fin 4096) :
    k0_pay27 v (ix2 0 r) = (v (ix2 2 r) - v (ix2 0 r)) * (v (ix2 3 r) - v (ix2 1 r)) := by
  unfold k0_pay27
  simp only [mulf_apply, subf_apply, pay19_apply, pay20_apply, pay21_apply, pay22_apply]

/-- the target box's area at anchor r -/
theorem pay28_apply (v : Vec Ideal S4x4096 .f32) (r : Fin 4096) :
    k0_pay28 v (ix2 0 r) = (v (ix2 2 r) - v (ix2 0 r)) * (v (ix2 3 r) - v (ix2 1 r)) := by
  unfold k0_pay28
  simp only [mulf_apply, subf_apply, pay23_apply, pay24_apply, pay25_apply, pay26_apply]

/-- the intersection's area at anchor r -/
theorem pay29_apply (v w : Vec Ideal S4x4096 .f32) (r : Fin 4096) :
    k0_pay29 v w (ix2 0 r) = max f0 (min (v (ix2 2 r)) (w (ix2 2 r)) - max (v (ix2 0 r)) (w (ix2 0 r)))
      * max f0 (min (v (ix2 3 r)) (w (ix2 3 r)) - max (v (ix2 1 r)) (w (ix2 1 r))) := by
  unfold k0_pay29
  simp only [mulf_apply, subf_apply, maximumf_apply, minimumf_apply, broadcast_apply, pay19_apply, pay20_apply, pay21_apply, pay22_apply,
    pay23_apply, pay24_apply, pay25_apply, pay26_apply]
  rfl

/-- the block's regression partial sum is the sum of the anchors' 1 - GIoU terms -/
theorem pReg_apply (x1 : Vec Ideal S1x2x4096 .f32) (x2 x3 : Vec Ideal S4x4096 .f32) :
    pReg x1 x2 x3 (ix2 0 0) = ∑ r : Fin 4096, regTerm (x2 (ix2 0 r)) (x2 (ix2 1 r)) (x2 (ix2 2 r)) (x2 (ix2 3 r))
      (x3 (ix2 0 r)) (x3 (ix2 1 r)) (x3 (ix2 2 r)) (x3 (ix2 3 r)) (fgKer (x1 (ix3 0 0 r))) := by
  unfold pReg k0_pay31
  refine (total_row _ _ _).trans ?_
  refine Finset.sum_congr rfl fun r _ => ?_
  rw [shapeCast_ab_1ab_apply _ shapeCasts_S1x4096_S1x1x4096, mulf_apply, pay9_apply, rowW_apply]
  unfold regTerm
  congr 1
  simp only [addf_apply, subf_apply, mulf_apply, divf_apply, maximumf_apply, minimumf_apply, broadcast_apply, pay19_apply, pay20_apply,
    pay21_apply, pay22_apply, pay23_apply, pay24_apply, pay25_apply, pay26_apply, pay27_apply, pay28_apply, pay29_apply]
  rfl
/-- a [4096,1] column repeated along 80 lanes reads, at (r,c), the column at (r,0) -/
theorem col_bcast_apply (v : FVec Ideal S4096x1 .f32) (r : Fin 4096) (c : Fin 80) :
    broadcastTo S4096x80 v broadcasts_S4096x1_S4096x80 (ix2 r c) = v (ix2 r 0) := by
  refine broadcastTo_apply v broadcasts_S4096x1_S4096x80 (ix2 r c) (ix2 r 0) fun a => ?_
  match a with
  | ⟨0, _⟩ => show r.val = if (4096 : ℕ) = 1 then 0 else r.val; rw [if_neg (by decide)]
  | ⟨1, _⟩ => show (0 : ℕ) = if (1 : ℕ) = 1 then 0 else c.val; rw [if_pos rfl]

/-- the column view of the side block: entry (r,0) is the class word of anchor r -/
theorem pay11_apply0 (v0 v2 : Vec Ideal S1x1x4096 .f32) (r : Fin 4096) : k0_pay11 v0 v2 (ix2 r 0) = v0 (ix3 0 0 r) := by
  unfold k0_pay11
  refine (transpose_ix2_apply _ transposes_S2x4096_p1_0_S4096x2 r 0).trans ?_
  refine (concatenate_pair_apply_left 0 _ _ concatenates_S1x4096_S1x4096_S2x4096_d0 (ix2 0 r) rfl (ix2 0 r) (fun b => by
    match b with
    | ⟨0, _⟩ => rfl
    | ⟨1, _⟩ => rfl)).trans ?_
  exact pay8_apply v0 r

/-- and entry (r,1) is the valid factor of anchor r -/
theorem pay11_apply1 (v0 v2 : Vec Ideal S1x1x4096 .f32) (r : Fin 4096) :
    k0_pay11 v0 v2 (ix2 r 1) = validKer (v0 (ix3 0 0 r)) (v2 (ix3 0 0 r)) := by
  unfold k0_pay11
  refine (transpose_ix2_apply _ transposes_S2x4096_p1_0_S4096x2 r 1).trans ?_
  refine (concatenate_pair_apply_right 0 _ _ concatenates_S1x4096_S1x4096_S2x4096_d0 (ix2 1 r) rfl rfl (ix2 0 r) (fun b hb => by
    match b with
    | ⟨0, _⟩ => exact absurd rfl hb
    | ⟨1, _⟩ => rfl) rfl).trans ?_
  unfold validKer
  simp only [mulf_apply, subf_apply, select_apply, cmpf_apply, broadcast_apply, pay8_apply, shapeCast_1ab_ab_apply]
  rfl

/-- the valid column -/
theorem pay12_apply (v0 v2 : Vec Ideal S1x1x4096 .f32) (r : Fin 4096) :
    k0_pay12 v0 v2 (ix2 r 0) = validKer (v0 (ix3 0 0 r)) (v2 (ix3 0 0 r)) := by
  unfold k0_pay12
  exact (slice2_axis1_apply 1 _ slices_S4096x2_o0_1_S4096x1 r 0 1 rfl).trans (pay11_apply1 v0 v2 r)

/-- the compare of class lane c against the class word of anchor r -/
theorem pay13_apply (v0 v2 : Vec Ideal S1x1x4096 .f32) (r : Fin 4096) (c : Fin 80) :
    k0_pay13 v0 v2 (ix2 r c) = tauKer c (v0 (ix3 0 0 r)) := by
  unfold k0_pay13 tauKer
  rw [cmpf_apply, sitofp_apply, iota_single_apply, col_bcast_apply,
    slice2_axis1_apply 0 _ slices_S4096x2_o0_0_S4096x1 r 0 0 rfl, pay11_apply0]
  rfl

theorem pay14_apply (x : Vec Ideal S4096x80 .f32) (r : Fin 4096) (c : Fin 80) :
    k0_pay14 x (ix2 r c) = Ideal.log1p (Ideal.exp (f0 - max (x (ix2 r c)) (-(x (ix2 r c))))) := by
  unfold k0_pay14
  simp only [log1p_apply, exp_apply, subf_apply, absf_apply, broadcast_apply]
  rfl

theorem pay15_apply (x : Vec Ideal S4096x80 .f32) (r : Fin 4096) (c : Fin 80) :
    k0_pay15 x (ix2 r c) = max (x (ix2 r c)) f0 := by
  unfold k0_pay15
  simp only [maximumf_apply, broadcast_apply]
  rfl

/-- the classification partial sum from its five ingredients: the valid column, the logits, the compare bits,
    log(1 + exp(-|x|)) and max(x, 0) -/
theorem pay16_apply (v27 : FVec Ideal S4096x1 .f32) (v28 : Vec Ideal S4096x80 .f32) (v32 : IVec S4096x80 1)
    (v37 v39 : FVec Ideal S4096x80 .f32) :
    k0_pay16 v27 v28 v32 v37 v39 = ∑ r : Fin 4096, ∑ c : Fin 80,
      ((Scalar.select (v32 (ix2 r c)) fq f34 * ((v39 (ix2 r c) + v37 (ix2 r c)) - Scalar.select (v32 (ix2 r c)) (v28 (ix2 r c)) f0))
        * Ideal.exp (fm2 * (((v39 (ix2 r c) + v37 (ix2 r c)) - v28 (ix2 r c)) + Scalar.select (v32 (ix2 r c)) (v28 (ix2 r c)) f0)))
      * v27 (ix2 r 0) := by
  unfold k0_pay16
  refine (total_tile _ _ _).trans ?_
  refine Finset.sum_congr rfl fun r _ => Finset.sum_congr rfl fun c _ => ?_
  rw [shapeCast_ab_1ab_apply _ shapeCasts_S4096x80_S1x4096x80]
  simp only [mulf_apply, subf_apply, addf_apply, select_apply, exp_apply, broadcast_apply, col_bcast_apply]
  rfl

/-- the block's classification partial sum is the double sum of the focal terms over anchors and classes -/
theorem pCls_apply (x0 : Vec Ideal S4096x80 .f32) (x1 : Vec Ideal S1x2x4096 .f32) :
    pCls x0 x1 (ix2 0 0) = ∑ r : Fin 4096, ∑ c : Fin 80,
      clsKer (x0 (ix2 r c)) (tauKer c (x1 (ix3 0 0 r))) (validKer (x1 (ix3 0 0 r)) (x1 (ix3 0 1 r))) := by
  unfold pCls k0_pay30
  rw [broadcast_apply, pay16_apply]
  refine Finset.sum_congr rfl fun r _ => Finset.sum_congr rfl fun c _ => ?_
  rw [pay12_apply, pay13_apply, pay14_apply, pay15_apply, rowW_apply, rowM_apply]
  rfl

end Cert.KernelIdeal.KerBody
end
-- ==== Proof.KerRow.lean ====
/-
  The kernel's [1,4] accumulator row read at an entry, on the extended reals.

  The row update adds to the accumulator a the concatenation, along the second axis, of four [1,1] pieces p0 p1 p2 p3:
  entry k of the new row is a(0,k) + p_k(0,0). The three outputs divide entries 0, 1, 2 of the new row by the greater
  of its entry 3 and 1. The row is cleared to the zero word, which is the number 0.

  Separately: a running total started as 0 + f 0 and extended by + f (n+1), after 63 steps, is the sum of f over
  the 64 blocks.
-/
import proofs.«149552_g33784212750688_cont_8to1_b_455_6_alg».proof.Proof.Gen.KernelIdeal.Skeleton
import proofs.«149552_g33784212750688_cont_8to1_b_455_6_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KerRow

open Idealize.ShloMosaic Idealize.ShloMosaic.ValueIdx Cert.KernelIdeal Cert.KernelIdeal.Gen

/-- The cleared row is 0 at every entry. -/
theorem pay1_apply (k : Fin 4) : k0_pay1 (F := Ideal) (ix2 0 k) = 0 := by
  show shapeCast S1x4 (broadcast S1x4 (Scalar.ofBits (F := Ideal) .f32 0x00000000#32)) shapeCasts_S1x4_S1x4 (ix2 0 k) = 0
  refine (congrFun (shapeCast_self _ _) _).trans ?_
  exact Ideal.ofBits_zero_f32

section
variable (p0 p1 p2 p3 : FVec Ideal S1x1 .f32) (a : Vec Ideal S1x4 .f32)

/-- The off-axis coordinate of a piece's index agrees with the row index's. -/
private theorem off_axis (k : Fin 4) :
    ∀ b : Fin S1x1.rank, b.cast (rfl : S1x1.rank = S1x4.rank) ≠ (1 : Fin S1x4.rank) →
      ((ix2 (0 : Fin 1) (0 : Fin 1) : S1x1.Idx) b).val = ((ix2 (0 : Fin 1) k : S1x4.Idx) (b.cast rfl)).val := by
  intro b hb
  match b with
  | ⟨0, _⟩ => rfl
  | ⟨1, _⟩ => exact absurd rfl hb

theorem pay2_apply_0 : k0_pay2 p0 p1 p2 p3 a (ix2 0 0) = a (ix2 0 0) + p0 (ix2 0 0) := by
  show a (ix2 0 0) + concatenate S1x4 1 [⟨S1x1, p0⟩, ⟨S1x1, p1⟩, ⟨S1x1, p2⟩, ⟨S1x1, p3⟩]
    concatenates_S1x1_S1x1_S1x1_S1x1_S1x4_d1 (ix2 0 0) = _
  refine congrArg (fun z => a (ix2 0 0) + z) ?_
  exact concatenate_apply_piece (t := S1x4) 1 [⟨S1x1, p0⟩, ⟨S1x1, p1⟩, ⟨S1x1, p2⟩, ⟨S1x1, p3⟩]
    concatenates_S1x1_S1x1_S1x1_S1x1_S1x4_d1 (ix2 (0 : Fin 1) (0 : Fin 4)) 0 (by simp) S1x1 p0 rfl rfl 0 rfl
    (ix2 (0 : Fin 1) (0 : Fin 1)) (off_axis 0) rfl

theorem pay2_apply_1 : k0_pay2 p0 p1 p2 p3 a (ix2 0 1) = a (ix2 0 1) + p1 (ix2 0 0) := by
  show a (ix2 0 1) + concatenate S1x4 1 [⟨S1x1, p0⟩, ⟨S1x1, p1⟩, ⟨S1x1, p2⟩, ⟨S1x1, p3⟩]
    concatenates_S1x1_S1x1_S1x1_S1x1_S1x4_d1 (ix2 0 1) = _
  refine congrArg (fun z => a (ix2 0 1) + z) ?_
  exact concatenate_apply_piece (t := S1x4) 1 [⟨S1x1, p0⟩, ⟨S1x1, p1⟩, ⟨S1x1, p2⟩, ⟨S1x1, p3⟩]
    concatenates_S1x1_S1x1_S1x1_S1x1_S1x4_d1 (ix2 (0 : Fin 1) (1 : Fin 4)) 1 (by simp) S1x1 p1 rfl rfl 1 rfl
    (ix2 (0 : Fin 1) (0 : Fin 1)) (off_axis 1) rfl

theorem pay2_apply_2 : k0_pay2 p0 p1 p2 p3 a (ix2 0 2) = a (ix2 0 2) + p2 (ix2 0 0) := by
  show a (ix2 0 2) + concatenate S1x4 1 [⟨S1x1, p0⟩, ⟨S1x1, p1⟩, ⟨S1x1, p2⟩, ⟨S1x1, p3⟩]
    concatenates_S1x1_S1x1_S1x1_S1x1_S1x4_d1 (ix2 0 2) = _
  refine congrArg (fun z => a (ix2 0 2) + z) ?_
  exact concatenate_apply_piece (t := S1x4) 1 [⟨S1x1, p0⟩, ⟨S1x1, p1⟩, ⟨S1x1, p2⟩, ⟨S1x1, p3⟩]
    concatenates_S1x1_S1x1_S1x1_S1x1_S1x4_d1 (ix2 (0 : Fin 1) (2 : Fin 4)) 2 (by simp) S1x1 p2 rfl rfl 2 rfl
    (ix2 (0 : Fin 1) (0 : Fin 1)) (off_axis 2) rfl

theorem pay2_apply_3 : k0_pay2 p0 p1 p2 p3 a (ix2 0 3) = a (ix2 0 3) + p3 (ix2 0 0) := by
  show a (ix2 0 3) + concatenate S1x4 1 [⟨S1x1, p0⟩, ⟨S1x1, p1⟩, ⟨S1x1, p2⟩, ⟨S1x1, p3⟩]
    concatenates_S1x1_S1x1_S1x1_S1x1_S1x4_d1 (ix2 0 3) = _
  refine congrArg (fun z => a (ix2 0 3) + z) ?_
  exact concatenate_apply_piece (t := S1x4) 1 [⟨S1x1, p0⟩, ⟨S1x1, p1⟩, ⟨S1x1, p2⟩, ⟨S1x1, p3⟩]
    concatenates_S1x1_S1x1_S1x1_S1x1_S1x4_d1 (ix2 (0 : Fin 1) (3 : Fin 4)) 3 (by simp) S1x1 p3 rfl rfl 3 rfl
    (ix2 (0 : Fin 1) (0 : Fin 1)) (off_axis 3) rfl

/-- The stored row is the updated row (a cast to the same shape). -/
theorem pay3_eq : k0_pay3 p0 p1 p2 p3 a = k0_pay2 p0 p1 p2 p3 a :=
  shapeCast_self _ _

theorem pay3_apply_0 : k0_pay3 p0 p1 p2 p3 a (ix2 0 0) = a (ix2 0 0) + p0 (ix2 0 0) :=
  (congrFun (pay3_eq p0 p1 p2 p3 a) _).trans (pay2_apply_0 p0 p1 p2 p3 a)
theorem pay3_apply_1 : k0_pay3 p0 p1 p2 p3 a (ix2 0 1) = a (ix2 0 1) + p1 (ix2 0 0) :=
  (congrFun (pay3_eq p0 p1 p2 p3 a) _).trans (pay2_apply_1 p0 p1 p2 p3 a)
theorem pay3_apply_2 : k0_pay3 p0 p1 p2 p3 a (ix2 0 2) = a (ix2 0 2) + p2 (ix2 0 0) :=
  (congrFun (pay3_eq p0 p1 p2 p3 a) _).trans (pay2_apply_2 p0 p1 p2 p3 a)
theorem pay3_apply_3 : k0_pay3 p0 p1 p2 p3 a (ix2 0 3) = a (ix2 0 3) + p3 (ix2 0 0) :=
  (congrFun (pay3_eq p0 p1 p2 p3 a) _).trans (pay2_apply_3 p0 p1 p2 p3 a)

/-- The denominator: the greater of entry 3 of the updated row and 1. -/
theorem pay4_apply : k0_pay4 p0 p1 p2 p3 a (ix2 0 0) = max (a (ix2 0 3) + p3 (ix2 0 0)) Loss.f1 := by
  show max (extractStridedSlice S1x1 ![0, 3] (k0_pay2 p0 p1 p2 p3 a) slices_S1x4_o0_3_S1x1 (ix2 0 0)) Loss.f1 = _
  refine congrArg (fun z => max z Loss.f1) ?_
  exact (slice2_axis1_apply 3 _ _ 0 0 3 rfl).trans (pay2_apply_3 p0 p1 p2 p3 a)

theorem pay5_apply : k0_pay5 p0 p1 p2 p3 a (ix2 0 0)
    = Ideal.div (a (ix2 0 0) + p0 (ix2 0 0)) (max (a (ix2 0 3) + p3 (ix2 0 0)) Loss.f1) := by
  show Ideal.div (extractStridedSlice S1x1 ![0, 0] (k0_pay2 p0 p1 p2 p3 a) slices_S1x4_o0_0_S1x1 (ix2 0 0))
    (k0_pay4 p0 p1 p2 p3 a (ix2 0 0)) = _
  exact congrArg₂ Ideal.div ((slice2_axis1_apply 0 _ _ 0 0 0 rfl).trans (pay2_apply_0 p0 p1 p2 p3 a))
    (pay4_apply p0 p1 p2 p3 a)

theorem pay6_apply : k0_pay6 p0 p1 p2 p3 a (ix2 0 0)
    = Ideal.div (a (ix2 0 1) + p1 (ix2 0 0)) (max (a (ix2 0 3) + p3 (ix2 0 0)) Loss.f1) := by
  show Ideal.div (extractStridedSlice S1x1 ![0, 1] (k0_pay2 p0 p1 p2 p3 a) slices_S1x4_o0_1_S1x1 (ix2 0 0))
    (k0_pay4 p0 p1 p2 p3 a (ix2 0 0)) = _
  exact congrArg₂ Ideal.div ((slice2_axis1_apply 1 _ _ 0 0 1 rfl).trans (pay2_apply_1 p0 p1 p2 p3 a))
    (pay4_apply p0 p1 p2 p3 a)

theorem pay7_apply : k0_pay7 p0 p1 p2 p3 a (ix2 0 0)
    = Ideal.div (a (ix2 0 2) + p2 (ix2 0 0)) (max (a (ix2 0 3) + p3 (ix2 0 0)) Loss.f1) := by
  show Ideal.div (extractStridedSlice S1x1 ![0, 2] (k0_pay2 p0 p1 p2 p3 a) slices_S1x4_o0_2_S1x1 (ix2 0 0))
    (k0_pay4 p0 p1 p2 p3 a (ix2 0 0)) = _
  exact congrArg₂ Ideal.div ((slice2_axis1_apply 2 _ _ 0 0 2 rfl).trans (pay2_apply_2 p0 p1 p2 p3 a))
    (pay4_apply p0 p1 p2 p3 a)

end

/-! ## The running total over the blocks -/

/-- A running total: started as 0 + f 0, extended by + f (n+1). -/
def chain (f : ℕ → EReal) : ℕ → EReal
  | 0 => 0 + f 0
  | n + 1 => chain f n + f (n + 1)

theorem chain_eq_sum_range (f : ℕ → EReal) (n : ℕ) : chain f n = ∑ i ∈ Finset.range (n + 1), f i := by
  induction n with
  | zero => rw [chain, zero_add, Finset.sum_range_one]
  | succ n ih => rw [chain, ih, Finset.sum_range_succ _ (n + 1)]

/-- After 63 steps the running total is the sum over the 64 blocks. -/
theorem chain_63 (f : ℕ → EReal) : chain f 63 = ∑ g : Fin 64, f g.val := by
  rw [chain_eq_sum_range, Fin.sum_univ_eq_sum_range]

end Cert.KernelIdeal.KerRow

end
-- ==== Proof.KerInputs.lean ====
/-
  The kernel's input blocks, read at an index.

  Grid point t stages one block of each input array. Row r of block t stands for anchor 4096 t + r: the class
  logits' block is rows 4096 t … 4096 t + 4095 of the logits; the boxes are staged transposed ([4, 262144], block
  [4, 4096] at column block t); the IoU logits and targets are staged as [64, 1, 4096] (row t is block t); the class
  word and the mask bit are staged as floats in the two channels of a [64, 2, 4096] array. Each block entry is the
  argument array's entry at that anchor.
-/
import proofs.«149552_g33784212750688_cont_8to1_b_455_6_alg».proof.Proof.Gen.KernelIdeal.Frame
import proofs.«149552_g33784212750688_cont_8to1_b_455_6_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KerInputs

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (c : Dev nD)

/-! ## Indices by coordinates -/

/-- a one-axis index with the coordinate a is `ix1 a` -/
theorem idx1_eq {n : Nat} (i : (⟨1, ![n]⟩ : Shape).Idx) (a : Fin n) (h0 : (i 0).val = a.val) : i = ix1 a := by
  funext d
  match d with
  | ⟨0, _⟩ => exact Fin.ext h0

/-- a two-axis index with the coordinates a and b is `ix2 a b` -/
theorem idx2_eq {n0 n1 : Nat} (i : (⟨2, ![n0, n1]⟩ : Shape).Idx) (a : Fin n0) (b : Fin n1)
    (h0 : (i 0).val = a.val) (h1 : (i 1).val = b.val) : i = ix2 a b := by
  funext d
  match d with
  | ⟨0, _⟩ => exact Fin.ext h0
  | ⟨1, _⟩ => exact Fin.ext h1

/-- a three-axis index with the coordinates a, b and c is `ix3 a b c` -/
theorem idx3_eq {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext d
  match d with
  | ⟨0, _⟩ => exact Fin.ext h0
  | ⟨1, _⟩ => exact Fin.ext h1
  | ⟨2, _⟩ => exact Fin.ext h2

/-! ## The anchor a grid point's block row stands for -/

/-- the grid has 64 points -/
theorem t_lt (t : Fin cfg0.N) : t.val < 64 := lt_of_lt_of_eq t.isLt N_0

/-- row r of block t is anchor 4096 t + r -/
def anchor (t : Fin cfg0.N) (r : Fin 4096) : Fin 262144 :=
  ⟨t.val * 4096 + r.val, by have := t_lt t; have := r.isLt; omega⟩

theorem anchor_val (t : Fin cfg0.N) (r : Fin 4096) : (anchor t r).val = t.val * 4096 + r.val := rfl

/-! ## Window 0: the class logits -/

/-- the printed index map of window 0, decided over the grid: block row t, block column 0 -/
theorem idx_facts0 : ∀ t : Fin cfg0.N, win0_0.index t (0 : Fin 2) = t.val ∧ win0_0.index t (1 : Fin 2) = 0 :=
  (by decide +kernel : ∀ t : Fin grid0.N, _)

/-- block t of the logits array: its entry (r, col) is the array's entry (4096 t + r, col) -/
theorem blk0 (t : Fin cfg0.N) (r : Fin 4096) (col : Fin 80) :
    iblk (F := Ideal) m c 0 t (ix2 r col) = m ((c : Thread nD τ).loc main_arg0) (ix2 (anchor t r) col) := by
  show V m c main_arg0 (((cfg0.win 0).blk t).view.emb (ix2 r col)) = _
  rw [V_main_arg0]
  obtain ⟨e0, e1⟩ := idx_facts0 t
  refine congrArg _ (idx2_eq _ (anchor t r) col ?_ ?_)
  · show win0_0.index t (0 : Fin 2) * 4096 + 1 * r.val = t.val * 4096 + r.val
    omega
  · show win0_0.index t (1 : Fin 2) * 80 + 1 * col.val = col.val
    omega

/-! ## Windows 2 and 3: the predicted and the target boxes, transposed -/

/-- the printed index map of window 2, decided over the grid: block row 0, block column t -/
theorem idx_facts2 : ∀ t : Fin cfg0.N, win0_2.index t (0 : Fin 2) = 0 ∧ win0_2.index t (1 : Fin 2) = t.val :=
  (by decide +kernel : ∀ t : Fin grid0.N, _)

/-- the array window 2 stages, as the region finds it: the predicted boxes transposed -/
theorem V_v7 : (V m c main_v7 : S4x262144.Idx → EReal)
    = transpose S4x262144 [1, 0] (m ((c : Thread nD τ).loc main_arg1)) transposes_S262144x4_S4x262144_1_0 := by
  show StableHlo.after hostOps0 (fun b => m (c, b)) (Proc.devRef .tc main_v7) = _
  after_results

/-- block t of the transposed predicted boxes: its entry (k, r) is coordinate k of the box of anchor 4096 t + r -/
theorem blk2 (t : Fin cfg0.N) (k : Fin 4) (r : Fin 4096) :
    iblk (F := Ideal) m c 2 t (ix2 k r) = m ((c : Thread nD τ).loc main_arg1) (ix2 (anchor t r) k) := by
  show V m c main_v7 (((cfg0.win 2).blk t).view.emb (ix2 k r)) = _
  obtain ⟨e0, e1⟩ := idx_facts2 t
  have hi : ((cfg0.win 2).blk t).view.emb (ix2 k r) = ix2 k (anchor t r) :=
    idx2_eq _ k (anchor t r)
      (by show win0_2.index t (0 : Fin 2) * 4 + 1 * k.val = k.val; omega)
      (by show win0_2.index t (1 : Fin 2) * 4096 + 1 * r.val = t.val * 4096 + r.val; omega)
  refine (congrArg (V m c main_v7) hi).trans ?_
  rw [V_v7]
  exact transpose_ix2_apply _ _ k (anchor t r)

/-- the printed index map of window 3, decided over the grid: block row 0, block column t -/
theorem idx_facts3 : ∀ t : Fin cfg0.N, win0_3.index t (0 : Fin 2) = 0 ∧ win0_3.index t (1 : Fin 2) = t.val :=
  (by decide +kernel : ∀ t : Fin grid0.N, _)

/-- the array window 3 stages, as the region finds it: the target boxes transposed -/
theorem V_v8 : (V m c main_v8 : S4x262144.Idx → EReal)
    = transpose S4x262144 [1, 0] (m ((c : Thread nD τ).loc main_arg4)) transposes_S262144x4_S4x262144_1_0 := by
  show StableHlo.after hostOps0 (fun b => m (c, b)) (Proc.devRef .tc main_v8) = _
  after_results

/-- block t of the transposed target boxes: its entry (k, r) is coordinate k of the box of anchor 4096 t + r -/
theorem blk3 (t : Fin cfg0.N) (k : Fin 4) (r : Fin 4096) :
    iblk (F := Ideal) m c 3 t (ix2 k r) = m ((c : Thread nD τ).loc main_arg4) (ix2 (anchor t r) k) := by
  show V m c main_v8 (((cfg0.win 3).blk t).view.emb (ix2 k r)) = _
  obtain ⟨e0, e1⟩ := idx_facts3 t
  have hi : ((cfg0.win 3).blk t).view.emb (ix2 k r) = ix2 k (anchor t r) :=
    idx2_eq _ k (anchor t r)
      (by show win0_3.index t (0 : Fin 2) * 4 + 1 * k.val = k.val; omega)
      (by show win0_3.index t (1 : Fin 2) * 4096 + 1 * r.val = t.val * 4096 + r.val; omega)
  refine (congrArg (V m c main_v8) hi).trans ?_
  rw [V_v8]
  exact transpose_ix2_apply _ _ k (anchor t r)

/-! ## Windows 4 and 5: the IoU logits and the IoU targets, reshaped -/

/-- the printed index map of window 4, decided over the grid: block t along the first axis -/
theorem idx_facts4 : ∀ t : Fin cfg0.N, win0_4.index t (0 : Fin 3) = t.val ∧ win0_4.index t (1 : Fin 3) = 0
    ∧ win0_4.index t (2 : Fin 3) = 0 :=
  (by decide +kernel : ∀ t : Fin grid0.N, _)

/-- the array window 4 stages, as the region finds it: the IoU logit column cut into 64 rows of 4096 -/
theorem V_v9 : (V m c main_v9 : S64x1x4096.Idx → EReal)
    = shapeCast S64x1x4096 (m ((c : Thread nD τ).loc main_arg2)) shapeCasts_S262144x1_S64x1x4096 := by
  show StableHlo.after hostOps0 (fun b => m (c, b)) (Proc.devRef .tc main_v9) = _
  after_results
  all_goals rfl

/-- block t of the reshaped IoU logit column: its entry (0, 0, r) is the entry of anchor 4096 t + r -/
theorem blk4 (t : Fin cfg0.N) (r : Fin 4096) :
    iblk (F := Ideal) m c 4 t (ix3 0 0 r) = m ((c : Thread nD τ).loc main_arg2) (ix2 (anchor t r) 0) := by
  show V m c main_v9 (((cfg0.win 4).blk t).view.emb (ix3 0 0 r)) = _
  obtain ⟨e0, e1, e2⟩ := idx_facts4 t
  have hi : ((cfg0.win 4).blk t).view.emb (ix3 0 0 r) = ix3 (⟨t.val, t_lt t⟩ : Fin 64) (0 : Fin 1) r :=
    idx3_eq _ _ _ _
      (by show win0_4.index t (0 : Fin 3) * 1 + 1 * 0 = t.val; omega)
      (by show win0_4.index t (1 : Fin 3) * 1 + 1 * 0 = 0; omega)
      (by show win0_4.index t (2 : Fin 3) * 4096 + 1 * r.val = r.val; omega)
  refine (congrArg (V m c main_v9) hi).trans ?_
  rw [V_v9]
  refine shapeCast_apply _ _ _ (ix2 (anchor t r) (0 : Fin 1)) ?_
  rw [Shape.rowMajor_val_two, Shape.rowMajor_val_three]
  show (t.val * 4096 + r.val) * 1 + 0 = (t.val * 1 + 0) * 4096 + r.val
  omega

/-- the printed index map of window 5, decided over the grid: block t along the first axis -/
theorem idx_facts5 : ∀ t : Fin cfg0.N, win0_5.index t (0 : Fin 3) = t.val ∧ win0_5.index t (1 : Fin 3) = 0
    ∧ win0_5.index t (2 : Fin 3) = 0 :=
  (by decide +kernel : ∀ t : Fin grid0.N, _)

/-- the array window 5 stages, as the region finds it: the IoU target column cut into 64 rows of 4096 -/
theorem V_v10 : (V m c main_v10 : S64x1x4096.Idx → EReal)
    = shapeCast S64x1x4096 (m ((c : Thread nD τ).loc main_arg5)) shapeCasts_S262144x1_S64x1x4096 := by
  show StableHlo.after hostOps0 (fun b => m (c, b)) (Proc.devRef .tc main_v10) = _
  after_results
  all_goals rfl

/-- block t of the reshaped IoU target column: its entry (0, 0, r) is the entry of anchor 4096 t + r -/
theorem blk5 (t : Fin cfg0.N) (r : Fin 4096) :
    iblk (F := Ideal) m c 5 t (ix3 0 0 r) = m ((c : Thread nD τ).loc main_arg5) (ix2 (anchor t r) 0) := by
  show V m c main_v10 (((cfg0.win 5).blk t).view.emb (ix3 0 0 r)) = _
  obtain ⟨e0, e1, e2⟩ := idx_facts5 t
  have hi : ((cfg0.win 5).blk t).view.emb (ix3 0 0 r) = ix3 (⟨t.val, t_lt t⟩ : Fin 64) (0 : Fin 1) r :=
    idx3_eq _ _ _ _
      (by show win0_5.index t (0 : Fin 3) * 1 + 1 * 0 = t.val; omega)
      (by show win0_5.index t (1 : Fin 3) * 1 + 1 * 0 = 0; omega)
      (by show win0_5.index t (2 : Fin 3) * 4096 + 1 * r.val = r.val; omega)
  refine (congrArg (V m c main_v10) hi).trans ?_
  rw [V_v10]
  refine shapeCast_apply _ _ _ (ix2 (anchor t r) (0 : Fin 1)) ?_
  rw [Shape.rowMajor_val_two, Shape.rowMajor_val_three]
  show (t.val * 4096 + r.val) * 1 + 0 = (t.val * 1 + 0) * 4096 + r.val
  omega

/-! ## Window 1: the class word and the mask bit as floats, stacked

The class words converted to floats and the mask bits converted to floats are laid side by side as a [2, 262144]
array, cut into [2, 64, 4096] and transposed to [64, 2, 4096]: row t holds, for its 4096 anchors, the class words in
channel 0 and the mask bits in channel 1. -/

/-- a vector laid along the second axis of a [1, n] array reads back at (0, a) as its entry a -/
theorem row_apply (x : S262144.Idx → EReal) (n : Fin 262144) :
    broadcastInDim S1x262144 ![1] bcast_S262144_S1x262144_1 x (ix2 (0 : Fin 1) n) = x (ix1 n) :=
  broadcastInDim_apply _ bcast_S262144_S1x262144_1 x _ (ix1 n) fun a => match a with
    | ⟨0, _⟩ => by show n.val = if (262144 : Nat) = 1 then 0 else n.val; rw [if_neg (by decide)]

/-- two rows stacked: row 0 of the stack is the first -/
theorem stack_apply_0 (x y : S1x262144.Idx → EReal) (n : Fin 262144) :
    concatenate S2x262144 0 [⟨S1x262144, x⟩, ⟨S1x262144, y⟩] concatenates_S1x262144_S1x262144_S2x262144_d0
        (ix2 (0 : Fin 2) n) = x (ix2 (0 : Fin 1) n) :=
  concatenate_pair_apply_left 0 x y concatenates_S1x262144_S1x262144_S2x262144_d0 _ rfl (ix2 (0 : Fin 1) n)
    fun b => match b with | ⟨0, _⟩ => rfl | ⟨1, _⟩ => rfl

/-- two rows stacked: row 1 of the stack is the second -/
theorem stack_apply_1 (x y : S1x262144.Idx → EReal) (n : Fin 262144) :
    concatenate S2x262144 0 [⟨S1x262144, x⟩, ⟨S1x262144, y⟩] concatenates_S1x262144_S1x262144_S2x262144_d0
        (ix2 (1 : Fin 2) n) = y (ix2 (0 : Fin 1) n) :=
  concatenate_pair_apply_right 0 x y concatenates_S1x262144_S1x262144_S2x262144_d0 _ rfl rfl (ix2 (0 : Fin 1) n)
    (fun b => match b with | ⟨0, _⟩ => fun h => absurd rfl h | ⟨1, _⟩ => fun _ => rfl) rfl

/-- the [2, 262144] array cut into [2, 64, 4096] and transposed to [64, 2, 4096] reads, at (t, ch, r), entry (ch, 4096 t + r) -/
theorem cut_apply (z : S2x262144.Idx → EReal) (t' : Fin 64) (ch : Fin 2) (r : Fin 4096) (n : Fin 262144)
    (hn : n.val = t'.val * 4096 + r.val) :
    transpose S64x2x4096 [1, 0, 2] (shapeCast S2x64x4096 z shapeCasts_S2x262144_S2x64x4096)
        transposes_S2x64x4096_S64x2x4096_1_0_2 (ix3 t' ch r) = z (ix2 ch n) := by
  refine (transpose_apply _ _ transposes_S2x64x4096_S64x2x4096_1_0_2 _ (ix3 ch t' r)
    fun b => match b with | ⟨0, _⟩ => rfl | ⟨1, _⟩ => rfl | ⟨2, _⟩ => rfl).trans ?_
  refine shapeCast_apply _ _ _ (ix2 ch n) ?_
  rw [Shape.rowMajor_val_two, Shape.rowMajor_val_three]
  show ch.val * 262144 + n.val = (ch.val * 64 + t'.val) * 4096 + r.val
  omega

/-- the printed index map of window 1, decided over the grid: block t along the first axis -/
theorem idx_facts1 : ∀ t : Fin cfg0.N, win0_1.index t (0 : Fin 3) = t.val ∧ win0_1.index t (1 : Fin 3) = 0
    ∧ win0_1.index t (2 : Fin 3) = 0 :=
  (by decide +kernel : ∀ t : Fin grid0.N, _)

/-- the array window 1 stages, as the region finds it -/
theorem V_v6 : (V m c main_v6 : S64x2x4096.Idx → EReal)
    = transpose S64x2x4096 [1, 0, 2] (shapeCast S2x64x4096 (concatenate S2x262144 0
        [⟨S1x262144, broadcastInDim S1x262144 ![1] bcast_S262144_S1x262144_1
            (sitofp (F := Ideal) .f32 (m ((c : Thread nD τ).loc main_arg3) : (⟨S262144, .i32⟩ : BufTy).Contents (Elt Ideal)))⟩,
         ⟨S1x262144, broadcastInDim S1x262144 ![1] bcast_S262144_S1x262144_1
            (uitofp (F := Ideal) .f32 (m ((c : Thread nD τ).loc main_arg6) : (⟨S262144, .i1⟩ : BufTy).Contents (Elt Ideal)))⟩]
        concatenates_S1x262144_S1x262144_S2x262144_d0) shapeCasts_S2x262144_S2x64x4096)
        transposes_S2x64x4096_S64x2x4096_1_0_2 := by
  show StableHlo.after hostOps0 (fun b => m (c, b)) (Proc.devRef .tc main_v6) = _
  after_results
  all_goals rfl

/-- channel 0 of block t: its entry (0, 0, r) is the class word of anchor 4096 t + r, read signed, as a real -/
theorem blk1_w (t : Fin cfg0.N) (r : Fin 4096) :
    iblk (F := Ideal) m c 1 t (ix3 0 0 r)
      = ((((m ((c : Thread nD τ).loc main_arg3) (ix1 (anchor t r))).toInt : ℝ)) : EReal) := by
  show V m c main_v6 (((cfg0.win 1).blk t).view.emb (ix3 0 0 r)) = _
  obtain ⟨e0, e1, e2⟩ := idx_facts1 t
  have hi : ((cfg0.win 1).blk t).view.emb (ix3 0 0 r) = ix3 (⟨t.val, t_lt t⟩ : Fin 64) (0 : Fin 2) r :=
    idx3_eq _ _ _ _
      (by show win0_1.index t (0 : Fin 3) * 1 + 1 * 0 = t.val; omega)
      (by show win0_1.index t (1 : Fin 3) * 2 + 1 * 0 = 0; omega)
      (by show win0_1.index t (2 : Fin 3) * 4096 + 1 * r.val = r.val; omega)
  refine (congrArg (V m c main_v6) hi).trans ?_
  rw [V_v6, cut_apply _ (⟨t.val, t_lt t⟩ : Fin 64) 0 r (anchor t r) rfl, stack_apply_0, row_apply]
  rfl

/-- channel 1 of block t: its entry (0, 1, r) is the mask bit of anchor 4096 t + r as the number 0 or 1 -/
theorem blk1_m (t : Fin cfg0.N) (r : Fin 4096) :
    iblk (F := Ideal) m c 1 t (ix3 0 1 r)
      = Loss.u2f (m ((c : Thread nD τ).loc main_arg6) (ix1 (anchor t r))) := by
  show V m c main_v6 (((cfg0.win 1).blk t).view.emb (ix3 0 1 r)) = _
  obtain ⟨e0, e1, e2⟩ := idx_facts1 t
  have hi : ((cfg0.win 1).blk t).view.emb (ix3 0 1 r) = ix3 (⟨t.val, t_lt t⟩ : Fin 64) (1 : Fin 2) r :=
    idx3_eq _ _ _ _
      (by show win0_1.index t (0 : Fin 3) * 1 + 1 * 0 = t.val; omega)
      (by show win0_1.index t (1 : Fin 3) * 2 + 1 * 1 = 1; omega)
      (by show win0_1.index t (2 : Fin 3) * 4096 + 1 * r.val = r.val; omega)
  refine (congrArg (V m c main_v6) hi).trans ?_
  rw [V_v6, cut_apply _ (⟨t.val, t_lt t⟩ : Fin 64) 1 r (anchor t r) rfl, stack_apply_1, row_apply]
  rfl

end Cert.KernelIdeal.KerInputs

end
-- ==== Proof.FocalLaw.lean ====
import Mathlib.Analysis.SpecialFunctions.Log.Basic
import Mathlib.Analysis.SpecialFunctions.Pow.Real

/-! The softplus identity behind the focal weight: for a real logit `x`,
    `max x 0 + log (1 + exp (-|x|)) = log (1 + exp x)`. -/

namespace FocalLaw

theorem softplus_eq (x : ℝ) : max x 0 + Real.log (1 + Real.exp (-|x|)) = Real.log (1 + Real.exp x) := by
  rcases le_total 0 x with h | h
  · rw [max_eq_left h, abs_of_nonneg h]
    have h1 : (0:ℝ) < 1 + Real.exp (-x) := by positivity
    have h2 : x = Real.log (Real.exp x) := (Real.log_exp x).symm
    calc x + Real.log (1 + Real.exp (-x))
        = Real.log (Real.exp x) + Real.log (1 + Real.exp (-x)) := by rw [← h2]
      _ = Real.log (Real.exp x * (1 + Real.exp (-x))) := (Real.log_mul (Real.exp_pos x).ne' h1.ne').symm
      _ = Real.log (1 + Real.exp x) := by
          congr 1
          rw [mul_add, mul_one, ← Real.exp_add, add_neg_cancel, Real.exp_zero, add_comm]
  · rw [max_eq_right h, abs_of_nonpos h, neg_neg, zero_add]

end FocalLaw
-- ==== Proof.LibReal.lean ====
/-
  Real numbers among the extended reals, and two of the host's activation functions on one number.

  * `IsReal x`: the extended real x is a real number. Sums, products, differences, finite sums, the exponential, a
    selection between two real numbers, and a single-precision constant whose exponent field is not all ones are real.
  * An extended real whose absolute value max(x, -x) is below plus infinity is real; so an array that passes the test
    "all |entries| < +inf" has real entries.
  * The scaled exponential linear unit and the softplus as a host program spells them, on one number: the first keeps
    real numbers real, the second sends a real number to a POSITIVE real number (max(r, 0) ≥ 0 and log(1 + e^{-|r|}) > 0;
    the guard "z differs from itself" of the lowering never fires on the extended reals).
  * For a nonzero denominator, a product with the reciprocal 1 / D is the quotient by D (the float 1.0 is the number 1).
-/
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.LibReal

open Idealize.ShloMosaic Idealize.ShloMosaic.ValueIdx

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.exp {a : EReal} (ha : IsReal a) : IsReal (Ideal.exp a) := by
  obtain ⟨r, rfl⟩ := ha; exact ⟨Real.exp r, rfl⟩

/-- A positive real number, as an extended real, is above zero. -/
theorem pos_of_real {s : EReal} (h : ∃ r : ℝ, 0 < r ∧ s = (r : EReal)) : 0 < s := by
  obtain ⟨r, hr, rfl⟩ := h; exact EReal.coe_pos.mpr hr

/-- A finite sum of real numbers, taken in the extended reals, is the real sum. -/
theorem sum_coe {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ k, IsReal (f k)) : IsReal (∑ k ∈ s, f k) := by
  choose g hg using h
  refine ⟨∑ k ∈ s, g k, ?_⟩
  rw [← sum_coe]
  exact Finset.sum_congr rfl fun k _ => hg k

/-- The larger of two real numbers, taken in the extended reals. -/
theorem coe_max (a b : ℝ) : max (a : EReal) (b : EReal) = ((max a b : ℝ) : EReal) :=
  (EReal.coe_strictMono.monotone.map_max).symm

theorem select_real {c : BitVec 1} {a b : EReal} (ha : IsReal a) (hb : IsReal b) : IsReal (Scalar.select c a b) := by
  unfold Scalar.select; split_ifs <;> assumption

/-! ## Float constants -/

/-- A single-precision pattern whose exponent field is not all ones denotes a real number. -/
theorem ieee_real (b : BitVec 32) (h : (b.extractLsb' 23 8).toNat ≠ 255) : IsReal (Ideal.ofBits .f32 b) := by
  show IsReal (Ideal.ieee 8 23 b)
  unfold Ideal.ieee
  simp only []
  rw [if_neg (by simpa using h)]
  split_ifs <;> exact ⟨_, rfl⟩

theorem ofBits_one : Ideal.ofBits .f32 0x3F800000#32 = 1 := by
  simp [Ideal.ofBits, Ideal.ieee]
  rw [← EReal.coe_mul, ← EReal.coe_one]; congr 1; norm_num
theorem ofBits_two : Ideal.ofBits .f32 0x40000000#32 = ((2 : ℝ) : EReal) := by
  simp [Ideal.ofBits, Ideal.ieee]
  rw [← EReal.coe_mul]; congr 1; norm_num
theorem ofBits_inf : Ideal.ofBits .f32 0x7F800000#32 = ⊤ := by simp [Ideal.ofBits, Ideal.ieee]

/-- For a nonzero denominator, multiplying by the reciprocal is dividing. -/
theorem mul_div_one (a D : EReal) (hD : D ≠ 0) : a * Ideal.div (Ideal.ofBits .f32 0x3F800000#32) D = Ideal.div a D := by
  unfold Ideal.div
  rw [if_neg hD, if_neg hD, ofBits_one, one_mul]

/-! ## The finiteness test read back -/

/-- An extended real whose absolute value is below plus infinity is a real number. -/
theorem real_of_abs_lt_top (x : EReal) (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

/-- An array's test "|a| < +inf", true at an entry, makes that entry real. -/
theorem entry_real {s : Shape} (a : FVec Ideal s .f32) (hb : (⟨0, ![]⟩ : Shape).BroadcastsInDim s ![]) (i : s.Idx)
    (h : cmpf .olt (Host.absf (F := Ideal) a) (broadcastInDim s ![] hb (constant (F := Ideal) ⟨0, ![]⟩ .f32 0x7F800000#32)) i = 1#1) :
    IsReal (a i) := by
  refine real_of_abs_lt_top (a i) ?_
  have hc : broadcastInDim s ![] hb (constant (F := Ideal) ⟨0, ![]⟩ .f32 0x7F800000#32) i = Ideal.ofBits .f32 0x7F800000#32 :=
    broadcastInDim_apply ![] hb _ i ix0 fun ax => ax.elim0
  rw [← hc]
  exact h

/-! ## The host's activation functions on one number -/

/-- The scaled exponential linear unit as the host computes it on one number: the scale times (u where u > 0, else
    alpha (e^{u'} - 1) with u' = 0 where u > 0, else u). -/
def seluS (u : EReal) : EReal :=
  Ideal.ofBits .f32 0x3F867D5F#32 * Scalar.select (Ideal.cmp .ogt u (Ideal.ofBits .f32 0x00000000#32)) u
    (Ideal.ofBits .f32 0x3FD62D7D#32 * (Ideal.exp (Scalar.select (Ideal.cmp .ogt u (Ideal.ofBits .f32 0x00000000#32))
      (Ideal.ofBits .f32 0x00000000#32) u) - 1))

theorem seluS_real {u : EReal} (hu : IsReal u) : IsReal (seluS u) := by
  unfold seluS
  have h0 : IsReal (Ideal.ofBits .f32 0x00000000#32) := by rw [Ideal.ofBits_zero_f32]; exact IsReal.zero
  exact (ieee_real _ (by decide)).mul (select_real hu ((ieee_real _ (by decide)).mul (((select_real h0 hu).exp).sub IsReal.one)))

/-- Softplus as the host computes it on one number. -/
def softplusS (z : EReal) : EReal :=
  Scalar.select (Ideal.cmp .une (z - Ideal.ofBits .f32 0x00000000#32) (z - Ideal.ofBits .f32 0x00000000#32))
    (z + Ideal.ofBits .f32 0x00000000#32)
    (max z (Ideal.ofBits .f32 0x00000000#32)
      + Ideal.log1p (Ideal.exp (-(max (z - Ideal.ofBits .f32 0x00000000#32) (-(z - Ideal.ofBits .f32 0x00000000#32))))))

/-- The softplus of a real number is a positive real number: max(r, 0) ≥ 0 and log(1 + e^{-|r|}) > 0. -/
theorem softplusS_pos {z : EReal} (hz : IsReal z) : ∃ r : ℝ, 0 < r ∧ softplusS z = (r : EReal) := by
  obtain ⟨r, rfl⟩ := hz
  unfold softplusS
  have hne : Ideal.cmp .une ((r : EReal) - Ideal.ofBits .f32 0x00000000#32) ((r : EReal) - Ideal.ofBits .f32 0x00000000#32) = 0#1 := by
    simp [Ideal.cmp]
  rw [hne, Ideal.ofBits_zero_f32]
  have hsel : ∀ a b : EReal, Scalar.select 0#1 a b = b := fun a b => if_neg (by decide)
  rw [hsel, sub_zero]
  have hE : 0 < Real.exp (-(max r (-r))) := Real.exp_pos _
  refine ⟨max r 0 + Real.log (1 + Real.exp (-(max r (-r)))), ?_, ?_⟩
  · have : 0 < Real.log (1 + Real.exp (-(max r (-r)))) := Real.log_pos (by linarith)
    have : 0 ≤ max r 0 := le_max_right _ _
    linarith
  · have e1 : max (r : EReal) (-(r : EReal)) = ((max r (-r) : ℝ) : EReal) := by
      rw [← EReal.coe_neg, coe_max]
    have e2 : max (r : EReal) 0 = ((max r 0 : ℝ) : EReal) := by
      rw [← EReal.coe_zero, coe_max]
    rw [e1, e2, ← EReal.coe_neg, Ideal.exp_coe]
    unfold Ideal.log1p
    rw [← EReal.coe_one, ← EReal.coe_add, Ideal.log_coe, if_neg (not_le.mpr (by linarith)), ← EReal.coe_add]

end Cert.LibReal

end
-- ==== Proof.LibTileSum.lean ====
/-
  Regrouping finite sums indexed by `Fin`: a sum over `T * B` indices as `T` consecutive tiles of `B`,
  dropping a tail on which the summand vanishes, and a sum over `Fin n` as a sum over `Finset.range n`.
  Everything holds in any additive commutative monoid.
-/
import Mathlib.Algebra.BigOperators.Fin
import Mathlib.Logic.Equiv.Fin.Basic
import Mathlib.Tactic.Ring

namespace TileSum

open Finset

/-- The `j`-th index of the `t`-th tile of width `B` lies below `T * B`. -/
theorem tile_lt {T B : ℕ} (t : Fin T) (j : Fin B) : t.val * B + j.val < T * B := by
  have h1 : t.val * B + j.val < (t.val + 1) * B := by
    have := j.isLt
    rw [Nat.add_mul, Nat.one_mul]; omega
  exact lt_of_lt_of_le h1 (Nat.mul_le_mul_right B t.isLt)

/-- A sum over `T * B` indices, regrouped into `T` consecutive tiles of `B` indices each. -/
theorem sum_tiles {M : Type*} [AddCommMonoid M] {T B : ℕ} (f : Fin (T * B) → M) :
    ∑ t : Fin T, ∑ j : Fin B, f ⟨t.val * B + j.val, tile_lt t j⟩ = ∑ i : Fin (T * B), f i := by
  rw [← Equiv.sum_comp (finProdFinEquiv (m := T) (n := B)) f, Fintype.sum_prod_type]
  refine Fintype.sum_congr _ _ fun t => Fintype.sum_congr _ _ fun j => ?_
  congr 1
  apply Fin.ext
  simp only [finProdFinEquiv_apply_val]
  rw [Nat.mul_comm, Nat.add_comm]

/-- A sum over `n + e` indices whose summand vanishes from index `n` on is the sum over the first `n`. -/
theorem sum_drop_zero_tail {M : Type*} [AddCommMonoid M] {n e : ℕ} (f : Fin (n + e) → M)
    (h0 : ∀ i : Fin (n + e), n ≤ i.val → f i = 0) :
    ∑ i : Fin (n + e), f i = ∑ i : Fin n, f (Fin.castAdd e i) := by
  rw [Fin.sum_univ_add]
  have hz : ∑ j : Fin e, f (Fin.natAdd n j) = 0 :=
    Finset.sum_eq_zero fun j _ => h0 _ (by simp [Fin.natAdd])
  rw [hz, add_zero]

/-- Fourteen tiles of `384` cover `5376 = 5324 + 52` indices: when the summand vanishes from index `5324` on,
the tiled sum is the sum over the first `5324` indices. -/
theorem sum_tiles_14_384 {M : Type*} [AddCommMonoid M] (f : Fin 5376 → M)
    (h0 : ∀ i : Fin 5376, 5324 ≤ i.val → f i = 0) :
    ∑ t : Fin 14, ∑ j : Fin 384, f ⟨384 * t.val + j.val, by have := t.isLt; have := j.isLt; omega⟩
      = ∑ i : Fin 5324, f ⟨i.val, by have := i.isLt; omega⟩ := by
  have h1 := sum_tiles (T := 14) (B := 384) (M := M) f
  have h2 := sum_drop_zero_tail (n := 5324) (e := 52) (M := M) f h0
  have e1 : ∑ t : Fin 14, ∑ j : Fin 384, f ⟨384 * t.val + j.val, by have := t.isLt; have := j.isLt; omega⟩
      = ∑ t : Fin 14, ∑ j : Fin 384, f ⟨t.val * 384 + j.val, tile_lt t j⟩ :=
    Fintype.sum_congr _ _ fun t => Fintype.sum_congr _ _ fun j => by
      congr 1; apply Fin.ext; show 384 * t.val + j.val = t.val * 384 + j.val; rw [Nat.mul_comm]
  rw [e1, h1]
  exact h2

/-- A sum over `Fin 14` of a function of the index's value is the sum over `Finset.range 14`. -/
theorem sum_fin14_eq_range {M : Type*} [AddCommMonoid M] (P : ℕ → M) :
    ∑ t : Fin 14, P t.val = (Finset.range 14).sum P :=
  Fin.sum_univ_eq_sum_range P 14

/-- A sum over `Fin n` of a function of the index's value is the sum over `Finset.range n`. -/
theorem sum_fin_eq_range {M : Type*} [AddCommMonoid M] (n : ℕ) (P : ℕ → M) :
    ∑ t : Fin n, P t.val = (Finset.range n).sum P :=
  Fin.sum_univ_eq_sum_range P n

end TileSum
-- ==== Proof.Laws.lean ====
/-
  The mathematics that joins the kernel's spelling of the three losses to the host program's.

  * The kernel reads the class word w as a float W and tests W ≥ 0, W ≠ 80, W = c on floats; a signed 32-bit
    integer read as a real number keeps its order and its equalities, so these are the integer tests on w.
  * The kernel writes -|x| as 0 - |x|.
  * The focal term. Write sp = max(x,0) + log(1 + e^{-|x|}) = log(1 + e^x) and p = 1/(1 + e^{-x}).
    The host computes alpha_t · (sp - x·t) · (1 - p_t)^2 with p_t = p·t + (1-p)(1-t);
    the kernel computes alpha_t · (sp - [t]x) · exp(-2((sp - x) + [t]x)).
    For t = 0: 1 - p_t = p and exp(-2(sp - x)) = (e^x/(1+e^x))^2 = p^2.
    For t = 1: 1 - p_t = 1 - p = 1/(1+e^x) and exp(-2 sp) = (1/(1+e^x))^2.
  * 262144 anchors are 64 blocks of 4096, and the sum of the foreground indicators is the foreground count.
-/
import proofs.«149552_g33784212750688_cont_8to1_b_455_6_alg».proof.Proof.Spec
import proofs.«149552_g33784212750688_cont_8to1_b_455_6_alg».proof.Proof.FocalLaw
import proofs.«149552_g33784212750688_cont_8to1_b_455_6_alg».proof.Proof.LibReal
import proofs.«149552_g33784212750688_cont_8to1_b_455_6_alg».proof.Proof.LibMaskCount
import proofs.«149552_g33784212750688_cont_8to1_b_455_6_alg».proof.Proof.LibTileSum
import Mathlib.Analysis.SpecialFunctions.Log.Basic
import Mathlib.Analysis.SpecialFunctions.Pow.Real
import Mathlib.Tactic

noncomputable section
open scoped BigOperators
namespace Loss
open Idealize.ShloMosaic Idealize.ShloMosaic.ValueIdx

/-- The kernel writes -|x| as 0 - |x|; on the extended reals 0 - a = -a. -/
theorem bceKer_eq (x t f : EReal) : bceKer x t f = bceRef x t f := by
  unfold bceKer bceRef
  rw [show f0 = 0 from Ideal.ofBits_zero_f32, zero_sub]

/-- 262144 anchors are 64 blocks of 4096 anchors. -/
theorem sum_blocks {M : Type*} [AddCommMonoid M] (f : Fin 262144 → M) :
    ∑ g : Fin 64, ∑ r : Fin 4096, f ⟨g.val * 4096 + r.val, by have := g.isLt; have := r.isLt; omega⟩ = ∑ n : Fin 262144, f n :=
  TileSum.sum_tiles (T := 64) (B := 4096) f

/-- A one-bit word read as a real number is 1 when set and 0 when clear. -/
theorem toNat_real (b : BitVec 1) : ((b.toNat : ℝ)) = if b = 1#1 then 1 else 0 := by
  rcases BitVec.eq_zero_or_eq_one b with h | h <;> subst h <;> simp

/-- The sum of the foreground indicators is the number of foreground anchors. -/
theorem sum_fg_eq_card (ct : Fin 262144 → BitVec 32) :
    ∑ n : Fin 262144, u2f (fgBit (ct n)) = (((Finset.univ.filter fun n : Fin 262144 => fgBit (ct n) = 1#1).card : ℝ) : EReal) := by
  unfold u2f
  rw [Cert.LibReal.sum_coe]
  refine congrArg (fun r : ℝ => (r : EReal)) ?_
  rw [Finset.sum_congr rfl fun n _ => toNat_real (fgBit (ct n)), Finset.sum_boole]

theorem sum_fg_eq_cnt (ct : Fin 262144 → BitVec 32) : max (∑ n : Fin 262144, u2f (fgBit (ct n))) f1 = cnt ct := by
  unfold cnt
  rw [show f1 = 1 from Cert.LibReal.ofBits_one, sum_fg_eq_card]

/-! ## The float words as numbers -/

theorem f0_eq : f0 = 0 := Ideal.ofBits_zero_f32
theorem f1_eq : f1 = 1 := Cert.LibReal.ofBits_one
theorem f2_eq : f2 = ((2 : ℝ) : EReal) := Cert.LibReal.ofBits_two
theorem fm2_eq : fm2 = ((-2 : ℝ) : EReal) := by
  simp [Ideal.ofBits, Ideal.ieee]
  rw [← EReal.coe_mul]; congr 1; norm_num
theorem fq_eq : fq = ((1 / 4 : ℝ) : EReal) := by
  simp [Ideal.ofBits, Ideal.ieee]
  rw [← EReal.coe_mul]; congr 1; norm_num
theorem f34_eq : f34 = ((3 / 4 : ℝ) : EReal) := by
  simp [Ideal.ofBits, Ideal.ieee]
  rw [← EReal.coe_mul]; congr 1; norm_num
theorem f80_eq : f80 = ((80 : ℝ) : EReal) := by
  simp [Ideal.ofBits, Ideal.ieee]
  rw [← EReal.coe_mul]; congr 1; norm_num

/-! ## The kernel's float tests of the class word are the integer tests -/

/-- Reading signed 32-bit words as real numbers is injective. -/
theorem toInt_coe_inj (w v : BitVec 32) : (((w.toInt : ℝ)) : EReal) = (((v.toInt : ℝ)) : EReal) ↔ w = v := by
  rw [EReal.coe_eq_coe_iff, Int.cast_inj, BitVec.toInt_inj]

/-- W ≥ 0 on the float is 0 ≤ w on the signed word. -/
theorem cmp_oge_zero (w : BitVec 32) : Ideal.cmp .oge (((w.toInt : ℝ)) : EReal) f0 = IntOp.cmpi .sge w 0#32 := by
  rw [f0_eq]
  show BitVec.ofBool (decide ((0 : EReal) ≤ ((w.toInt : ℝ) : EReal))) = BitVec.ofBool (decide ((0#32).toInt ≤ w.toInt))
  refine congrArg BitVec.ofBool (decide_eq_decide.mpr ?_)
  rw [EReal.coe_nonneg, BitVec.toInt_zero]
  norm_cast

/-- W ≠ 80 on the float is w ≠ 80 on the word. -/
theorem cmp_one_80 (w : BitVec 32) : Ideal.cmp .one (((w.toInt : ℝ)) : EReal) f80 = IntOp.cmpi .ne w 80#32 := by
  have h80 : f80 = ((((80#32).toInt : ℝ)) : EReal) := by
    rw [f80_eq, show (80#32).toInt = 80 by decide]; norm_num
  rw [h80]
  show BitVec.ofBool (decide (((w.toInt : ℝ) : EReal) ≠ (((80#32).toInt : ℝ) : EReal))) = BitVec.ofBool (w != 80#32)
  refine congrArg BitVec.ofBool ?_
  by_cases h : w = 80#32
  · subst h; simp
  · have h' : ((w.toInt : ℝ) : EReal) ≠ (((80#32).toInt : ℝ) : EReal) := fun e => h ((toInt_coe_inj _ _).mp e)
    rw [decide_eq_true h', (bne_iff_ne.mpr h : (w != 80#32) = true)]

/-- A selection of 1 or 0 by a one-bit word is the word read as a number. -/
theorem select_u2f (b : BitVec 1) : Scalar.select b f1 f0 = u2f b := by
  rw [f1_eq, f0_eq]
  rcases BitVec.eq_zero_or_eq_one b with h | h <;> subst h <;> simp [Scalar.select, u2f]

theorem fgKer_eq (w : BitVec 32) : fgKer (((w.toInt : ℝ)) : EReal) = u2f (fgBit w) := by
  unfold fgKer fgBit
  rw [cmp_oge_zero, cmp_one_80, select_u2f]

theorem tauKer_eq (w : BitVec 32) (c : Fin 80) :
    tauKer c (((w.toInt : ℝ)) : EReal) = IntOp.cmpi .eq w (BitVec.ofNat 32 c.val) := by
  show BitVec.ofBool (decide ((((BitVec.ofNat 32 c.val).toInt : ℝ) : EReal) = ((w.toInt : ℝ) : EReal)))
    = BitVec.ofBool (w == BitVec.ofNat 32 c.val)
  refine congrArg BitVec.ofBool ?_
  rw [beq_eq_decide]
  exact decide_eq_decide.mpr ((toInt_coe_inj _ _).trans eq_comm)

theorem one_sub_one : (1 : EReal) - 1 = 0 := by
  rw [← EReal.coe_one, ← EReal.coe_sub, sub_self, EReal.coe_zero]

theorem validKer_eq (w : BitVec 32) (k : BitVec 1) :
    validKer (((w.toInt : ℝ)) : EReal) (u2f k) = u2f (validBit w k) := by
  unfold validKer validBit
  rw [cmp_oge_zero, select_u2f, f1_eq]
  generalize IntOp.cmpi .sge w 0#32 = a
  rcases BitVec.eq_zero_or_eq_one a with h | h <;> subst h <;>
    rcases BitVec.eq_zero_or_eq_one k with h | h <;> subst h <;> simp [u2f, IntOp.andi, one_sub_one]

/-! ## The focal term -/

/-- log1p of a nonnegative real number. -/
theorem log1p_coe_of_nonneg {e : ℝ} (he : 0 ≤ e) : Ideal.log1p ((e : ℝ) : EReal) = ((Real.log (1 + e) : ℝ) : EReal) := by
  unfold Ideal.log1p
  rw [← EReal.coe_one, ← EReal.coe_add, Ideal.log_coe, if_neg (not_le.mpr (by linarith))]

/-- log(1 + e^{-|r|}) as the host spells it. -/
theorem log_part (r : ℝ) :
    Ideal.log1p (Ideal.exp (-(max (r : EReal) (-(r : EReal))))) = ((Real.log (1 + Real.exp (-|r|)) : ℝ) : EReal) := by
  rw [← EReal.coe_neg, Cert.LibReal.coe_max, ← EReal.coe_neg, Ideal.exp_coe, log1p_coe_of_nonneg (Real.exp_pos _).le,
    ← abs_eq_max_neg]

/-- max(r, 0) among the extended reals. -/
theorem max_zero_coe (r : ℝ) : max (r : EReal) 0 = ((max r 0 : ℝ) : EReal) := by
  rw [← EReal.coe_zero, Cert.LibReal.coe_max]

/-- The softplus as the kernel spells it is log(1 + e^r). -/
theorem sp_ker (r : ℝ) :
    max (r : EReal) f0 + Ideal.log1p (Ideal.exp (f0 - max (r : EReal) (-(r : EReal))))
      = ((Real.log (1 + Real.exp r) : ℝ) : EReal) := by
  rw [f0_eq, zero_sub, log_part, max_zero_coe, ← EReal.coe_add, FocalLaw.softplus_eq]

/-- The sigmoid as the host spells it. -/
theorem sigmoid_coe (r : ℝ) : Ideal.div f1 (f1 + Ideal.exp (-(r : EReal))) = (((1 + Real.exp (-r))⁻¹ : ℝ) : EReal) := by
  rw [f1_eq]
  exact Ideal.logistic_coe r

/-- The square as the host spells it (a power with the float exponent 2). -/
theorem pow_two_coe (y : ℝ) : Ideal.pow ((y : ℝ) : EReal) f2 = ((y ^ 2 : ℝ) : EReal) := by
  rw [f2_eq, Ideal.pow_coe_coe]
  refine congrArg (fun z : ℝ => (z : EReal)) ?_
  exact Real.rpow_two y

/-- The host's focal term on real numbers: logit r, target T, as one real number times the valid factor. -/
theorem clsRef_coe (r T : ℝ) (v : EReal) :
    clsRef (r : EReal) ((T : ℝ) : EReal) v
      = (((1 / 4 * T + 3 / 4 * (1 - T))
          * (((max r 0 - r * T) + Real.log (1 + Real.exp (-|r|)))
              * (1 - ((1 + Real.exp (-r))⁻¹ * T + (1 - (1 + Real.exp (-r))⁻¹) * (1 - T))) ^ 2) : ℝ) : EReal) * v := by
  unfold clsRef
  rw [log_part, sigmoid_coe, fq_eq, f34_eq, f0_eq, max_zero_coe, f1_eq, ← EReal.coe_one]
  simp only [← EReal.coe_mul, ← EReal.coe_add, ← EReal.coe_sub]
  rw [pow_two_coe]
  simp only [← EReal.coe_mul, ← EReal.coe_add, ← EReal.coe_sub]

/-- The kernel's focal term for a lane that is not the anchor's class, on a real logit. -/
theorem clsKer_zero_coe (r : ℝ) (v : EReal) :
    clsKer (r : EReal) 0#1 v
      = (((3 / 4 * (Real.log (1 + Real.exp r) - 0))
          * Real.exp (-2 * ((Real.log (1 + Real.exp r) - r) + 0)) : ℝ) : EReal) * v := by
  unfold clsKer
  have hsel : ∀ a b : EReal, Scalar.select 0#1 a b = b := fun a b => if_neg (by decide)
  rw [hsel, hsel, sp_ker, f34_eq, fm2_eq, f0_eq, ← EReal.coe_zero]
  simp only [← EReal.coe_mul, ← EReal.coe_add, ← EReal.coe_sub]
  rw [Ideal.exp_coe]
  simp only [← EReal.coe_mul]

/-- The kernel's focal term for the lane of the anchor's class, on a real logit. -/
theorem clsKer_one_coe (r : ℝ) (v : EReal) :
    clsKer (r : EReal) 1#1 v
      = (((1 / 4 * (Real.log (1 + Real.exp r) - r))
          * Real.exp (-2 * ((Real.log (1 + Real.exp r) - r) + r)) : ℝ) : EReal) * v := by
  unfold clsKer
  have hsel : ∀ a b : EReal, Scalar.select 1#1 a b = a := fun a b => if_pos rfl
  rw [hsel, hsel, sp_ker, fq_eq, fm2_eq]
  simp only [← EReal.coe_mul, ← EReal.coe_add, ← EReal.coe_sub]
  rw [Ideal.exp_coe]
  simp only [← EReal.coe_mul]

/-- Target 0: with u = e^r, the sigmoid is p = u/(1+u), and exp(-2(log(1+u) - r)) = (u/(1+u))^2 = p^2 = (1 - p_t)^2. -/
theorem focal_zero (r : ℝ) :
    (3 / 4 * (Real.log (1 + Real.exp r) - 0)) * Real.exp (-2 * ((Real.log (1 + Real.exp r) - r) + 0))
      = (1 / 4 * 0 + 3 / 4 * (1 - 0))
          * (((max r 0 - r * 0) + Real.log (1 + Real.exp (-|r|)))
              * (1 - ((1 + Real.exp (-r))⁻¹ * 0 + (1 - (1 + Real.exp (-r))⁻¹) * (1 - 0))) ^ 2) := by
  have hu : 0 < Real.exp r := Real.exp_pos r
  have h1 : 0 < 1 + Real.exp r := by positivity
  have hL : Real.log (1 + Real.exp (-|r|)) = Real.log (1 + Real.exp r) - max r 0 := by
    have := FocalLaw.softplus_eq r; linarith
  have hE : Real.exp (-2 * ((Real.log (1 + Real.exp r) - r) + 0)) = (Real.exp r / (1 + Real.exp r)) ^ 2 := by
    rw [show -2 * ((Real.log (1 + Real.exp r) - r) + 0)
        = (r - Real.log (1 + Real.exp r)) + (r - Real.log (1 + Real.exp r)) by ring,
      Real.exp_add, Real.exp_sub, Real.exp_log h1]
    ring
  rw [hL, hE, Real.exp_neg]
  generalize Real.log (1 + Real.exp r) = s
  generalize Real.exp r = u at hu h1
  have hu' : u ≠ 0 := hu.ne'
  have h1' : 1 + u ≠ 0 := h1.ne'
  have h2 : 1 + u⁻¹ ≠ 0 := by positivity
  field_simp
  ring

/-- Target 1: with u = e^r, 1 - p = 1/(1+u), and exp(-2 log(1+u)) = (1/(1+u))^2 = (1 - p_t)^2. -/
theorem focal_one (r : ℝ) :
    (1 / 4 * (Real.log (1 + Real.exp r) - r)) * Real.exp (-2 * ((Real.log (1 + Real.exp r) - r) + r))
      = (1 / 4 * 1 + 3 / 4 * (1 - 1))
          * (((max r 0 - r * 1) + Real.log (1 + Real.exp (-|r|)))
              * (1 - ((1 + Real.exp (-r))⁻¹ * 1 + (1 - (1 + Real.exp (-r))⁻¹) * (1 - 1))) ^ 2) := by
  have hu : 0 < Real.exp r := Real.exp_pos r
  have h1 : 0 < 1 + Real.exp r := by positivity
  have hL : Real.log (1 + Real.exp (-|r|)) = Real.log (1 + Real.exp r) - max r 0 := by
    have := FocalLaw.softplus_eq r; linarith
  have hE : Real.exp (-2 * ((Real.log (1 + Real.exp r) - r) + r)) = (1 / (1 + Real.exp r)) ^ 2 := by
    rw [show -2 * ((Real.log (1 + Real.exp r) - r) + r)
        = (-Real.log (1 + Real.exp r)) + (-Real.log (1 + Real.exp r)) by ring,
      Real.exp_add, Real.exp_neg, Real.exp_log h1]
    ring
  rw [hL, hE, Real.exp_neg]
  generalize Real.log (1 + Real.exp r) = s
  generalize Real.exp r = u at hu h1
  have hu' : u ≠ 0 := hu.ne'
  have h1' : 1 + u ≠ 0 := h1.ne'
  have h2 : 1 + u⁻¹ ≠ 0 := by positivity
  field_simp
  ring

/-- A class number below 80, as a class word, is a foreground word. -/
theorem fg_of_class (c : Fin 80) : fgBit (BitVec.ofNat 32 c.val) = 1#1 := by
  revert c; decide

/-- The focal term: the kernel's spelling equals the host's, for a real logit. -/
theorem clsKer_eq (r : ℝ) (w : BitVec 32) (c : Fin 80) (v : EReal) :
    clsKer (r : EReal) (tauKer c (((w.toInt : ℝ)) : EReal)) v = clsRef (r : EReal) (tgt w c) v := by
  rw [tauKer_eq]
  unfold tgt
  by_cases h : w = BitVec.ofNat 32 c.val
  · subst h
    have h1 : IntOp.cmpi .eq (BitVec.ofNat 32 c.val) (BitVec.ofNat 32 c.val) = 1#1 := by simp [IntOp.cmpi]
    rw [h1, fg_of_class, show u2f 1#1 = 1 by simp [u2f], mul_one, ← EReal.coe_one, clsKer_one_coe, clsRef_coe, focal_one]
  · have h0 : IntOp.cmpi .eq w (BitVec.ofNat 32 c.val) = 0#1 := by
      show BitVec.ofBool (w == BitVec.ofNat 32 c.val) = 0#1
      rw [beq_eq_false_iff_ne.mpr h]; rfl
    rw [h0, show u2f 0#1 = 0 by simp [u2f], zero_mul, ← EReal.coe_zero, clsKer_zero_coe, clsRef_coe, focal_zero]

end Loss
end
-- ==== Proof.Bridge.lean ====
/-
  The last bridge: the three totals as the kernel accumulates them — block by block (64 blocks of 4096 anchors),
  with the kernel's float tests of the class word and its spelling of each term — are the three losses of the
  specification. A double sum over blocks and rows is the sum over the anchors; each term is rewritten by the laws
  (foreground and valid factors, the focal term for a real logit, the cross entropy); the denominator, the greater
  of the sum of the foreground indicators and 1, is the foreground count, at least 1.
-/
import proofs.«149552_g33784212750688_cont_8to1_b_455_6_alg».proof.Proof.Spec
import proofs.«149552_g33784212750688_cont_8to1_b_455_6_alg».proof.Proof.Laws
import proofs.«149552_g33784212750688_cont_8to1_b_455_6_alg».proof.Proof.LibReal

noncomputable section
open scoped BigOperators
namespace Loss
open Idealize.ShloMosaic Idealize.ShloMosaic.ValueIdx

/-- The anchor with block number g and row r inside the block. -/
def anchor (g : Fin 64) (r : Fin 4096) : Fin 262144 :=
  ⟨g.val * 4096 + r.val, by have := g.isLt; have := r.isLt; omega⟩

/-- The class word of anchor n read as a float. -/
def W (ct : Fin 262144 → BitVec 32) (n : Fin 262144) : EReal := ((((ct n).toInt : ℝ)) : EReal)

/-- A sum over blocks and rows is the sum over the anchors. -/
theorem sum_anchor {M : Type*} [AddCommMonoid M] (f : Fin 262144 → M) :
    ∑ g : Fin 64, ∑ r : Fin 4096, f (anchor g r) = ∑ n : Fin 262144, f n :=
  sum_blocks f

theorem fgKer_W (ct : Fin 262144 → BitVec 32) (n : Fin 262144) : fgKer (W ct n) = u2f (fgBit (ct n)) :=
  fgKer_eq (ct n)

/-- The kernel's denominator is the foreground count, at least 1. -/
theorem den_eq (ct : Fin 262144 → BitVec 32) :
    max (∑ g : Fin 64, ∑ r : Fin 4096, fgKer (W ct (anchor g r))) f1 = cnt ct := by
  rw [sum_anchor (fun n => fgKer (W ct n)), Finset.sum_congr rfl (fun n _ => fgKer_W ct n)]
  exact sum_fg_eq_cnt ct

/-- One classification term: the kernel's spelling is the host's, for a real logit. -/
theorem cls_term (x : Fin 262144 → Fin 80 → EReal) (hx : ∀ n c, Cert.LibReal.IsReal (x n c))
    (ct : Fin 262144 → BitVec 32) (mk : Fin 262144 → BitVec 1) (n : Fin 262144) (c : Fin 80) :
    clsKer (x n c) (tauKer c (W ct n)) (validKer (W ct n) (u2f (mk n)))
      = clsRef (x n c) (tgt (ct n) c) (u2f (validBit (ct n) (mk n))) := by
  obtain ⟨r, hr⟩ := hx n c
  rw [hr]
  unfold W
  rw [validKer_eq, clsKer_eq]

theorem bridge_cls (x : Fin 262144 → Fin 80 → EReal) (hx : ∀ n c, Cert.LibReal.IsReal (x n c))
    (ct : Fin 262144 → BitVec 32) (mk : Fin 262144 → BitVec 1) :
    Ideal.div (∑ g : Fin 64, ∑ r : Fin 4096, ∑ c : Fin 80,
        clsKer (x (anchor g r) c) (tauKer c (W ct (anchor g r))) (validKer (W ct (anchor g r)) (u2f (mk (anchor g r)))))
      (max (∑ g : Fin 64, ∑ r : Fin 4096, fgKer (W ct (anchor g r))) f1) = lossCls x ct mk := by
  unfold lossCls
  rw [den_eq, sum_anchor (fun n => ∑ c : Fin 80, clsKer (x n c) (tauKer c (W ct n)) (validKer (W ct n) (u2f (mk n))))]
  refine congrArg (fun s => Ideal.div s (cnt ct)) ?_
  exact Finset.sum_congr rfl fun n _ => Finset.sum_congr rfl fun c _ => cls_term x hx ct mk n c

theorem bridge_reg (pb bt : Fin 262144 → Fin 4 → EReal) (ct : Fin 262144 → BitVec 32) :
    Ideal.div (∑ g : Fin 64, ∑ r : Fin 4096,
        regTerm (pb (anchor g r) 0) (pb (anchor g r) 1) (pb (anchor g r) 2) (pb (anchor g r) 3)
          (bt (anchor g r) 0) (bt (anchor g r) 1) (bt (anchor g r) 2) (bt (anchor g r) 3) (fgKer (W ct (anchor g r))))
      (max (∑ g : Fin 64, ∑ r : Fin 4096, fgKer (W ct (anchor g r))) f1) = lossReg pb bt ct := by
  unfold lossReg
  rw [den_eq, sum_anchor (fun n => regTerm (pb n 0) (pb n 1) (pb n 2) (pb n 3) (bt n 0) (bt n 1) (bt n 2) (bt n 3)
    (fgKer (W ct n)))]
  refine congrArg (fun s => Ideal.div s (cnt ct)) ?_
  exact Finset.sum_congr rfl fun n _ => by rw [fgKer_W]

theorem bridge_iou (pi ti : Fin 262144 → EReal) (ct : Fin 262144 → BitVec 32) :
    Ideal.div (∑ g : Fin 64, ∑ r : Fin 4096, bceKer (pi (anchor g r)) (ti (anchor g r)) (fgKer (W ct (anchor g r))))
      (max (∑ g : Fin 64, ∑ r : Fin 4096, fgKer (W ct (anchor g r))) f1) = lossIou pi ti ct := by
  unfold lossIou
  rw [den_eq, sum_anchor (fun n => bceKer (pi n) (ti n) (fgKer (W ct n)))]
  refine congrArg (fun s => Ideal.div s (cnt ct)) ?_
  exact Finset.sum_congr rfl fun n _ => by rw [bceKer_eq, fgKer_W]

end Loss
end
-- ==== Proof.KerSum.lean ====
/-
  The accumulator row entry by entry at the exact instance: entry k after point n is the running sum of the blocks'
  k-th partial sums, so after the last point it is the sum over all 64 blocks; and each block's partial sum, with the
  block's entries read off the argument arrays, is a sum over the block's 4096 anchors of the specification's terms.
-/
import proofs.«149552_g33784212750688_cont_8to1_b_455_6_alg».proof.Proof.KerAccum
import proofs.«149552_g33784212750688_cont_8to1_b_455_6_alg».proof.Proof.KerBody
import proofs.«149552_g33784212750688_cont_8to1_b_455_6_alg».proof.Proof.KerRow
import proofs.«149552_g33784212750688_cont_8to1_b_455_6_alg».proof.Proof.KerInputs
import proofs.«149552_g33784212750688_cont_8to1_b_455_6_alg».proof.Proof.Bridge

set_option maxRecDepth 16384

noncomputable section

open scoped BigOperators
open Idealize.ShloMosaic Idealize.ShloMosaic.TcCoe Idealize.SL.Sem Idealize.ShloMosaic.ValueIdx

namespace Cert.KernelIdeal.KerSum

open Cert.KernelIdeal Cert.KernelIdeal.Gen Cert.KernelIdeal.KerPieces Cert.KernelIdeal.KerAccum Cert.KernelIdeal.KerBody
  Cert.KernelIdeal.KerRow Cert.KernelIdeal.KerInputs Loss

variable (m : (ℓ : Loc nD τ sig) → Buf (Elt Ideal) ℓ) (c : Dev nD)

/-- the argument arrays, anchor by anchor -/
def X (n : Fin 262144) (col : Fin 80) : EReal := m ((c : Thread nD τ).loc main_arg0) (ix2 n col)
def CT (n : Fin 262144) : BitVec 32 := m ((c : Thread nD τ).loc main_arg3) (ix1 n)
def MK (n : Fin 262144) : BitVec 1 := m ((c : Thread nD τ).loc main_arg6) (ix1 n)
def PB (n : Fin 262144) (a : Fin 4) : EReal := m ((c : Thread nD τ).loc main_arg1) (ix2 n a)
def BT (n : Fin 262144) (a : Fin 4) : EReal := m ((c : Thread nD τ).loc main_arg4) (ix2 n a)
def PI (n : Fin 262144) : EReal := m ((c : Thread nD τ).loc main_arg2) (ix2 n 0)
def TI (n : Fin 262144) : EReal := m ((c : Thread nD τ).loc main_arg5) (ix2 n 0)

/-- the four partial sums of the block at grid point t -/
def blkCls (t : Fin cfg0.N) : EReal := pCls (iblk m c 0 t) (iblk m c 1 t) (ix2 0 0)
def blkReg (t : Fin cfg0.N) : EReal := pReg (iblk m c 1 t) (iblk m c 2 t) (iblk m c 3 t) (ix2 0 0)
def blkIou (t : Fin cfg0.N) : EReal := pIou (iblk m c 1 t) (iblk m c 4 t) (iblk m c 5 t) (ix2 0 0)
def blkFg (t : Fin cfg0.N) : EReal := pFg (iblk m c 1 t) (ix2 0 0)

/-- the same by block number (zero past the grid) -/
def partCls (g : ℕ) : EReal := if hg : g < cfg0.N then blkCls m c ⟨g, hg⟩ else 0
def partReg (g : ℕ) : EReal := if hg : g < cfg0.N then blkReg m c ⟨g, hg⟩ else 0
def partIou (g : ℕ) : EReal := if hg : g < cfg0.N then blkIou m c ⟨g, hg⟩ else 0
def partFg (g : ℕ) : EReal := if hg : g < cfg0.N then blkFg m c ⟨g, hg⟩ else 0

/-- entry 0 of the accumulator row after point n is the running sum of the blocks' partial sums -/
theorem acc_entry0 : ∀ (n : ℕ) (h : n < cfg0.N), acc m c n h (ix2 0 0) = chain (partCls m c) n
  | 0, h => by
    have e : partCls m c 0 = blkCls m c ⟨0, h⟩ := dif_pos h
    show step m c ⟨0, h⟩ (k0_pay1 (F := Ideal)) (ix2 0 0) = 0 + partCls m c 0
    rw [e]
    unfold step
    rw [pay3_apply_0, pay1_apply]
    rfl
  | n + 1, h => by
    have e : partCls m c (n + 1) = blkCls m c ⟨n + 1, h⟩ := dif_pos h
    show step m c ⟨n + 1, h⟩ (acc m c n _) (ix2 0 0) = chain (partCls m c) n + partCls m c (n + 1)
    rw [e]
    unfold step
    rw [pay3_apply_0, acc_entry0 n]
    rfl

/-- entry 1 of the accumulator row after point n is the running sum of the blocks' partial sums -/
theorem acc_entry1 : ∀ (n : ℕ) (h : n < cfg0.N), acc m c n h (ix2 0 1) = chain (partReg m c) n
  | 0, h => by
    have e : partReg m c 0 = blkReg m c ⟨0, h⟩ := dif_pos h
    show step m c ⟨0, h⟩ (k0_pay1 (F := Ideal)) (ix2 0 1) = 0 + partReg m c 0
    rw [e]
    unfold step
    rw [pay3_apply_1, pay1_apply]
    rfl
  | n + 1, h => by
    have e : partReg m c (n + 1) = blkReg m c ⟨n + 1, h⟩ := dif_pos h
    show step m c ⟨n + 1, h⟩ (acc m c n _) (ix2 0 1) = chain (partReg m c) n + partReg m c (n + 1)
    rw [e]
    unfold step
    rw [pay3_apply_1, acc_entry1 n]
    rfl

/-- entry 2 of the accumulator row after point n is the running sum of the blocks' partial sums -/
theorem acc_entry2 : ∀ (n : ℕ) (h : n < cfg0.N), acc m c n h (ix2 0 2) = chain (partIou m c) n
  | 0, h => by
    have e : partIou m c 0 = blkIou m c ⟨0, h⟩ := dif_pos h
    show step m c ⟨0, h⟩ (k0_pay1 (F := Ideal)) (ix2 0 2) = 0 + partIou m c 0
    rw [e]
    unfold step
    rw [pay3_apply_2, pay1_apply]
    rfl
  | n + 1, h => by
    have e : partIou m c (n + 1) = blkIou m c ⟨n + 1, h⟩ := dif_pos h
    show step m c ⟨n + 1, h⟩ (acc m c n _) (ix2 0 2) = chain (partIou m c) n + partIou m c (n + 1)
    rw [e]
    unfold step
    rw [pay3_apply_2, acc_entry2 n]
    rfl

/-- entry 3 of the accumulator row after point n is the running sum of the blocks' partial sums -/
theorem acc_entry3 : ∀ (n : ℕ) (h : n < cfg0.N), acc m c n h (ix2 0 3) = chain (partFg m c) n
  | 0, h => by
    have e : partFg m c 0 = blkFg m c ⟨0, h⟩ := dif_pos h
    show step m c ⟨0, h⟩ (k0_pay1 (F := Ideal)) (ix2 0 3) = 0 + partFg m c 0
    rw [e]
    unfold step
    rw [pay3_apply_3, pay1_apply]
    rfl
  | n + 1, h => by
    have e : partFg m c (n + 1) = blkFg m c ⟨n + 1, h⟩ := dif_pos h
    show step m c ⟨n + 1, h⟩ (acc m c n _) (ix2 0 3) = chain (partFg m c) n + partFg m c (n + 1)
    rw [e]
    unfold step
    rw [pay3_apply_3, acc_entry3 n]
    rfl

theorem lt64 (g : Fin 64) : g.val < cfg0.N := lt_of_lt_of_eq g.isLt N_0.symm

/-- the anchor of block g, row r, in the two spellings -/
theorem anchor_eq (g : Fin 64) (r : Fin 4096) : KerInputs.anchor ⟨g.val, lt64 g⟩ r = Loss.anchor g r := Fin.ext rfl

/-- block g's foreground count over the argument arrays -/
theorem partFg_eq (g : Fin 64) : partFg m c g.val = ∑ r : Fin 4096, fgKer (W (CT m c) (Loss.anchor g r)) := by
  have e : partFg m c g.val = blkFg m c ⟨g.val, lt64 g⟩ := dif_pos (lt64 g)
  rw [e]
  unfold blkFg
  refine (pFg_apply (iblk m c 1 ⟨g.val, lt64 g⟩)).trans ?_
  refine Finset.sum_congr rfl fun r _ => ?_
  rw [blk1_w, anchor_eq]
  rfl

/-- block g's classification sum over the argument arrays -/
theorem partCls_eq (g : Fin 64) : partCls m c g.val = ∑ r : Fin 4096, ∑ col : Fin 80,
    clsKer (X m c (Loss.anchor g r) col) (tauKer col (W (CT m c) (Loss.anchor g r)))
      (validKer (W (CT m c) (Loss.anchor g r)) (u2f (MK m c (Loss.anchor g r)))) := by
  have e : partCls m c g.val = blkCls m c ⟨g.val, lt64 g⟩ := dif_pos (lt64 g)
  rw [e]
  unfold blkCls
  refine (pCls_apply (iblk m c 0 ⟨g.val, lt64 g⟩) (iblk m c 1 ⟨g.val, lt64 g⟩)).trans ?_
  refine Finset.sum_congr rfl fun r _ => Finset.sum_congr rfl fun col _ => ?_
  rw [blk0, blk1_w, blk1_m, anchor_eq]
  rfl

/-- block g's regression sum over the argument arrays -/
theorem partReg_eq (g : Fin 64) : partReg m c g.val = ∑ r : Fin 4096,
    regTerm (PB m c (Loss.anchor g r) 0) (PB m c (Loss.anchor g r) 1) (PB m c (Loss.anchor g r) 2) (PB m c (Loss.anchor g r) 3)
      (BT m c (Loss.anchor g r) 0) (BT m c (Loss.anchor g r) 1) (BT m c (Loss.anchor g r) 2) (BT m c (Loss.anchor g r) 3)
      (fgKer (W (CT m c) (Loss.anchor g r))) := by
  have e : partReg m c g.val = blkReg m c ⟨g.val, lt64 g⟩ := dif_pos (lt64 g)
  rw [e]
  unfold blkReg
  refine (pReg_apply (iblk m c 1 ⟨g.val, lt64 g⟩) (iblk m c 2 ⟨g.val, lt64 g⟩) (iblk m c 3 ⟨g.val, lt64 g⟩)).trans ?_
  refine Finset.sum_congr rfl fun r _ => ?_
  rw [blk1_w, blk2, blk2, blk2, blk2, blk3, blk3, blk3, blk3, anchor_eq]
  rfl

/-- block g's IoU sum over the argument arrays -/
theorem partIou_eq (g : Fin 64) : partIou m c g.val = ∑ r : Fin 4096,
    bceKer (PI m c (Loss.anchor g r)) (TI m c (Loss.anchor g r)) (fgKer (W (CT m c) (Loss.anchor g r))) := by
  have e : partIou m c g.val = blkIou m c ⟨g.val, lt64 g⟩ := dif_pos (lt64 g)
  rw [e]
  unfold blkIou
  refine (pIou_apply (iblk m c 1 ⟨g.val, lt64 g⟩) (iblk m c 4 ⟨g.val, lt64 g⟩) (iblk m c 5 ⟨g.val, lt64 g⟩)).trans ?_
  refine Finset.sum_congr rfl fun r _ => ?_
  rw [blk1_w, blk4, blk5, anchor_eq]
  rfl

end Cert.KernelIdeal.KerSum

end
-- ==== Proof.KerOut.lean ====
/-
  The kernel's output side.

  The three output windows have a [1, 1] block that is their whole [1, 1] array; they are written back at the last
  of the 64 grid points only. So each output array ends holding what the last point left in the window's block, and
  the host reshape [1, 1] → [] that follows the region reads that one entry.
-/
import proofs.«149552_g33784212750688_cont_8to1_b_455_6_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.KerOut

open Idealize.ShloMosaic Idealize.ShloMosaic.TcCoe Idealize.ShloMosaic.ValueIdx Idealize.SL.Sem Cert.KernelIdeal Cert.KernelIdeal.Gen
open Idealize.ShloMosaic.Pipeline (Dat)

variable {F : FTy → Type} [FloatOps F]
variable (m : (ℓ : Loc nD τ sig) → Buf (Elt F) ℓ) (c : Dev nD)

/-! ## The last grid point -/

/-- the last of the 64 grid points, the only one that writes the three outputs back -/
abbrev last : Fin cfg0.N := ⟨63, by rw [show cfg0.N = 64 from N_0]; decide⟩

/-! ## Output window 6 -/

/-- block (0, 0) of the first output's [1, 1] array, read through zero offsets, is the array: whatever the last point
    leaves in the block is what it writes back -/
theorem read_whole6 (x : Buf (Elt F) ((c : Thread nD τ).loc main_v11_0)) :
    (cfg0.win 6).cut (grid0.coords last) x = ((cfg0.win 6).blk last).view.read (Elt F) x := by
  have hz' : (fun a => win0_6.index last a * main_v11_0.ty.shape.size a) = fun _ => 0 :=
    funext fun a => by fin_cases a <;> decide +kernel
  exact (Memref.read_access_unit_zero (Elt F) main_v11_0 hz' (fun a => by rw [congrFun hz' a]; simp) x).symm

/-- the one write-back of window 6, at the last point, writes what that point left in the block -/
theorem flushed6_eq (t : Fin cfg0.N) (hf : (cfg0.win 6).flush t = true) :
    (dats m 0 c).flushed 6 t = ((cfg0.win 6).blk t).view.read (Elt F) (outsAt0 m c last.val last.isLt).1 := by
  have hN : cfg0.N = 64 := N_0
  have h63 : t.val = 63 := by have := (flush0_6 t).mp hf; have := t.isLt; omega
  obtain rfl : t = last := Fin.ext h63
  show (cfg0.win 6).cut (grid0.coords last) ((dats m 0 c).after 6 last) = _
  rw [after0_6]
  exact read_whole6 c _

/-- so the first output array ends holding what the last point left: the last point covers it -/
theorem final6' : (dats m 0 c).arrAt 6 cfg0.N = (outsAt0 m c last.val last.isLt).1 :=
  (dats m 0 c).arrAt_eq_of_cover 6 (outsAt0 m c last.val last.isLt).1 (flushed6_eq m c) fun i =>
    ⟨last, (flush0_6 last).mpr rfl, by
      show i ∈ ((View.whole main_v11_0).slice (win0_6.rect last)).set
      rw [View.set_slice_whole, Rect.mem_set_unit]
      intro a
      have h0 : (i 0 : Nat) < 1 := (i 0).isLt
      have h1 : (i 1 : Nat) < 1 := (i 1).isLt
      match a with
      | ⟨0, _⟩ =>
        show win0_6.index last 0 * win0_6.size 0 ≤ (i 0 : Nat)
          ∧ (i 0 : Nat) < win0_6.index last 0 * win0_6.size 0 + win0_6.xsize (grid0.coords last) 0
        rw [show win0_6.index last 0 * win0_6.size 0 = 0 from by decide +kernel,
          show win0_6.xsize (grid0.coords last) 0 = 1 from by decide +kernel]
        omega
      | ⟨1, _⟩ =>
        show win0_6.index last 1 * win0_6.size 1 ≤ (i 1 : Nat)
          ∧ (i 1 : Nat) < win0_6.index last 1 * win0_6.size 1 + win0_6.xsize (grid0.coords last) 1
        rw [show win0_6.index last 1 * win0_6.size 1 = 0 from by decide +kernel,
          show win0_6.xsize (grid0.coords last) 1 = 1 from by decide +kernel]
        omega⟩

/-- the same with the point's number written out -/
theorem final6 : (dats m 0 c).arrAt 6 cfg0.N = (outsAt0 m c 63 last.isLt).1 := final6' m c

/-! ## The host reshapes after the region -/

/-- the host reshape [1, 1] → [] after the region reads the first output array, which holds what the last point left -/
theorem tail12' : Pipeline.afterTail₀ cfgs (dats m) 0 (V0 m) [hostOps1] c main_v12
    = shapeCast S_ ((outsAt0 m c last.val last.isLt).1 : S1x1.Idx → Elt F .f32) shapeCasts_S1x1_S_ := by
  unfold Pipeline.afterTail₀
  show StableHlo.after hostOps1 _ (Proc.devRef .tc main_v12) = _
  after_results
  have e : Pipeline.withArrays (cfgs 0).spec c (V0 m c) (fun w => (dats m 0 c).arrAt w (cfgs 0).N)
      (Proc.devRef .tc main_v11_0) = (outsAt0 m c last.val last.isLt).1 :=
    (Pipeline.withArrays_arr spec0 launch0.win.arr_inj c _ _ 6).trans (final6' m c)
  rw [e]
  rfl

/-- its one entry is the one entry of what the last point left -/
theorem tail12_apply' : Pipeline.afterTail₀ cfgs (dats m) 0 (V0 m) [hostOps1] c main_v12 ix0
    = (outsAt0 m c last.val last.isLt).1 (ix2 0 0) := by
  refine (congrFun (tail12' m c) ix0).trans ?_
  refine shapeCast_apply _ _ _ (ix2 (0 : Fin 1) (0 : Fin 1)) ?_
  rw [Shape.rowMajor_val_two]
  have h := (S_.rowMajor ix0).isLt
  have hn : S_.numel = 1 := by decide
  show 0 * 1 + 0 = _
  omega

/-- the two, with the point's number written out -/
theorem tail12 : Pipeline.afterTail₀ cfgs (dats m) 0 (V0 m) [hostOps1] c main_v12
    = shapeCast S_ ((outsAt0 m c 63 last.isLt).1 : S1x1.Idx → Elt F .f32) shapeCasts_S1x1_S_ := tail12' m c

theorem tail12_apply : Pipeline.afterTail₀ cfgs (dats m) 0 (V0 m) [hostOps1] c main_v12 ix0
    = (outsAt0 m c 63 last.isLt).1 (ix2 0 0) := tail12_apply' m c

/-! ## Output window 7 -/

/-- block (0, 0) of the second output's [1, 1] array, read through zero offsets, is the array: whatever the last point
    leaves in the block is what it writes back -/
theorem read_whole7 (x : Buf (Elt F) ((c : Thread nD τ).loc main_v11_1)) :
    (cfg0.win 7).cut (grid0.coords last) x = ((cfg0.win 7).blk last).view.read (Elt F) x := by
  have hz' : (fun a => win0_7.index last a * main_v11_1.ty.shape.size a) = fun _ => 0 :=
    funext fun a => by fin_cases a <;> decide +kernel
  exact (Memref.read_access_unit_zero (Elt F) main_v11_1 hz' (fun a => by rw [congrFun hz' a]; simp) x).symm

/-- the one write-back of window 7, at the last point, writes what that point left in the block -/
theorem flushed7_eq (t : Fin cfg0.N) (hf : (cfg0.win 7).flush t = true) :
    (dats m 0 c).flushed 7 t = ((cfg0.win 7).blk t).view.read (Elt F) (outsAt0 m c last.val last.isLt).2.1 := by
  have hN : cfg0.N = 64 := N_0
  have h63 : t.val = 63 := by have := (flush0_7 t).mp hf; have := t.isLt; omega
  obtain rfl : t = last := Fin.ext h63
  show (cfg0.win 7).cut (grid0.coords last) ((dats m 0 c).after 7 last) = _
  rw [after0_7]
  exact read_whole7 c _

/-- so the second output array ends holding what the last point left: the last point covers it -/
theorem final7' : (dats m 0 c).arrAt 7 cfg0.N = (outsAt0 m c last.val last.isLt).2.1 :=
  (dats m 0 c).arrAt_eq_of_cover 7 (outsAt0 m c last.val last.isLt).2.1 (flushed7_eq m c) fun i =>
    ⟨last, (flush0_7 last).mpr rfl, by
      show i ∈ ((View.whole main_v11_1).slice (win0_7.rect last)).set
      rw [View.set_slice_whole, Rect.mem_set_unit]
      intro a
      have h0 : (i 0 : Nat) < 1 := (i 0).isLt
      have h1 : (i 1 : Nat) < 1 := (i 1).isLt
      match a with
      | ⟨0, _⟩ =>
        show win0_7.index last 0 * win0_7.size 0 ≤ (i 0 : Nat)
          ∧ (i 0 : Nat) < win0_7.index last 0 * win0_7.size 0 + win0_7.xsize (grid0.coords last) 0
        rw [show win0_7.index last 0 * win0_7.size 0 = 0 from by decide +kernel,
          show win0_7.xsize (grid0.coords last) 0 = 1 from by decide +kernel]
        omega
      | ⟨1, _⟩ =>
        show win0_7.index last 1 * win0_7.size 1 ≤ (i 1 : Nat)
          ∧ (i 1 : Nat) < win0_7.index last 1 * win0_7.size 1 + win0_7.xsize (grid0.coords last) 1
        rw [show win0_7.index last 1 * win0_7.size 1 = 0 from by decide +kernel,
          show win0_7.xsize (grid0.coords last) 1 = 1 from by decide +kernel]
        omega⟩

/-- the same with the point's number written out -/
theorem final7 : (dats m 0 c).arrAt 7 cfg0.N = (outsAt0 m c 63 last.isLt).2.1 := final7' m c

/-- the host reshape [1, 1] → [] after the region reads the second output array, which holds what the last point left -/
theorem tail13' : Pipeline.afterTail₀ cfgs (dats m) 0 (V0 m) [hostOps1] c main_v13
    = shapeCast S_ ((outsAt0 m c last.val last.isLt).2.1 : S1x1.Idx → Elt F .f32) shapeCasts_S1x1_S_ := by
  unfold Pipeline.afterTail₀
  show StableHlo.after hostOps1 _ (Proc.devRef .tc main_v13) = _
  after_results
  have e : Pipeline.withArrays (cfgs 0).spec c (V0 m c) (fun w => (dats m 0 c).arrAt w (cfgs 0).N)
      (Proc.devRef .tc main_v11_1) = (outsAt0 m c last.val last.isLt).2.1 :=
    (Pipeline.withArrays_arr spec0 launch0.win.arr_inj c _ _ 7).trans (final7' m c)
  rw [e]
  rfl

/-- its one entry is the one entry of what the last point left -/
theorem tail13_apply' : Pipeline.afterTail₀ cfgs (dats m) 0 (V0 m) [hostOps1] c main_v13 ix0
    = (outsAt0 m c last.val last.isLt).2.1 (ix2 0 0) := by
  refine (congrFun (tail13' m c) ix0).trans ?_
  refine shapeCast_apply _ _ _ (ix2 (0 : Fin 1) (0 : Fin 1)) ?_
  rw [Shape.rowMajor_val_two]
  have h := (S_.rowMajor ix0).isLt
  have hn : S_.numel = 1 := by decide
  show 0 * 1 + 0 = _
  omega

/-- the two, with the point's number written out -/
theorem tail13 : Pipeline.afterTail₀ cfgs (dats m) 0 (V0 m) [hostOps1] c main_v13
    = shapeCast S_ ((outsAt0 m c 63 last.isLt).2.1 : S1x1.Idx → Elt F .f32) shapeCasts_S1x1_S_ := tail13' m c

theorem tail13_apply : Pipeline.afterTail₀ cfgs (dats m) 0 (V0 m) [hostOps1] c main_v13 ix0
    = (outsAt0 m c 63 last.isLt).2.1 (ix2 0 0) := tail13_apply' m c

/-! ## Output window 8 -/

/-- block (0, 0) of the third output's [1, 1] array, read through zero offsets, is the array: whatever the last point
    leaves in the block is what it writes back -/
theorem read_whole8 (x : Buf (Elt F) ((c : Thread nD τ).loc main_v11_2)) :
    (cfg0.win 8).cut (grid0.coords last) x = ((cfg0.win 8).blk last).view.read (Elt F) x := by
  have hz' : (fun a => win0_8.index last a * main_v11_2.ty.shape.size a) = fun _ => 0 :=
    funext fun a => by fin_cases a <;> decide +kernel
  exact (Memref.read_access_unit_zero (Elt F) main_v11_2 hz' (fun a => by rw [congrFun hz' a]; simp) x).symm

/-- the one write-back of window 8, at the last point, writes what that point left in the block -/
theorem flushed8_eq (t : Fin cfg0.N) (hf : (cfg0.win 8).flush t = true) :
    (dats m 0 c).flushed 8 t = ((cfg0.win 8).blk t).view.read (Elt F) (outsAt0 m c last.val last.isLt).2.2.1 := by
  have hN : cfg0.N = 64 := N_0
  have h63 : t.val = 63 := by have := (flush0_8 t).mp hf; have := t.isLt; omega
  obtain rfl : t = last := Fin.ext h63
  show (cfg0.win 8).cut (grid0.coords last) ((dats m 0 c).after 8 last) = _
  rw [after0_8]
  exact read_whole8 c _

/-- so the third output array ends holding what the last point left: the last point covers it -/
theorem final8' : (dats m 0 c).arrAt 8 cfg0.N = (outsAt0 m c last.val last.isLt).2.2.1 :=
  (dats m 0 c).arrAt_eq_of_cover 8 (outsAt0 m c last.val last.isLt).2.2.1 (flushed8_eq m c) fun i =>
    ⟨last, (flush0_8 last).mpr rfl, by
      show i ∈ ((View.whole main_v11_2).slice (win0_8.rect last)).set
      rw [View.set_slice_whole, Rect.mem_set_unit]
      intro a
      have h0 : (i 0 : Nat) < 1 := (i 0).isLt
      have h1 : (i 1 : Nat) < 1 := (i 1).isLt
      match a with
      | ⟨0, _⟩ =>
        show win0_8.index last 0 * win0_8.size 0 ≤ (i 0 : Nat)
          ∧ (i 0 : Nat) < win0_8.index last 0 * win0_8.size 0 + win0_8.xsize (grid0.coords last) 0
        rw [show win0_8.index last 0 * win0_8.size 0 = 0 from by decide +kernel,
          show win0_8.xsize (grid0.coords last) 0 = 1 from by decide +kernel]
        omega
      | ⟨1, _⟩ =>
        show win0_8.index last 1 * win0_8.size 1 ≤ (i 1 : Nat)
          ∧ (i 1 : Nat) < win0_8.index last 1 * win0_8.size 1 + win0_8.xsize (grid0.coords last) 1
        rw [show win0_8.index last 1 * win0_8.size 1 = 0 from by decide +kernel,
          show win0_8.xsize (grid0.coords last) 1 = 1 from by decide +kernel]
        omega⟩

/-- the same with the point's number written out -/
theorem final8 : (dats m 0 c).arrAt 8 cfg0.N = (outsAt0 m c 63 last.isLt).2.2.1 := final8' m c

/-- the host reshape [1, 1] → [] after the region reads the third output array, which holds what the last point left -/
theorem tail14' : Pipeline.afterTail₀ cfgs (dats m) 0 (V0 m) [hostOps1] c main_v14
    = shapeCast S_ ((outsAt0 m c last.val last.isLt).2.2.1 : S1x1.Idx → Elt F .f32) shapeCasts_S1x1_S_ := by
  unfold Pipeline.afterTail₀
  show StableHlo.after hostOps1 _ (Proc.devRef .tc main_v14) = _
  after_results
  have e : Pipeline.withArrays (cfgs 0).spec c (V0 m c) (fun w => (dats m 0 c).arrAt w (cfgs 0).N)
      (Proc.devRef .tc main_v11_2) = (outsAt0 m c last.val last.isLt).2.2.1 :=
    (Pipeline.withArrays_arr spec0 launch0.win.arr_inj c _ _ 8).trans (final8' m c)
  rw [e]
  rfl

/-- its one entry is the one entry of what the last point left -/
theorem tail14_apply' : Pipeline.afterTail₀ cfgs (dats m) 0 (V0 m) [hostOps1] c main_v14 ix0
    = (outsAt0 m c last.val last.isLt).2.2.1 (ix2 0 0) := by
  refine (congrFun (tail14' m c) ix0).trans ?_
  refine shapeCast_apply _ _ _ (ix2 (0 : Fin 1) (0 : Fin 1)) ?_
  rw [Shape.rowMajor_val_two]
  have h := (S_.rowMajor ix0).isLt
  have hn : S_.numel = 1 := by decide
  show 0 * 1 + 0 = _
  omega

/-- the two, with the point's number written out -/
theorem tail14 : Pipeline.afterTail₀ cfgs (dats m) 0 (V0 m) [hostOps1] c main_v14
    = shapeCast S_ ((outsAt0 m c 63 last.isLt).2.2.1 : S1x1.Idx → Elt F .f32) shapeCasts_S1x1_S_ := tail14' m c

theorem tail14_apply : Pipeline.afterTail₀ cfgs (dats m) 0 (V0 m) [hostOps1] c main_v14 ix0
    = (outsAt0 m c 63 last.isLt).2.2.1 (ix2 0 0) := tail14_apply' m c

end Cert.KernelIdeal.KerOut

end
-- ==== Proof.KerFinal.lean ====
/-
  The kernel's run read as values: after the last grid point the three [1,1] outputs hold the specification's three
  losses of the argument arrays; the region writes them back once, and the host reshapes them to scalars.
-/
import proofs.«149552_g33784212750688_cont_8to1_b_455_6_alg».proof.Proof.KerSum
import proofs.«149552_g33784212750688_cont_8to1_b_455_6_alg».proof.Proof.LibReal
import proofs.«149552_g33784212750688_cont_8to1_b_455_6_alg».proof.Proof.KerOut

set_option maxRecDepth 16384

noncomputable section

open scoped BigOperators
open Idealize.ShloMosaic Idealize.ShloMosaic.TcCoe Idealize.SL.Sem Idealize.ShloMosaic.ValueIdx

namespace Cert.KernelIdeal.KerFinal

open Cert.KernelIdeal Cert.KernelIdeal.Gen Cert.KernelIdeal.KerPieces Cert.KernelIdeal.KerAccum Cert.KernelIdeal.KerBody
  Cert.KernelIdeal.KerRow Cert.KernelIdeal.KerInputs Cert.KernelIdeal.KerSum Loss

variable (m : (ℓ : Loc nD τ sig) → Buf (Elt Ideal) ℓ) (c : Dev nD)

/-- the classification output after the last point is the specification's loss of the argument arrays -/
theorem out6_value (h : 63 < cfg0.N) (hx : ∀ n col, Cert.LibReal.IsReal (X m c n col)) :
    (outsAt0 m c 63 h).1 (ix2 0 0) = lossCls (X m c) (CT m c) (MK m c) := by
  rw [out6_eq m c h]
  refine (pay5_apply _ _ _ _ _).trans ?_
  have e0 : acc m c 62 (Nat.lt_of_succ_lt h) (ix2 0 0) + blkCls m c ⟨63, h⟩ = ∑ g : Fin 64, partCls m c g.val := by
    rw [acc_entry0 m c 62]
    refine Eq.trans ?_ (chain_63 (partCls m c))
    show chain (partCls m c) 62 + _ = chain (partCls m c) 62 + partCls m c 63
    rw [show partCls m c 63 = blkCls m c ⟨63, h⟩ from dif_pos h]
  have e3 : acc m c 62 (Nat.lt_of_succ_lt h) (ix2 0 3) + blkFg m c ⟨63, h⟩ = ∑ g : Fin 64, partFg m c g.val := by
    rw [acc_entry3 m c 62]
    refine Eq.trans ?_ (chain_63 (partFg m c))
    show chain (partFg m c) 62 + _ = chain (partFg m c) 62 + partFg m c 63
    rw [show partFg m c 63 = blkFg m c ⟨63, h⟩ from dif_pos h]
  show Ideal.div (acc m c 62 _ (ix2 0 0) + blkCls m c ⟨63, h⟩) (max (acc m c 62 _ (ix2 0 3) + blkFg m c ⟨63, h⟩) f1) = _
  rw [e0, e3, Finset.sum_congr rfl (fun g _ => partCls_eq m c g), Finset.sum_congr rfl (fun g _ => partFg_eq m c g)]
  exact bridge_cls (X m c) hx (CT m c) (MK m c)

/-- the regression output after the last point is the specification's loss of the argument arrays -/
theorem out7_value (h : 63 < cfg0.N) :
    (outsAt0 m c 63 h).2.1 (ix2 0 0) = lossReg (PB m c) (BT m c) (CT m c) := by
  rw [out7_eq m c h]
  refine (pay6_apply _ _ _ _ _).trans ?_
  have e0 : acc m c 62 (Nat.lt_of_succ_lt h) (ix2 0 1) + blkReg m c ⟨63, h⟩ = ∑ g : Fin 64, partReg m c g.val := by
    rw [acc_entry1 m c 62]
    refine Eq.trans ?_ (chain_63 (partReg m c))
    show chain (partReg m c) 62 + _ = chain (partReg m c) 62 + partReg m c 63
    rw [show partReg m c 63 = blkReg m c ⟨63, h⟩ from dif_pos h]
  have e3 : acc m c 62 (Nat.lt_of_succ_lt h) (ix2 0 3) + blkFg m c ⟨63, h⟩ = ∑ g : Fin 64, partFg m c g.val := by
    rw [acc_entry3 m c 62]
    refine Eq.trans ?_ (chain_63 (partFg m c))
    show chain (partFg m c) 62 + _ = chain (partFg m c) 62 + partFg m c 63
    rw [show partFg m c 63 = blkFg m c ⟨63, h⟩ from dif_pos h]
  show Ideal.div (acc m c 62 _ (ix2 0 1) + blkReg m c ⟨63, h⟩) (max (acc m c 62 _ (ix2 0 3) + blkFg m c ⟨63, h⟩) f1) = _
  rw [e0, e3, Finset.sum_congr rfl (fun g _ => partReg_eq m c g), Finset.sum_congr rfl (fun g _ => partFg_eq m c g)]
  exact bridge_reg (PB m c) (BT m c) (CT m c)

/-- the IoU output after the last point is the specification's loss of the argument arrays -/
theorem out8_value (h : 63 < cfg0.N) :
    (outsAt0 m c 63 h).2.2.1 (ix2 0 0) = lossIou (PI m c) (TI m c) (CT m c) := by
  rw [out8_eq m c h]
  refine (pay7_apply _ _ _ _ _).trans ?_
  have e0 : acc m c 62 (Nat.lt_of_succ_lt h) (ix2 0 2) + blkIou m c ⟨63, h⟩ = ∑ g : Fin 64, partIou m c g.val := by
    rw [acc_entry2 m c 62]
    refine Eq.trans ?_ (chain_63 (partIou m c))
    show chain (partIou m c) 62 + _ = chain (partIou m c) 62 + partIou m c 63
    rw [show partIou m c 63 = blkIou m c ⟨63, h⟩ from dif_pos h]
  have e3 : acc m c 62 (Nat.lt_of_succ_lt h) (ix2 0 3) + blkFg m c ⟨63, h⟩ = ∑ g : Fin 64, partFg m c g.val := by
    rw [acc_entry3 m c 62]
    refine Eq.trans ?_ (chain_63 (partFg m c))
    show chain (partFg m c) 62 + _ = chain (partFg m c) 62 + partFg m c 63
    rw [show partFg m c 63 = blkFg m c ⟨63, h⟩ from dif_pos h]
  show Ideal.div (acc m c 62 _ (ix2 0 2) + blkIou m c ⟨63, h⟩) (max (acc m c 62 _ (ix2 0 3) + blkFg m c ⟨63, h⟩) f1) = _
  rw [e0, e3, Finset.sum_congr rfl (fun g _ => partIou_eq m c g), Finset.sum_congr rfl (fun g _ => partFg_eq m c g)]
  exact bridge_iou (PI m c) (TI m c) (CT m c)

/-- The kernel's run at the exact instance: every weakly fair execution terminates, the three scalar results hold the
    specification's three losses of the argument arrays (given real class logits), and the arguments end unchanged. -/
theorem run (m : (ℓ : Loc nD τ sig) → Buf (Elt Ideal) ℓ) (ρ : Dev nD → PrngReg)
    (hx : ∀ (c : Dev nD) n col, Cert.LibReal.IsReal (X m c n col)) :
    θ_run defs (onTc (τ := τ) (main (F := Ideal))) ⟨m, fun _ => 0, ρ⟩ (fun r => ∀ c : Dev nD,
      r.2.mem ((c.tc : Thread nD τ).loc main_v12) = (fun _ => lossCls (X m c) (CT m c) (MK m c))
      ∧ r.2.mem ((c.tc : Thread nD τ).loc main_v13) = (fun _ => lossReg (PB m c) (BT m c) (CT m c))
      ∧ r.2.mem ((c.tc : Thread nD τ).loc main_v14) = (fun _ => lossIou (PI m c) (TI m c) (CT m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v12 (Pipeline.mem_restRefs_of main_v12 (by decide) (by decide))).trans (funext fun j => by
        rw [eq_ix0 j, Cert.KernelIdeal.KerOut.tail12_apply m c]; exact out6_value m c _ (hx c)),
      ((h c).2 main_v13 (Pipeline.mem_restRefs_of main_v13 (by decide) (by decide))).trans (funext fun j => by
        rw [eq_ix0 j, Cert.KernelIdeal.KerOut.tail13_apply m c]; exact out7_value m c _),
      ((h c).2 main_v14 (Pipeline.mem_restRefs_of main_v14 (by decide) (by decide))).trans (funext fun j => by
        rw [eq_ix0 j, Cert.KernelIdeal.KerOut.tail14_apply m c]; exact out8_value m c _),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.KerFinal
end
-- ==== Proof.Finite.lean ====
/-
  The precondition read back for the class logits: when the test "every float input has |entries| < +inf" holds,
  every class logit is a real number. The test is a conjunction of five all-reductions; the first is the one over the
  class logits, and an all-reduction that is true is true at every index.
-/
import proofs.«149552_g33784212750688_cont_8to1_b_455_6_alg».proof.Pre_finite_inputs
import proofs.«149552_g33784212750688_cont_8to1_b_455_6_alg».proof.Proof.LibReal
import Idealize.ShloMosaic.Lib.ReduceAll

noncomputable section

namespace Cert.Finite

open Idealize.ShloMosaic Cert.Pre_finite_inputs

instance : Subsingleton S_.Idx := ⟨fun a b => funext fun d => d.elim0⟩

variable [Cert.Pre_finite_inputs.Facts]
open Cert.Pre_finite_inputs.Facts

/-- Under the precondition every class logit is a real number. -/
theorem logits_real (a0 : FVec Ideal S262144x80 .f32) (a1 : FVec Ideal S262144x4 .f32) (a2 : FVec Ideal S262144x1 .f32)
    (a3 : IVec S262144 32) (a4 : FVec Ideal S262144x4 .f32) (a5 : FVec Ideal S262144x1 .f32) (a6 : IVec S262144 1)
    (h : fn (F := Ideal) a0 a1 a2 a3 a4 a5 a6 = fun _ => 1#1) (i : S262144x80.Idx) : Cert.LibReal.IsReal (a0 i) := by
  have h0 := congrFun h ValueIdx.ix0
  dsimp only [fn, fn_part1] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  exact Cert.LibReal.entry_real a0 bcast_S_S262144x80 i (Host.reduce_andi_all _ _ _ _ ValueIdx.ix0 h4 i)

end Cert.Finite

end
-- ==== Proof.lean ====
/-
  The certificate of the detection-loss kernel against its reference.

  Both programs compute three numbers from 262144 anchors: the sigmoid focal loss of the 80 class logits (targets
  one-hot at the anchor's class word, zero on background; valid anchors only), 1 - GIoU of the predicted and target
  boxes, and the binary cross entropy with logits of the IoU logit (both over foreground anchors), each summed and
  divided by max(number of foreground anchors, 1).

  The reference computes them array-wide. The kernel walks 64 blocks of 4096 anchors, adds each block's four partial
  sums (three losses and the foreground count) to a [1,4] accumulator row, and divides at the last block; it spells
  the focal term with one compare of the class lane against the class word and three transcendentals,
  using softplus(x) = max(x,0) + log(1 + exp(-|x|)) = log(1 + e^x), so that (1 - p_t)^2 = exp(-2(softplus(x) - x)) for
  target 0 and exp(-2 softplus(x)) for target 1. On the extended reals the two agree when the logits are real numbers,
  which the precondition gives; sums regroup freely (addition of extended reals is commutative and associative), the
  GIoU and cross-entropy terms are spelt alike in both programs, and the integer count of the reference is the float
  count of the kernel because fewer than 2^31 anchors are counted.

  Modules: Spec (the losses anchor by anchor), FocalLaw / Laws / Bridge (the mathematics joining the two spellings),
  RefLoss (the reference's three results are the specification), KerPieces / KerBody / KerRow / KerAccum / KerSum /
  KerInputs / KerOut / KerFinal (the kernel's three results are the specification), Finite (real logits from the
  precondition).
-/
import proofs.«149552_g33784212750688_cont_8to1_b_455_6_alg».proof.Defs
import proofs.«149552_g33784212750688_cont_8to1_b_455_6_alg».proof.Proof.Gen.Kernel
import proofs.«149552_g33784212750688_cont_8to1_b_455_6_alg».proof.Proof.Gen.Kernel.Skeleton
import proofs.«149552_g33784212750688_cont_8to1_b_455_6_alg».proof.Proof.Gen.Kernel.Launch
import proofs.«149552_g33784212750688_cont_8to1_b_455_6_alg».proof.Proof.Gen.Kernel.Points
import proofs.«149552_g33784212750688_cont_8to1_b_455_6_alg».proof.Proof.Gen.Kernel.Frame
import proofs.«149552_g33784212750688_cont_8to1_b_455_6_alg».proof.Proof.Gen.KernelIdeal
import proofs.«149552_g33784212750688_cont_8to1_b_455_6_alg».proof.Proof.Gen.KernelIdeal.Skeleton
import proofs.«149552_g33784212750688_cont_8to1_b_455_6_alg».proof.Proof.Gen.KernelIdeal.Launch
import proofs.«149552_g33784212750688_cont_8to1_b_455_6_alg».proof.Proof.Gen.KernelIdeal.Points
import proofs.«149552_g33784212750688_cont_8to1_b_455_6_alg».proof.Proof.Gen.KernelIdeal.Frame
import proofs.«149552_g33784212750688_cont_8to1_b_455_6_alg».proof.Proof.Gen.ReferenceIdeal
import proofs.«149552_g33784212750688_cont_8to1_b_455_6_alg».proof.Proof.Gen.Pre_finite_inputs
import proofs.«149552_g33784212750688_cont_8to1_b_455_6_alg».proof.Proof.Gen.ReferenceIdeal.Run
import proofs.«149552_g33784212750688_cont_8to1_b_455_6_alg».proof.Proof.Gen.ReferenceIdeal.Read
import proofs.«149552_g33784212750688_cont_8to1_b_455_6_alg».proof.Proof.RefLoss
import proofs.«149552_g33784212750688_cont_8to1_b_455_6_alg».proof.Proof.KerFinal
import proofs.«149552_g33784212750688_cont_8to1_b_455_6_alg».proof.Proof.Finite
import Idealize.ShloMosaic.Adequacy
import Idealize.ShloMosaic.Init

set_option maxRecDepth 16384

noncomputable section

namespace Cert.Proof

open Idealize.ShloMosaic Idealize.ShloMosaic.ValueIdx Idealize.SL.Sem

/-- The reference's frame: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- At the exact instance both programs end with the specification's three losses of arguments that agree. -/
theorem algebraic : Cert.algebraic_KernelIdeal_ReferenceIdeal := by
  intro m ρ m' ρ' hpre hagree
  refine ⟨fun c _ => Loss.lossCls (Cert.KernelIdeal.KerSum.X m c) (Cert.KernelIdeal.KerSum.CT m c) (Cert.KernelIdeal.KerSum.MK m c),
    fun c _ => Loss.lossReg (Cert.KernelIdeal.KerSum.PB m c) (Cert.KernelIdeal.KerSum.BT m c) (Cert.KernelIdeal.KerSum.CT m c),
    fun c _ => Loss.lossIou (Cert.KernelIdeal.KerSum.PI m c) (Cert.KernelIdeal.KerSum.TI m c) (Cert.KernelIdeal.KerSum.CT m c),
    Cert.KernelIdeal.KerFinal.run m ρ (fun c n col => Cert.Finite.logits_real _ _ _ _ _ _ _ (hpre c) (ix2 n col)), ?_⟩
  refine (θ_run Cert.ReferenceIdeal.defs _ _).mono (fun _ h c => ?_) (Cert.ReferenceIdeal.Value.run (F := Ideal) m' ρ')
  obtain ⟨h59, h118, h131, hargs⟩ := h c
  obtain ⟨a0, a1, a2, a3, a4, a5, a6⟩ := hagree c
  refine ⟨h59.trans ?_, h118.trans ?_, h131.trans ?_, hargs⟩
  · rw [Cert.ReferenceIdeal.Read.val_main_v59_eq, Cert.RefLoss.ref_cls, a0, a3, a6]
    rfl
  · rw [Cert.ReferenceIdeal.Read.val_main_v118_eq, Cert.RefLoss.ref_reg, a1, a3, a4]
    rfl
  · rw [Cert.ReferenceIdeal.Read.val_main_v131_eq, Cert.RefLoss.ref_iou, a2, a3, a5]
    rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
